-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S512 : Shape := ⟨1, ![512]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : FVec F S512x128 .f32) (main_arg1 : IVec S512 32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  main_v3
-- ==== Kernel.lean ====
abbrev S512x128 : Shape := ⟨2, ![512, 128]⟩
abbrev S512 : Shape := ⟨1, ![512]⟩
abbrev S512x1 : Shape := ⟨2, ![512, 1]⟩
abbrev S1x512 : Shape := ⟨2, ![1, 512]⟩
abbrev S1x1 : Shape := ⟨2, ![1, 1]⟩
abbrev S8x128 : Shape := ⟨2, ![8, 128]⟩
abbrev S8x1 : Shape := ⟨2, ![8, 1]⟩
abbrev S8x1x128 : Shape := ⟨3, ![8, 1, 128]⟩
abbrev S1x512x128 : Shape := ⟨3, ![1, 512, 128]⟩
abbrev S8x512x128 : Shape := ⟨3, ![8, 512, 128]⟩
abbrev S8x512 : Shape := ⟨2, ![8, 512]⟩
abbrev S8 : Shape := ⟨1, ![8]⟩
abbrev S8x1x512 : Shape := ⟨3, ![8, 1, 512]⟩
abbrev S8x512x1 : Shape := ⟨3, ![8, 512, 1]⟩
abbrev S8x512x512 : Shape := ⟨3, ![8, 512, 512]⟩
abbrev S1 : Shape := ⟨1, ![1]⟩
abbrev S_ : Shape := ⟨0, ![]⟩

abbrev nBuf : Space → Nat
  | .hbm => 6
  | .vmem => 9
  | .smem => 0
  | _ => 0

abbrev bufTy : (tb : Table) → Fin (tcTables nBuf tb) → BufTy
  | .hbm, ⟨0, _⟩ => ⟨S512x128, .f32⟩
  | .hbm, ⟨1, _⟩ => ⟨S512, .i32⟩
  | .hbm, ⟨2, _⟩ => ⟨S512x1, .i32⟩
  | .hbm, ⟨3, _⟩ => ⟨S1x512, .i32⟩
  | .hbm, ⟨4, _⟩ => ⟨S1x1, .f32⟩
  | .hbm, ⟨5, _⟩ => ⟨S_, .f32⟩
  | .local _ .vmem, ⟨0, _⟩ => ⟨S8x128, .f32⟩
  | .local _ .vmem, ⟨1, _⟩ => ⟨S8x128, .f32⟩
  | .local _ .vmem, ⟨2, _⟩ => ⟨S512x128, .f32⟩
  | .local _ .vmem, ⟨3, _⟩ => ⟨S8x1, .i32⟩
  | .local _ .vmem, ⟨4, _⟩ => ⟨S8x1, .i32⟩
  | .local _ .vmem, ⟨5, _⟩ => ⟨S1x512, .i32⟩
  | .local _ .vmem, ⟨6, _⟩ => ⟨S1x1, .f32⟩
  | .local _ .vmem, ⟨7, _⟩ => ⟨S1x1, .f32⟩
  | .local _ .vmem, ⟨8, _⟩ => ⟨S1x1, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v97 : BitVec 1 := Scalar.cmpi .eq arg0 c63_i32
  let v98 : BitVec 32 := Scalar.extui v97
  let c0_i32_31 : BitVec 32 := 0#32
  let v99 : BitVec 1 := Scalar.cmpi .ne v98 c0_i32_31
  v99

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S512_S512x1 : S512.ShapeCasts S512x1
  shapeCasts_S512_S1x512 : S512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x128_S8x128_0_0 : ∀ a, (![0, 0] : Fin 2 → Nat) a + S8x128.size a ≤ S8x128.size a
  h_S8x128 : 0 < S8x128.numel
  inb_S512x128_S512x128_0_0 : ∀ a, (![0, 0] : Fin 2 → Nat) a + S512x128.size a ≤ S512x128.size a
  h_S512x128 : 0 < S512x128.numel
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S8x128_S8x1x128 : S8x128.ShapeCasts S8x1x128
  shapeCasts_S512x128_S1x512x128 : S512x128.ShapeCasts S1x512x128
  broadcasts_S8x1x128_S8x512x128 : S8x1x128.Broadcasts S8x512x128
  broadcasts_S1x512x128_S8x512x128 : S1x512x128.Broadcasts S8x512x128
  reduces_S8x512x128_S8x512 : S8x512x128.Reduces [2] S8x512
  iota_S8x1_d0_w32 : S8x1.Iotas .tc 32 [0]
  iota_S1x512_d1_w32 : S1x512.Iotas .tc 32 [1]
  broadcasts_S8x1_S8x512 : S8x1.Broadcasts S8x512
  broadcasts_S1x512_S8x512 : S1x512.Broadcasts S8x512
  natLt_1_32 : 1 < 32
  reduces_S8x512_S8 : S8x512.Reduces [1] S8
  shapeCasts_S8_S8x1 : S8.ShapeCasts S8x1
  shapeCasts_S8x512_S8x1x512 : S8x512.ShapeCasts S8x1x512
  shapeCasts_S8x512_S8x512x1 : S8x512.ShapeCasts S8x512x1
  broadcasts_S8x1x512_S8x512x512 : S8x1x512.Broadcasts S8x512x512
  broadcasts_S8x512x1_S8x512x512 : S8x512x1.Broadcasts S8x512x512
  reduces_S8x512x512_S8x512 : S8x512x512.Reduces [2] S8x512
  reduces_S8x1_S1 : S8x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S512x128.size a
  hwx0_0 : ∀ i : grid0.Coords, EltTy.bits .f32 = 32 ∨ (Rect.block (s := S512x128) S8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S512x1.size a
  hwx0_2 : ∀ i : grid0.Coords, EltTy.bits .i32 = 32 ∨ (Rect.block (s := S512x1) S8x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .i32 = 32 ∨ (Rect.block (s := S1x512) S1x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S512x128 : Shape := ⟨2, ![512, 128]⟩
abbrev S512 : Shape := ⟨1, ![512]⟩
abbrev S512x1x128 : Shape := ⟨3, ![512, 1, 128]⟩
abbrev S1x512x128 : Shape := ⟨3, ![1, 512, 128]⟩
abbrev S512x512x128 : Shape := ⟨3, ![512, 512, 128]⟩
abbrev S_ : Shape := ⟨0, ![]⟩
abbrev S512x512 : Shape := ⟨2, ![512, 512]⟩
abbrev S512x1 : Shape := ⟨2, ![512, 1]⟩
abbrev S1x512 : Shape := ⟨2, ![1, 512]⟩
abbrev S512x1x512 : Shape := ⟨3, ![512, 1, 512]⟩
abbrev S512x512x1 : Shape := ⟨3, ![512, 512, 1]⟩
abbrev S512x512x512 : Shape := ⟨3, ![512, 512, 512]⟩

abbrev nBuf : Space → Nat
  | .hbm => 85
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512, .i32⟩
  | .hbm, ⟨2, _⟩ => ⟨S512x1x128, .f32⟩
  | .hbm, ⟨3, _⟩ => ⟨S1x512x128, .f32⟩
  | .hbm, ⟨4, _⟩ => ⟨S512x512x128, .f32⟩
  | .hbm, ⟨5, _⟩ => ⟨S512x512x128, .f32⟩
  | .hbm, ⟨6, _⟩ => ⟨S512x512x128, .f32⟩
  | .hbm, ⟨7, _⟩ => ⟨S_, .f32⟩
  | .hbm, ⟨8, _⟩ => ⟨S512x512x128, .f32⟩
  | .hbm, ⟨9, _⟩ => ⟨S512x512x128, .f32⟩
  | .hbm, ⟨10, _⟩ => ⟨S512x512x128, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S512x512, .i1⟩
  | .hbm, ⟨20, _⟩ => ⟨S512x512, .f32⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S512x1, .i32⟩
  | .hbm, ⟨26, _⟩ => ⟨S1x512, .i32⟩
  | .hbm, ⟨27, _⟩ => ⟨S512x512, .i32⟩
  | .hbm, ⟨28, _⟩ => ⟨S512x512, .i32⟩
  | .hbm, ⟨29, _⟩ => ⟨S512x512, .i1⟩
  | .hbm, ⟨30, _⟩ => ⟨S512x512, .i1⟩
  | .hbm, ⟨31, _⟩ => ⟨S512x512, .f32⟩
  | .hbm, ⟨32, _⟩ => ⟨S512x512, .f32⟩
  | .hbm, ⟨33, _⟩ => ⟨S512x1x512, .f32⟩
  | .hbm, ⟨34, _⟩ => ⟨S512x1x512, .f32⟩
  | .hbm, ⟨35, _⟩ => ⟨S512x512x1, .f32⟩
  | .hbm, ⟨36, _⟩ => ⟨S512x512x512, .f32⟩
  | .hbm, ⟨37, _⟩ => ⟨S512x512x512, .f32⟩
  | .hbm, ⟨38, _⟩ => ⟨S512x512x512, .i1⟩
  | .hbm, ⟨39, _⟩ => ⟨S512x512x512, .f32⟩
  | .hbm, ⟨40, _⟩ => ⟨S512x512x512, .f32⟩
  | .hbm, ⟨41, _⟩ => ⟨S512x512x512, .f32⟩
  | .hbm, ⟨42, _⟩ => ⟨S_, .f32⟩
  | .hbm, ⟨43, _⟩ => ⟨S512, .f32⟩
  | .hbm, ⟨44, _⟩ => ⟨S512x1, .f32⟩
  | .hbm, ⟨45, _⟩ => ⟨S512x512, .f32⟩
  | .hbm, ⟨46, _⟩ => ⟨S512x512, .f32⟩
  | .hbm, ⟨47, _⟩ => ⟨S512x1x512, .f32⟩
  | .hbm, ⟨48, _⟩ => ⟨S512x512x512, .f32⟩
  | .hbm, ⟨49, _⟩ => ⟨S512x512x512, .f32⟩
  | .hbm, ⟨50, _⟩ => ⟨S_, .f32⟩
  | .hbm, ⟨51, _⟩ => ⟨S512x512, .f32⟩
  | .hbm, ⟨52, _⟩ => ⟨S512x512, .f32⟩
  | .hbm, ⟨53, _⟩ => ⟨S512x512, .f32⟩
  | .hbm, ⟨54, _⟩ => ⟨S_, .f32⟩
  | .hbm, ⟨55, _⟩ => ⟨S512x512, .f32⟩
  | .hbm, ⟨56, _⟩ => ⟨S_, .f32⟩
  | .hbm, ⟨57, _⟩ => ⟨S512x512, .f32⟩
  | .hbm, ⟨58, _⟩ => ⟨S512x512, .i1⟩
  | .hbm, ⟨59, _⟩ => ⟨S_, .f32⟩
  | .hbm, ⟨60, _⟩ => ⟨S512, .f32⟩
  | .hbm, ⟨61, _⟩ => ⟨S512x1, .f32⟩
  | .hbm, ⟨62, _⟩ => ⟨S512x512, .f32⟩
  | .hbm, ⟨63, _⟩ => ⟨S512x512, .f32⟩
  | .hbm, ⟨64, _⟩ => ⟨S512x512, .f32⟩
  | .hbm, ⟨65, _⟩ => ⟨S_, .f32⟩
  | .hbm, ⟨66, _⟩ => ⟨S512, .f32⟩
  | .hbm, ⟨67, _⟩ => ⟨S512x1, .f32⟩
  | .hbm, ⟨68, _⟩ => ⟨S512x1, .f32⟩
  | .hbm, ⟨69, _⟩ => ⟨S512x512, .f32⟩
  | .hbm, ⟨70, _⟩ => ⟨S512x512, .f32⟩
  | .hbm, ⟨71, _⟩ => ⟨S_, .f32⟩
  | .hbm, ⟨72, _⟩ => ⟨S512x512, .f32⟩
  | .hbm, ⟨73, _⟩ => ⟨S512x512, .f32⟩
  | .hbm, ⟨74, _⟩ => ⟨S512x512, .f32⟩
  | .hbm, ⟨75, _⟩ => ⟨S512x512, .f32⟩
  | .hbm, ⟨76, _⟩ => ⟨S_, .f32⟩
  | .hbm, ⟨77, _⟩ => ⟨S_, .f32⟩
  | .hbm, ⟨78, _⟩ => ⟨S512x512, .f32⟩
  | .hbm, ⟨79, _⟩ => ⟨S_, .f32⟩
  | .hbm, ⟨80, _⟩ => ⟨S512x512, .f32⟩
  | .hbm, ⟨81, _⟩ => ⟨S512x512, .f32⟩
  | .hbm, ⟨82, _⟩ => ⟨S_, .f32⟩
  | .hbm, ⟨83, _⟩ => ⟨S_, .f32⟩
  | .hbm, ⟨84, _⟩ => ⟨S_, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_cst_5 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_7 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_call0_v0 : Ref sig .tc := ⟨.hbm, 69, rfl⟩
abbrev main_v57 : Ref sig .tc := ⟨.hbm, 70, rfl⟩
abbrev main_cst_8 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_9 : Ref sig .tc := ⟨.hbm, 76, rfl⟩
abbrev main_v62 : Ref sig .tc := ⟨.hbm, 77, rfl⟩
abbrev main_v63 : Ref sig .tc := ⟨.hbm, 78, rfl⟩
abbrev main_cst_10 : Ref sig .tc := ⟨.hbm, 79, rfl⟩
abbrev main_v64 : Ref sig .tc := ⟨.hbm, 80, rfl⟩
abbrev main_v65 : Ref sig .tc := ⟨.hbm, 81, rfl⟩
abbrev main_cst_11 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]

class Facts₀ : Prop where
  bcast_S512x128_S512x1x128_0_2 : S512x128.BroadcastsInDim S512x1x128 (![0, 2] : Fin 2 → Fin S512x1x128.rank)
  bcast_S512x128_S1x512x128_1_2 : S512x128.BroadcastsInDim S1x512x128 (![1, 2] : Fin 2 → Fin S1x512x128.rank)
  bcast_S512x1x128_S512x512x128_0_1_2 : S512x1x128.BroadcastsInDim S512x512x128 (![0, 1, 2] : Fin 3 → Fin S512x512x128.rank)
  bcast_S1x512x128_S512x512x128_0_1_2 : S1x512x128.BroadcastsInDim S512x512x128 (![0, 1, 2] : Fin 3 → Fin S512x512x128.rank)
  bcast_S_S512x512x128 : S_.BroadcastsInDim S512x512x128 (![] : Fin 0 → Fin S512x512x128.rank)
  reducesTo_S512x512x128_S512x512_d2 : S512x512x128.ReducesTo [2] S512x512
  h_S_ : 0 < S_.numel
  bcast_S_S512x512 : S_.BroadcastsInDim S512x512 (![] : Fin 0 → Fin S512x512.rank)
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S512x1x512_0_2 : S512x512.BroadcastsInDim S512x1x512 (![0, 2] : Fin 2 → Fin S512x1x512.rank)
  bcast_S512x512_S512x512x1_0_1 : S512x512.BroadcastsInDim S512x512x1 (![0, 1] : Fin 2 → Fin S512x512x1.rank)
  bcast_S512x1x512_S512x512x512_0_1_2 : S512x1x512.BroadcastsInDim S512x512x512 (![0, 1, 2] : Fin 3 → Fin S512x512x512.rank)
  bcast_S512x512x1_S512x512x512_0_1_2 : S512x512x1.BroadcastsInDim S512x512x512 (![0, 1, 2] : Fin 3 → Fin S512x512x512.rank)
  reducesTo_S512x512_S512_d1 : S512x512.ReducesTo [1] S512
  reducesTo_S512x512x512_S512x512_d2 : S512x512x512.ReducesTo [2] S512x512
  reducesTo_S512x512_S_d0_1 : S512x512.ReducesTo [0, 1] S_

variable [Facts₀]

class Facts : Prop extends Facts₀ where

variable [Facts]
-- ==== Proof.K.Conds.lean ====
/-
  The two conditionals of the kernel's body, decided over the 64 grid points: the accumulators are cleared at the
  first point only, and the quotient is stored at the last point only; the output window is idle (and not written
  back) at every point but the last. Also the names of the staging and scratch memrefs the body is called with.
-/
import proofs.«114578_j14851996910158_1_alg».proof.Proof.Gen.Kernel.Launch
import proofs.«114578_j14851996910158_1_alg».proof.Proof.Gen.Kernel.Skeleton
import proofs.«114578_j14851996910158_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test (the point is the first), as the body computes it from the grid coordinate. -/
abbrev condFirst (i : grid0.Coords) : Prop :=
  (Scalar.cmpi .ne (Scalar.extui (Scalar.cmpi .eq (BitVec.ofNat 32 (i 0).val) 0#32)) 0#32) = 1#1
/-- It holds at point 0 only. -/
theorem condFirst_iff : ∀ t : Fin cfg0.N, condFirst (grid0.coords t) ↔ t.val = 0 :=
  (by decide +kernel : ∀ t : Fin grid0.N, condFirst (grid0.coords t) ↔ t.val = 0)

/-- The second conditional's test (the point is the last). -/
abbrev condLast (i : grid0.Coords) : Prop := k0_cond2 i = 1#1
/-- It holds at point 63 only. -/
theorem condLast_iff : ∀ t : Fin cfg0.N, condLast (grid0.coords t) ↔ t.val = 63 :=
  (by decide +kernel : ∀ t : Fin grid0.N, condLast (grid0.coords t) ↔ t.val = 63)

/-- The four input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle, and not written back, at every point but the last; at the last it is stored into. -/
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
theorem live4 : ∀ t : Fin cfg0.N, condLast (grid0.coords t) → cfg0.idle 4 (grid0.coords t) = false := by decide +kernel

/-- Each window's current staging memref at point `t`, as the pipeline passes it, and its wholeness. -/
abbrev ms0 (t : Fin cfg0.N) : Memref sig .tc .vmem S8x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The two scratch accumulators (numerator, denominator): whole scoped buffers of the kernel's own. -/
abbrev scA : Memref sig .tc .vmem S1x1 .f32 := Memref.whole cc0_scratch0
abbrev scB : Memref sig .tc .vmem S1x1 .f32 := Memref.whole cc0_scratch1
/-- Views through which buffer contents are stated. -/
abbrev VA : View sig .tc .vmem S1x1 .f32 := scA.view
abbrev VB : View sig .tc .vmem S1x1 .f32 := scB.view
abbrev VO : View sig .tc .vmem S1x1 .f32 := (Memref.whole cc0_stg4_0 : Memref sig .tc .vmem S1x1 .f32).view

end Cert.Kernel.Hand

end
-- ==== Proof.K.RunMid.lean ====
/-
  The body at a middle point (neither the first nor the last): it reads the four input blocks and both
  accumulators, and stores each accumulator back with the tile's contribution added; the output buffer is untouched.
-/
import proofs.«114578_j14851996910158_1_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a middle point, the pieces each accumulator ends with found by running the body. -/
noncomputable def runMid (c : Dev nD) (i : grid0.Coords) (arg1 : Memref sig .tc .vmem S8x128 .f32) (harg1 : arg1.IsWhole) (arg2 : Memref sig .tc .vmem S512x128 .f32) (harg2 : arg2.IsWhole) (arg3 : Memref sig .tc .vmem S8x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 : Vec F S8x128 .f32) (x1 : Vec F S512x128 .f32) (x2 : Vec F S8x1 .i32) (x3 : Vec F S1x512 .i32) (xa xb : Vec F S1x1 .f32) :
    Σ' (LA : List (View.Piece (Elt F) S1x1 .f32)), { LB : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xo ∗ owns (c : Thread nD τ) arg6 fullShare xa ∗ owns (c : Thread nD τ) arg7 fullShare xb
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xo
                ∗ (∃ f, arg6.view.loc (c : Thread nD τ) ↦[arg6.view.set]{fullShare} arg6.view.writes (Elt F) f LA)
                ∗ (∃ f, arg7.view.loc (c : Thread nD τ) ↦[arg7.view.set]{fullShare} arg7.view.writes (Elt F) f LB)) -∗ K ⟨⟩))
          ⊢ wp frame (wpE (defs₀ (F := F)) Variants.none c none) E (cc0__kernel i arg1 harg1 arg2 harg2 arg3 harg3 arg4 harg4 arg5 harg5 arg6 harg6 arg7 harg7) K } := by
  refine ⟨?_, ?_, fun xo E K => ?run⟩
  case run =>
    simp only [cc0__kernel_eq_skeleton]; unfold cc0__kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact H7

end Cert.Kernel.Hand

end
-- ==== Proof.K.RunFirst.lean ====
/-
  The body at the first point: both accumulators, whatever they hold, are cleared, then the tile's contribution is
  added to each; the output buffer is untouched.
-/
import proofs.«114578_j14851996910158_1_alg».proof.Proof.K.RunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at the first point, the pieces each accumulator ends with found by running the body. -/
noncomputable def runFirst (c : Dev nD) (i : grid0.Coords) (arg1 : Memref sig .tc .vmem S8x128 .f32) (harg1 : arg1.IsWhole) (arg2 : Memref sig .tc .vmem S512x128 .f32) (harg2 : arg2.IsWhole) (arg3 : Memref sig .tc .vmem S8x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 : Vec F S8x128 .f32) (x1 : Vec F S512x128 .f32) (x2 : Vec F S8x1 .i32) (x3 : Vec F S1x512 .i32) :
    Σ' (LA : List (View.Piece (Elt F) S1x1 .f32)), { LB : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xo ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xo
                ∗ (∃ f, arg6.view.loc (c : Thread nD τ) ↦[arg6.view.set]{fullShare} arg6.view.writes (Elt F) f LA)
                ∗ (∃ f, arg7.view.loc (c : Thread nD τ) ↦[arg7.view.set]{fullShare} arg7.view.writes (Elt F) f LB)) -∗ K ⟨⟩))
          ⊢ wp frame (wpE (defs₀ (F := F)) Variants.none c none) E (cc0__kernel i arg1 harg1 arg2 harg2 arg3 harg3 arg4 harg4 arg5 harg5 arg6 harg6 arg7 harg7) K } := by
  refine ⟨?_, ?_, fun xo E K => ?run⟩
  case run =>
    simp only [cc0__kernel_eq_skeleton]; unfold cc0__kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3; obtain rfl := harg4.eq_unread hf4
    obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact H7

end Cert.Kernel.Hand

end
-- ==== Proof.K.RunLast.lean ====
/-
  The body at the last point: each accumulator is stored back with the tile's contribution added, and then the
  quotient of the two is stored into the output buffer, whatever it held.
-/
import proofs.«114578_j14851996910158_1_alg».proof.Proof.K.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at the last point, the pieces the output buffer and each accumulator end with found by running the body. -/
noncomputable def runLast (c : Dev nD) (i : grid0.Coords) (arg1 : Memref sig .tc .vmem S8x128 .f32) (harg1 : arg1.IsWhole) (arg2 : Memref sig .tc .vmem S512x128 .f32) (harg2 : arg2.IsWhole) (arg3 : Memref sig .tc .vmem S8x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 : Vec F S8x128 .f32) (x1 : Vec F S512x128 .f32) (x2 : Vec F S8x1 .i32) (x3 : Vec F S1x512 .i32) (xa xb : Vec F S1x1 .f32) :
    Σ' (LO : List (View.Piece (Elt F) S1x1 .f32)) (LA : List (View.Piece (Elt F) S1x1 .f32)), { LB : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xa ∗ owns (c : Thread nD τ) arg7 fullShare xb
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LA)
                ∗ (∃ f, arg7.view.loc (c : Thread nD τ) ↦[arg7.view.set]{fullShare} arg7.view.writes (Elt F) f LB)) -∗ K ⟨⟩))
          ⊢ wp frame (wpE (defs₀ (F := F)) Variants.none c none) E (cc0__kernel i arg1 harg1 arg2 harg2 arg3 harg3 arg4 harg4 arg5 harg5 arg6 harg6 arg7 harg7) K } := by
  refine ⟨?_, ?_, ?_, fun E K => ?run⟩
  case run =>
    simp only [cc0__kernel_eq_skeleton]; unfold cc0__kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    iexists _; iexact H7

end Cert.Kernel.Hand

end
-- ==== Proof.K.Data.lean ====
/-
  The pipeline's proof data. The region finds the two label arrays as the reshapes of the labels and the embeddings
  as launched; each input window's staging buffer holds its block at every point. The two accumulators are carried
  between points: after point `n` they hold what the point's case leaves over what point `n - 1` left (cleared first at
  point 0); the output buffer is written at the last point only, with the accumulators' quotient.
-/
import proofs.«114578_j14851996910158_1_alg».proof.Proof.K.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers when the region is entered: the two reshapes of the labels have run. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What each case leaves -/

theorem first_zero (hn : 0 < cfg0.N) : condFirst (grid0.coords ⟨0, hn⟩) := (condFirst_iff ⟨0, hn⟩).mpr rfl
theorem not_last_zero (hn : 0 < cfg0.N) : ¬condLast (grid0.coords ⟨0, hn⟩) := fun h =>
  absurd (show (0 : ℕ) = 63 from (condLast_iff ⟨0, hn⟩).mp h) (by decide)
theorem not_first_succ (n : ℕ) (hn : n + 1 < cfg0.N) : ¬condFirst (grid0.coords ⟨n + 1, hn⟩) := fun h =>
  Nat.succ_ne_zero n ((condFirst_iff ⟨n + 1, hn⟩).mp h)

/-- Contents nothing consults: the output buffer's at a point that leaves it alone. -/
def restO : Vec F S1x1 .f32 := VO.read (Elt F) VO.junk

/-- The accumulators after the first point. -/
def firstA (c : Dev nD) (t : Fin cfg0.N) (hc0 : condFirst (grid0.coords t)) (hc1 : ¬condLast (grid0.coords t)) : Vec F S1x1 .f32 :=
  VA.read (Elt F) (VA.writes (Elt F) VA.junk (runFirst c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t)).1)
def firstB (c : Dev nD) (t : Fin cfg0.N) (hc0 : condFirst (grid0.coords t)) (hc1 : ¬condLast (grid0.coords t)) : Vec F S1x1 .f32 :=
  VB.read (Elt F) (VB.writes (Elt F) VB.junk (runFirst c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t)).2.1)
theorem coverFirstA (c : Dev nD) (t : Fin cfg0.N) (hc0 : condFirst (grid0.coords t)) (hc1 : ¬condLast (grid0.coords t)) (y : S1x1.Idx) :
    ∃ pc ∈ (runFirst c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t)).1, y ∈ pc.1.set :=
  View.cover_of_tiledL _ S1x1.size (by sl_kernel_rfl) y
theorem coverFirstB (c : Dev nD) (t : Fin cfg0.N) (hc0 : condFirst (grid0.coords t)) (hc1 : ¬condLast (grid0.coords t)) (y : S1x1.Idx) :
    ∃ pc ∈ (runFirst c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t)).2.1, y ∈ pc.1.set :=
  View.cover_of_tiledL _ S1x1.size (by sl_kernel_rfl) y

/-- The accumulators after a middle point, over what the point before left (`xa`, `xb`). -/
def midA (c : Dev nD) (t : Fin cfg0.N) (hc0 : ¬condFirst (grid0.coords t)) (hc1 : ¬condLast (grid0.coords t)) (xa xb : Vec F S1x1 .f32) : Vec F S1x1 .f32 :=
  VA.read (Elt F) (VA.writes (Elt F) VA.junk (runMid c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).1)
def midB (c : Dev nD) (t : Fin cfg0.N) (hc0 : ¬condFirst (grid0.coords t)) (hc1 : ¬condLast (grid0.coords t)) (xa xb : Vec F S1x1 .f32) : Vec F S1x1 .f32 :=
  VB.read (Elt F) (VB.writes (Elt F) VB.junk (runMid c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).2.1)
theorem coverMidA (c : Dev nD) (t : Fin cfg0.N) (hc0 : ¬condFirst (grid0.coords t)) (hc1 : ¬condLast (grid0.coords t)) (xa xb : Vec F S1x1 .f32) (y : S1x1.Idx) :
    ∃ pc ∈ (runMid c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).1, y ∈ pc.1.set :=
  View.cover_of_tiledL _ S1x1.size (by sl_kernel_rfl) y
theorem coverMidB (c : Dev nD) (t : Fin cfg0.N) (hc0 : ¬condFirst (grid0.coords t)) (hc1 : ¬condLast (grid0.coords t)) (xa xb : Vec F S1x1 .f32) (y : S1x1.Idx) :
    ∃ pc ∈ (runMid c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).2.1, y ∈ pc.1.set :=
  View.cover_of_tiledL _ S1x1.size (by sl_kernel_rfl) y

/-- The output buffer and the accumulators after the last point. -/
def lastO (c : Dev nD) (t : Fin cfg0.N) (hc0 : ¬condFirst (grid0.coords t)) (hc1 : condLast (grid0.coords t)) (xa xb : Vec F S1x1 .f32) : Vec F S1x1 .f32 :=
  VO.read (Elt F) (VO.writes (Elt F) VO.junk (runLast c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).1)
def lastA (c : Dev nD) (t : Fin cfg0.N) (hc0 : ¬condFirst (grid0.coords t)) (hc1 : condLast (grid0.coords t)) (xa xb : Vec F S1x1 .f32) : Vec F S1x1 .f32 :=
  VA.read (Elt F) (VA.writes (Elt F) VA.junk (runLast c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).2.1)
def lastB (c : Dev nD) (t : Fin cfg0.N) (hc0 : ¬condFirst (grid0.coords t)) (hc1 : condLast (grid0.coords t)) (xa xb : Vec F S1x1 .f32) : Vec F S1x1 .f32 :=
  VB.read (Elt F) (VB.writes (Elt F) VB.junk (runLast c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).2.2.1)
theorem coverLastO (c : Dev nD) (t : Fin cfg0.N) (hc0 : ¬condFirst (grid0.coords t)) (hc1 : condLast (grid0.coords t)) (xa xb : Vec F S1x1 .f32) (y : S1x1.Idx) :
    ∃ pc ∈ (runLast c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).1, y ∈ pc.1.set :=
  View.cover_of_tiledL _ S1x1.size (by sl_kernel_rfl) y
theorem coverLastA (c : Dev nD) (t : Fin cfg0.N) (hc0 : ¬condFirst (grid0.coords t)) (hc1 : condLast (grid0.coords t)) (xa xb : Vec F S1x1 .f32) (y : S1x1.Idx) :
    ∃ pc ∈ (runLast c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).2.1, y ∈ pc.1.set :=
  View.cover_of_tiledL _ S1x1.size (by sl_kernel_rfl) y
theorem coverLastB (c : Dev nD) (t : Fin cfg0.N) (hc0 : ¬condFirst (grid0.coords t)) (hc1 : condLast (grid0.coords t)) (xa xb : Vec F S1x1 .f32) (y : S1x1.Idx) :
    ∃ pc ∈ (runLast c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).2.2.1, y ∈ pc.1.set :=
  View.cover_of_tiledL _ S1x1.size (by sl_kernel_rfl) y

/-! ## The accumulation over the points -/

/-- After point `n`: the output buffer, the numerator's accumulator, the denominator's. -/
def outsAt (c : Dev nD) : (n : ℕ) → n < cfg0.N → Vec F S1x1 .f32 × Vec F S1x1 .f32 × Vec F S1x1 .f32
  | 0, hn => (restO, firstA m c ⟨0, hn⟩ (first_zero hn) (not_last_zero hn), firstB m c ⟨0, hn⟩ (first_zero hn) (not_last_zero hn))
  | n + 1, hn =>
    if h1 : n + 1 = 63 then
      (lastO m c ⟨n + 1, hn⟩ (not_first_succ n hn) ((condLast_iff ⟨n + 1, hn⟩).mpr h1) (outsAt c n (Nat.lt_of_succ_lt hn)).2.1 (outsAt c n (Nat.lt_of_succ_lt hn)).2.2,
       lastA m c ⟨n + 1, hn⟩ (not_first_succ n hn) ((condLast_iff ⟨n + 1, hn⟩).mpr h1) (outsAt c n (Nat.lt_of_succ_lt hn)).2.1 (outsAt c n (Nat.lt_of_succ_lt hn)).2.2,
       lastB m c ⟨n + 1, hn⟩ (not_first_succ n hn) ((condLast_iff ⟨n + 1, hn⟩).mpr h1) (outsAt c n (Nat.lt_of_succ_lt hn)).2.1 (outsAt c n (Nat.lt_of_succ_lt hn)).2.2)
    else
      (restO,
       midA m c ⟨n + 1, hn⟩ (not_first_succ n hn) (fun h => h1 ((condLast_iff ⟨n + 1, hn⟩).mp h)) (outsAt c n (Nat.lt_of_succ_lt hn)).2.1 (outsAt c n (Nat.lt_of_succ_lt hn)).2.2,
       midB m c ⟨n + 1, hn⟩ (not_first_succ n hn) (fun h => h1 ((condLast_iff ⟨n + 1, hn⟩).mp h)) (outsAt c n (Nat.lt_of_succ_lt hn)).2.1 (outsAt c n (Nat.lt_of_succ_lt hn)).2.2)

theorem outsAt_first (c : Dev nD) (t : Fin cfg0.N) (h0 : t.val = 0) :
    outsAt m c t.val t.isLt = (restO, firstA m c t ((condFirst_iff t).mpr h0) (fun h => by have := (condLast_iff t).mp h; omega),
      firstB m c t ((condFirst_iff t).mpr h0) (fun h => by have := (condLast_iff t).mp h; omega)) := by
  obtain ⟨n, hn⟩ := t
  cases n with
  | zero => rfl
  | succ n => exact absurd h0 (Nat.succ_ne_zero n)

theorem outsAt_mid (c : Dev nD) (t : Fin cfg0.N) (h0 : t.val ≠ 0) (h1 : t.val ≠ 63) :
    outsAt m c t.val t.isLt = (restO,
      midA m c t (fun h => h0 ((condFirst_iff t).mp h)) (fun h => h1 ((condLast_iff t).mp h))
        (outsAt m c (t.val - 1) (Nat.lt_of_le_of_lt (Nat.sub_le _ _) t.isLt)).2.1 (outsAt m c (t.val - 1) (Nat.lt_of_le_of_lt (Nat.sub_le _ _) t.isLt)).2.2,
      midB m c t (fun h => h0 ((condFirst_iff t).mp h)) (fun h => h1 ((condLast_iff t).mp h))
        (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact absurd rfl h0
  | succ n => exact (dif_neg h1).trans rfl

theorem outsAt_last (c : Dev nD) (t : Fin cfg0.N) (h0 : t.val ≠ 0) (h1 : t.val = 63) :
    outsAt m c t.val t.isLt = (
      lastO m c t (fun h => h0 ((condFirst_iff t).mp h)) ((condLast_iff t).mpr h1)
        (outsAt m c (t.val - 1) (Nat.lt_of_le_of_lt (Nat.sub_le _ _) t.isLt)).2.1 (outsAt m c (t.val - 1) (Nat.lt_of_le_of_lt (Nat.sub_le _ _) t.isLt)).2.2,
      lastA m c t (fun h => h0 ((condFirst_iff t).mp h)) ((condLast_iff t).mpr h1)
        (outsAt m c (t.val - 1) (Nat.lt_of_le_of_lt (Nat.sub_le _ _) t.isLt)).2.1 (outsAt m c (t.val - 1) (Nat.lt_of_le_of_lt (Nat.sub_le _ _) t.isLt)).2.2,
      lastB m c t (fun h => h0 ((condFirst_iff t).mp h)) ((condLast_iff t).mpr h1)
        (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact absurd rfl h0
  | succ n => exact (dif_pos h1).trans rfl

/-! ## The invariant: the accumulators between points -/

/-- Before point `n`: at the first point the two scratch buffers at anything; afterwards each at what point `n - 1` left. -/
def PhiS (c : Dev nD) : (n : ℕ) → n ≤ cfg0.N → sProp 𝕄
  | 0, _ => Pipeline.scopedRest spec0 c
  | n + 1, hn => iprop(owns (c : Thread nD τ) scA fullShare ((outsAt m c n hn).2.1) ∗ owns (c : Thread nD τ) scB fullShare ((outsAt m c n hn).2.2))

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = iprop(owns (c : Thread nD τ) scA fullShare ((outsAt m c n hn).2.1) ∗ owns (c : Thread nD τ) scB fullShare ((outsAt m c n hn).2.2)) := rfl
theorem PhiS_pos (c : Dev nD) (n : ℕ) (h : n ≤ cfg0.N) (hz : n ≠ 0) :
    PhiS m c n h = iprop(owns (c : Thread nD τ) scA fullShare ((outsAt m c (n - 1) (by omega)).2.1) ∗ owns (c : Thread nD τ) scB fullShare ((outsAt m c (n - 1) (by omega)).2.2)) := by
  cases n with
  | zero => exact absurd rfl hz
  | succ n => rfl

/-- The scoped buffers no window stages are the two accumulators, each owned at some contents. -/
theorem scopedRest_scratch (c : Dev nD) :
    (Pipeline.scopedRest (Ix := Unit) (Name := ℕ) (U := UR sig nD τ) (Lvl := ℕ) (Val := Elt F) spec0 c : sProp 𝕄)
      = iprop((∃ d, owns (c : Thread nD τ) scA fullShare d) ∗ (∃ d, owns (c : Thread nD τ) scB fullShare d)) := by
  rw [scopedRest0_eq]; simp only [scA, scB, owns_whole]; rfl

/-! ## The proof data -/

/-- On core `c`: the arrays as the region finds them; after the body each input's buffer at its block and the output's
    at `outsAt`; the invariant `PhiS`; the embeddings' array, which two windows read, held half by each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.Kernel.Hand

end
-- ==== Proof.K.Body.lean ====
/-
  The body obligation: at every point the body, called on the windows' current staging buffers and the two
  accumulators as the invariant holds them, runs to the invariant of the next point. By cases on the point: the first
  (accumulators at anything, cleared), a middle one, the last (the quotient stored into the output buffer).
-/
import proofs.«114578_j14851996910158_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h0 : t.val = 0
  · have hf : condFirst (grid0.coords t) := (condFirst_iff t).mpr h0
    have hl : ¬condLast (grid0.coords t) := fun h => by have := (condLast_iff t).mp h; omega
    rw [Dat.leavesExact_idle (dats m 0 c) 4 t (idle4 t hl) (noFlush4 t hl)]
    rw [outsAt_first m c t h0]
    unfold firstA firstB; (try dsimp only)
    rw [PhiS_castSucc m c t, PhiS_zero m c _ _ h0, scopedRest_scratch]
    iintro ⟨⟨HA, HB⟩, Ho, ⟨%d0, H0⟩, ⟨%d1, H1⟩, ⟨%d2, H2⟩, ⟨%d3, H3⟩, ⟨%d4, H4⟩⟩
    iapply ((runFirst c (grid0.coords t) (ms0 t) (hs0 t) (ms1 t) (hs1 t) (ms2 t) (hs2 t) (ms3 t) (hs3 t) (ms4 t) (hs4 t) scA (Memref.isWhole_whole _) scB (Memref.isWhole_whole _) hf hl (iblk m c 0 t) (iblk m c 1 t) (iblk m c 2 t) (iblk m c 3 t)).2.2 _ Set.univ _)
    isplitl [H0]; · iexact H0
    isplitl [H1]; · iexact H1
    isplitl [H2]; · iexact H2
    isplitl [H3]; · iexact H3
    isplitl [H4]; · iexact H4
    isplitl [HA]; · iexact HA
    isplitl [HB]; · iexact HB
    iintro ⟨H0, H1, H2, H3, H4, ⟨%ea, HA⟩, ⟨%eb, HB⟩⟩
    isplitl [HA HB]
    · isplitl [HA]
      · unfold owns; iexists _; isplitr
        swap; · iexact HA
        ipureintro; exact View.read_writes_of_cover _ _ _ _ _ (coverFirstA m c t _ _)
      · unfold owns; iexists _; isplitr
        swap; · iexact HB
        ipureintro; exact View.read_writes_of_cover _ _ _ _ _ (coverFirstB m c t _ _)
    isplitl [Ho]; · iexact Ho
    isplitl [H0]; · iexact H0
    isplitl [H1]; · iexact H1
    isplitl [H2]; · iexact H2
    isplitl [H3]; · iexact H3
    iexists _; iexact H4
  · have hf : ¬condFirst (grid0.coords t) := fun h => h0 ((condFirst_iff t).mp h)
    by_cases h1 : t.val = 63
    · have hl : condLast (grid0.coords t) := (condLast_iff t).mpr h1
      rw [show (dats m 0 c).leavesExact 4 t = owns (c : Thread nD τ) (ms4 t) fullShare ((dats m 0 c).after 4 t) from by
        unfold Dat.leavesExact; rw [live4 t hl], after4]
      rw [outsAt_last m c t h0 h1]
      unfold lastO lastA lastB; (try dsimp only)
      rw [PhiS_castSucc m c t, PhiS_pos m c _ _ h0]
      iintro ⟨⟨HA, HB⟩, Ho, ⟨%d0, H0⟩, ⟨%d1, H1⟩, ⟨%d2, H2⟩, ⟨%d3, H3⟩, ⟨%d4, H4⟩⟩
      iapply ((runLast c (grid0.coords t) (ms0 t) (hs0 t) (ms1 t) (hs1 t) (ms2 t) (hs2 t) (ms3 t) (hs3 t) (ms4 t) (hs4 t) scA (Memref.isWhole_whole _) scB (Memref.isWhole_whole _) hf hl (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2).2.2.2 Set.univ _)
      isplitl [H0]; · iexact H0
      isplitl [H1]; · iexact H1
      isplitl [H2]; · iexact H2
      isplitl [H3]; · iexact H3
      isplitl [H4]; · iexists _; iexact H4
      isplitl [HA]; · iexact HA
      isplitl [HB]; · iexact HB
      iintro ⟨H0, H1, H2, H3, ⟨%eo, H4⟩, ⟨%ea, HA⟩, ⟨%eb, HB⟩⟩
      isplitl [HA HB]
      · isplitl [HA]
        · unfold owns; iexists _; isplitr
          swap; · iexact HA
          ipureintro; exact View.read_writes_of_cover _ _ _ _ _ (coverLastA m c t _ _ _ _)
        · unfold owns; iexists _; isplitr
          swap; · iexact HB
          ipureintro; exact View.read_writes_of_cover _ _ _ _ _ (coverLastB m c t _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastO m c t _ _ _ _)
    · have hl : ¬condLast (grid0.coords t) := fun h => h1 ((condLast_iff t).mp h)
      rw [Dat.leavesExact_idle (dats m 0 c) 4 t (idle4 t hl) (noFlush4 t hl)]
      rw [outsAt_mid m c t h0 h1]
      unfold midA midB; (try dsimp only)
      rw [PhiS_castSucc m c t, PhiS_pos m c _ _ h0]
      iintro ⟨⟨HA, HB⟩, Ho, ⟨%d0, H0⟩, ⟨%d1, H1⟩, ⟨%d2, H2⟩, ⟨%d3, H3⟩, ⟨%d4, H4⟩⟩
      iapply ((runMid c (grid0.coords t) (ms0 t) (hs0 t) (ms1 t) (hs1 t) (ms2 t) (hs2 t) (ms3 t) (hs3 t) (ms4 t) (hs4 t) scA (Memref.isWhole_whole _) scB (Memref.isWhole_whole _) hf hl (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2).2.2 _ Set.univ _)
      isplitl [H0]; · iexact H0
      isplitl [H1]; · iexact H1
      isplitl [H2]; · iexact H2
      isplitl [H3]; · iexact H3
      isplitl [H4]; · iexact H4
      isplitl [HA]; · iexact HA
      isplitl [HB]; · iexact HB
      iintro ⟨H0, H1, H2, H3, H4, ⟨%ea, HA⟩, ⟨%eb, HB⟩⟩
      isplitl [HA HB]
      · isplitl [HA]
        · unfold owns; iexists _; isplitr
          swap; · iexact HA
          ipureintro; exact View.read_writes_of_cover _ _ _ _ _ (coverMidA m c t _ _ _ _)
        · unfold owns; iexists _; isplitr
          swap; · iexact HB
          ipureintro; exact View.read_writes_of_cover _ _ _ _ _ (coverMidB m c t _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Run.lean ====
/-
  The launch. @main is two reshapes of the labels, the kernel region, and the reshape of its 1×1 result to a scalar.
  The embeddings' array is read by two windows: at the region's entry its buffer is split into two half shares, one
  per window, and joined back at the exit.
-/
import proofs.«114578_j14851996910158_1_alg».proof.Proof.K.Body
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)
/-- The launch element: the pipeline library's, at the staging cells. -/
def u₀ : UR sig nD τ := initOf (Pipeline.cells cfgs cellOf_inj) (Pipeline.launchToks cfgs cellOf_inj)

/-! ## The arrays, one by one -/

/-- The pipeline's arrays at contents `Fw`: the embeddings' buffer twice, at the two half shares, then the labels'
    column, the labels' row and the result, each whole. -/
theorem arrays_chain (c : Dev nD) (Fw : (w : Fin cfg0.W) → Buf (Elt F) ((cfg0.win w).arr.view.loc (c : Thread nD τ))) :
    ((dats m 0 c).arrays Fw : sProp 𝕄)
      = iprop((((c : Thread nD τ).loc main_arg0) ↦{fullShare.left} Fw 0) ∗ (((c : Thread nD τ).loc main_arg0) ↦{fullShare.right} Fw 1)
          ∗ (((c : Thread nD τ).loc main_v0) ↦{fullShare} Fw 2) ∗ (((c : Thread nD τ).loc main_v1) ↦{fullShare} Fw 3)
          ∗ (((c : Thread nD τ).loc main_v2) ↦{fullShare} Fw 4)) := by
  unfold Dat.arrays
  rw [bigSep_W0]
  rw [(arr_whole0 0).set_eq_univ, (arr_whole0 2).set_eq_univ, (arr_whole0 3).set_eq_univ, (arr_whole0 4).set_eq_univ]
  rfl

/-- The distinct buffers behind the arrays, each whole. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg0, main_v0, main_v1, main_v2] (by decide) (by decide) _

/-- The two buffers the last reshape touches. -/
def tailRefs : Finset (DevRef τ sig) := {Proc.devRef .tc main_v2, Proc.devRef .tc main_v3}

theorem held_tail (c : Dev nD) (W : Valuation τ sig (Elt F)) :
    (StableHlo.held (c : Thread nD τ) tailRefs W : sProp 𝕄)
      = iprop((((c : Thread nD τ).loc main_v2) ↦{fullShare} W (Proc.devRef .tc main_v2)) ∗ (((c : Thread nD τ).loc main_v3) ↦{fullShare} W (Proc.devRef .tc main_v3))) := by
  unfold StableHlo.held tailRefs
  rw [bigSep_insert (by decide), bigSep_singleton]
  rfl

/-! ## The valuations around the region -/

/-- What the region's result array holds after the last write-back. -/
abbrev finalO (c : Dev nD) : (main_v2 : Ref sig .tc).ty.Contents (Elt F) := (dats m 0 c).arrAt 4 cfg0.N

/-- The buffers after the region: as the region found them, the result's at its final contents. -/
abbrev V1 (c : Dev nD) : Valuation τ sig (Elt F) := (StableHlo.nullary main_v2 (finalO m c)).result (V0 m c)

theorem V1_v2 (c : Dev nD) : V1 m c (Proc.devRef .tc main_v2) = finalO m c := StableHlo.nullary_result _ _ _ _
theorem V1_v3 (c : Dev nD) : V1 m c (Proc.devRef .tc main_v3) = V m c main_v3 :=
  StableHlo.nullary_result_ne (y := main_v2) (finalO m c) _ (V0 m c) (r := main_v3) (by decide)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h
theorem hostOps1_tail : ∀ op ∈ (hostOps1 : List (HloOp τ sig (Elt F))), op.bufs ⊆ tailRefs := by
  intro _ h; (repeat (cases h with | head => exact subset_rfl | tail _ h => ?_)); exact nomatch h

/-! ## The segments -/

/-- The two reshapes of the labels, over all the unscoped buffers. -/
def seg0 : Pipeline.HostSeg (Name := ℕ) (U := UR sig nD τ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h)) hostOps0_fresh (fun c b => m (c, b)) R

/-- What bypasses the last reshape: the two arguments as the region found them, and the core owing nothing. -/
abbrev R1 (c : Dev nD) : sProp 𝕄 :=
  iprop((((c : Thread nD τ).loc main_arg0) ↦{fullShare} V m c main_arg0) ∗ (((c : Thread nD τ).loc main_arg1) ↦{fullShare} V m c main_arg1) ∗ R c)

/-- The reshape of the 1×1 result to a scalar, over the two buffers it touches. -/
def seg1 : Pipeline.HostSeg (Name := ℕ) (U := UR sig nD τ) (pcfgs (F := F)) defs₀ Variants.none L lv :=
  Pipeline.HostSeg.ofOps _ _ _ _ _ tailRefs hostOps1 hostOps1_tail hostOps1_fresh (V1 m) (R1 m)

set_option backward.isDefEq.respectTransparency.types false in
/-- The region. Entered from the unscoped buffers after the two reshapes: the embeddings' buffer is split into the two
    windows' half shares, the labels' column and row and the result go to their windows, the labels' array and the
    scalar result bypass it; the invariant at the first point is the two scratch buffers. Left with the halves joined
    back and the result's array at its final contents. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) tailRefs (V1 m c) ∗ R1 m c)
  X _ := iprop(emp)
  Y _ := iprop(emp)
  Z c := iprop((((c : Thread nD τ).loc main_arg1) ↦{fullShare} V m c main_arg1) ∗ (((c : Thread nD τ).loc main_v3) ↦{fullShare} V m c main_v3))
  hentry c := by
    rw [show StableHlo.held (c : Thread nD τ) (Pipeline.ucRefs τ sig) (V0 m c) = unscopedBufs c (V m c) from (Pipeline.unscopedBufs_held c _).symm]
    rw [Pipeline.unscopedBufs_split₀ cfgs 0 winFacts₀0.arr_unscoped c (V m c), arrBufs_chain, unscopedRest0_eq, arrays_chain]
    iintro ⟨⟨⟨⟨H0, Hv0, Hv1, Hv2⟩, H1, H3⟩, HO⟩, -, -⟩
    ihave Hs := (pointsTo_share (PosShare.mem_left_op_right fullShare)).1 $$ H0
    icases Hs with ⟨H0l, H0r⟩
    imodintro
    isplitl [H0l H0r Hv0 Hv1 Hv2]
    · isplitl [H0l]; · iexact H0l
      isplitl [H0r]; · iexact H0r
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [H1]; · iexact H1
    iexact H3
  hin c := by
    rw [show (dats m 0 c).Φ 0 = Pipeline.scopedRest spec0 c from rfl]
    iintro ⟨-, -, Hr⟩; iexact Hr
  hout c := by
    rw [Pipeline.ownSems0_none, show (dats m 0 c).Φ (Fin.last cfg0.N) = PhiS m c cfg0.N (Nat.le_refl _) from rfl,
      PhiS_pos m c _ _ (by have h : cfg0.N = 64 := N_0; omega), scopedRest_scratch]
    iintro ⟨HA, HB⟩
    isplitr; · iempintro
    isplitr; · iempintro
    isplitl [HA]; · iexists _; iexact HA
    iexists _; iexact HB
  hexit c := by
    rw [arrays_chain, held_tail, V1_v2, V1_v3]
    rw [(dats m 0 c).arrAt_in 0 rfl, (dats m 0 c).arrAt_in 1 rfl]
    iintro ⟨⟨H0l, H0r, -, -, Hv2⟩, HO, -, ⟨H1, H3⟩⟩
    ihave H0 := (pointsTo_share (PosShare.mem_left_op_right fullShare)).2 $$ [H0l H0r]
    · isplitl [H0l]; · iexact H0l
      iexact H0r
    imodintro
    isplitl [Hv2 H3]
    · isplitl [Hv2]; · iexact Hv2
      iexact H3
    isplitl [H0]; · iexact H0
    isplitl [H1]; · iexact H1
    unfold Pipeline.Dat.owesAt Pipeline.owesWithin
    icases HO with ⟨%W, -, HO⟩; iexists W; iexact HO

/-! ## The run -/

/-- @main as its three segments. -/
abbrev segs : List (Pipeline.Seg (pcfgs (F := F)) adm (dats m) () defs₀ Variants.none L lv) :=
  [.host (seg0 m), .region (reg0 m), .host (seg1 m)]

/-- The buffers at the end: the last reshape has run. -/
abbrev V2 (c : Dev nD) : Valuation τ sig (Elt F) := StableHlo.after hostOps1 (V1 m c)

/-- The two arguments reach the region, and the end, as launched: no reshape writes them. -/
theorem V_arg0 (c : Dev nD) : V m c main_arg0 = m ((c : Thread nD τ).loc main_arg0) := by
  dsimp only [V, V0, hostOps0]; after_results
theorem V_arg1 (c : Dev nD) : V m c main_arg1 = m ((c : Thread nD τ).loc main_arg1) := by
  dsimp only [V, V0, hostOps0]; after_results

/-- The physical post: the scalar result at the last reshape's value, both arguments as launched. -/
def QC : PUnit × MemSt nD τ sig (Elt F) → Prop := fun r => ∀ c : Dev nD,
  r.2.mem ((c : Thread nD τ).loc main_v3) = V2 m c (Proc.devRef .tc main_v3)
  ∧ r.2.mem ((c : Thread nD τ).loc main_arg0) = m ((c : Thread nD τ).loc main_arg0)
  ∧ r.2.mem ((c : Thread nD τ).loc main_arg1) = m ((c : Thread nD τ).loc main_arg1)

/-- What is held at the end. -/
abbrev Tn (c : Dev nD) : sProp 𝕄 :=
  iprop(StableHlo.held (c : Thread nD τ) tailRefs (V2 m c) ∗ (((c : Thread nD τ).loc main_arg0) ↦{fullShare} V m c main_arg0)
    ∗ (((c : Thread nD τ).loc main_arg1) ↦{fullShare} V m c main_arg1))

set_option maxHeartbeats 2000000 in
set_option backward.isDefEq.respectTransparency.types false in
/-- At the compiled mesh, for any float values, from any memory with zero counters: every weakly fair execution of
    @main terminates, and every final state has the scalar result at the reshape of what the region's last point
    wrote back and both arguments unchanged. -/
theorem run_main : θ_run defs (onTc (τ := τ) (main (F := F))) (s₀ m ρ) (QC m) :=
  Pipeline.θ_run_regions_kit (pcfgs (F := F)) adm (dats m) () cellOf_inj EP defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c)) (Tₙ := Tn m)
    (hch := ⟨fun _ => .rfl, fun _ => .rfl, fun _ => .rfl, fun c => by
      show (iprop(StableHlo.held (c : Thread nD τ) tailRefs (V2 m c) ∗ R1 m c) : sProp 𝕄) ⊢ _
      iintro ⟨Hh, H0, H1, HO⟩
      isplitr [HO]
      · isplitl [Hh]; · iexact Hh
        isplitl [H0]; · iexact H0
        iexact H1
      · iexact HO⟩)
    (hinit := by
      refine Pipeline.initEach L lv fun c => ?_
      rw [show unscopedBufs c (fun b => m ((c : Thread nD τ).loc b)) = StableHlo.held (c : Thread nD τ) (Pipeline.ucRefs τ sig) (fun b => m (c, b)) from Pipeline.unscopedBufs_held c (fun b => m (c, b))]
      iintro ⟨⟨Hh, -, HO, -, -, -⟩, -⟩
      imodintro
      isplitl [Hh]; · iexact Hh
      iexists ∅; iexact HO)
    (QY := fun c s => s.mem ((c : Thread nD τ).loc main_v3) = V2 m c (Proc.devRef .tc main_v3)
      ∧ s.mem ((c : Thread nD τ).loc main_arg0) = m ((c : Thread nD τ).loc main_arg0)
      ∧ s.mem ((c : Thread nD τ).loc main_arg1) = m ((c : Thread nD τ).loc main_arg1))
    (hfin := fun c s' => by
      dsimp only [Tn]; rw [held_tail, V_arg0, V_arg1]
      iintro ⟨⟨⟨-, H3⟩, H0, H1⟩, HSI⟩
      icombine HSI H3 gives %h3
      icombine HSI H0 gives %h0
      icombine HSI H1 gives %h1
      imodintro
      isplitr; · ipureintro; exact ⟨Buf.eq_of_forall_mem_univ h3, Buf.eq_of_forall_mem_univ h0, Buf.eq_of_forall_mem_univ h1⟩
      iexact HSI)
    (hQ := fun _ h => h)

/-- info: 'Cert.Kernel.Hand.run_main' depends on axioms: [propext, Classical.choice, Quot.sound] -/
#guard_msgs in #print axioms run_main

/-- The frame: both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.KI.Conds.lean ====
/-
  The two conditionals of the kernel's body, decided over the 64 grid points: the accumulators are cleared at the
  first point only, and the quotient is stored at the last point only; the output window is idle (and not written
  back) at every point but the last. Also the names of the staging and scratch memrefs the body is called with.
-/
import proofs.«114578_j14851996910158_1_alg».proof.Proof.Gen.KernelIdeal.Launch
import proofs.«114578_j14851996910158_1_alg».proof.Proof.Gen.KernelIdeal.Skeleton
import proofs.«114578_j14851996910158_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test (the point is the first), as the body computes it from the grid coordinate. -/
abbrev condFirst (i : grid0.Coords) : Prop :=
  (Scalar.cmpi .ne (Scalar.extui (Scalar.cmpi .eq (BitVec.ofNat 32 (i 0).val) 0#32)) 0#32) = 1#1
/-- It holds at point 0 only. -/
theorem condFirst_iff : ∀ t : Fin cfg0.N, condFirst (grid0.coords t) ↔ t.val = 0 :=
  (by decide +kernel : ∀ t : Fin grid0.N, condFirst (grid0.coords t) ↔ t.val = 0)

/-- The second conditional's test (the point is the last). -/
abbrev condLast (i : grid0.Coords) : Prop := k0_cond2 i = 1#1
/-- It holds at point 63 only. -/
theorem condLast_iff : ∀ t : Fin cfg0.N, condLast (grid0.coords t) ↔ t.val = 63 :=
  (by decide +kernel : ∀ t : Fin grid0.N, condLast (grid0.coords t) ↔ t.val = 63)

/-- The four input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle, and not written back, at every point but the last; at the last it is stored into. -/
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
theorem live4 : ∀ t : Fin cfg0.N, condLast (grid0.coords t) → cfg0.idle 4 (grid0.coords t) = false := by decide +kernel

/-- Each window's current staging memref at point `t`, as the pipeline passes it, and its wholeness. -/
abbrev ms0 (t : Fin cfg0.N) : Memref sig .tc .vmem S8x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The two scratch accumulators (numerator, denominator): whole scoped buffers of the kernel's own. -/
abbrev scA : Memref sig .tc .vmem S1x1 .f32 := Memref.whole cc0_scratch0
abbrev scB : Memref sig .tc .vmem S1x1 .f32 := Memref.whole cc0_scratch1
/-- Views through which buffer contents are stated. -/
abbrev VA : View sig .tc .vmem S1x1 .f32 := scA.view
abbrev VB : View sig .tc .vmem S1x1 .f32 := scB.view
abbrev VO : View sig .tc .vmem S1x1 .f32 := (Memref.whole cc0_stg4_0 : Memref sig .tc .vmem S1x1 .f32).view

end Cert.KernelIdeal.Hand

end
-- ==== Proof.KI.RunMid.lean ====
/-
  The body at a middle point (neither the first nor the last): it reads the four input blocks and both
  accumulators, and stores each accumulator back with the tile's contribution added; the output buffer is untouched.
-/
import proofs.«114578_j14851996910158_1_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a middle point, the pieces each accumulator ends with found by running the body. -/
noncomputable def runMid (c : Dev nD) (i : grid0.Coords) (arg1 : Memref sig .tc .vmem S8x128 .f32) (harg1 : arg1.IsWhole) (arg2 : Memref sig .tc .vmem S512x128 .f32) (harg2 : arg2.IsWhole) (arg3 : Memref sig .tc .vmem S8x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 : Vec F S8x128 .f32) (x1 : Vec F S512x128 .f32) (x2 : Vec F S8x1 .i32) (x3 : Vec F S1x512 .i32) (xa xb : Vec F S1x1 .f32) :
    Σ' (LA : List (View.Piece (Elt F) S1x1 .f32)), { LB : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xo ∗ owns (c : Thread nD τ) arg6 fullShare xa ∗ owns (c : Thread nD τ) arg7 fullShare xb
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xo
                ∗ (∃ f, arg6.view.loc (c : Thread nD τ) ↦[arg6.view.set]{fullShare} arg6.view.writes (Elt F) f LA)
                ∗ (∃ f, arg7.view.loc (c : Thread nD τ) ↦[arg7.view.set]{fullShare} arg7.view.writes (Elt F) f LB)) -∗ K ⟨⟩))
          ⊢ wp frame (wpE (defs₀ (F := F)) Variants.none c none) E (cc0__kernel i arg1 harg1 arg2 harg2 arg3 harg3 arg4 harg4 arg5 harg5 arg6 harg6 arg7 harg7) K } := by
  refine ⟨?_, ?_, fun xo E K => ?run⟩
  case run =>
    simp only [cc0__kernel_eq_skeleton]; unfold cc0__kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact H7

end Cert.KernelIdeal.Hand

end
-- ==== Proof.KI.RunFirst.lean ====
/-
  The body at the first point: both accumulators, whatever they hold, are cleared, then the tile's contribution is
  added to each; the output buffer is untouched.
-/
import proofs.«114578_j14851996910158_1_alg».proof.Proof.KI.RunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at the first point, the pieces each accumulator ends with found by running the body. -/
noncomputable def runFirst (c : Dev nD) (i : grid0.Coords) (arg1 : Memref sig .tc .vmem S8x128 .f32) (harg1 : arg1.IsWhole) (arg2 : Memref sig .tc .vmem S512x128 .f32) (harg2 : arg2.IsWhole) (arg3 : Memref sig .tc .vmem S8x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 : Vec F S8x128 .f32) (x1 : Vec F S512x128 .f32) (x2 : Vec F S8x1 .i32) (x3 : Vec F S1x512 .i32) :
    Σ' (LA : List (View.Piece (Elt F) S1x1 .f32)), { LB : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xo ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xo
                ∗ (∃ f, arg6.view.loc (c : Thread nD τ) ↦[arg6.view.set]{fullShare} arg6.view.writes (Elt F) f LA)
                ∗ (∃ f, arg7.view.loc (c : Thread nD τ) ↦[arg7.view.set]{fullShare} arg7.view.writes (Elt F) f LB)) -∗ K ⟨⟩))
          ⊢ wp frame (wpE (defs₀ (F := F)) Variants.none c none) E (cc0__kernel i arg1 harg1 arg2 harg2 arg3 harg3 arg4 harg4 arg5 harg5 arg6 harg6 arg7 harg7) K } := by
  refine ⟨?_, ?_, fun xo E K => ?run⟩
  case run =>
    simp only [cc0__kernel_eq_skeleton]; unfold cc0__kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3; obtain rfl := harg4.eq_unread hf4
    obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact H7

end Cert.KernelIdeal.Hand

end
-- ==== Proof.KI.RunLast.lean ====
/-
  The body at the last point: each accumulator is stored back with the tile's contribution added, and then the
  quotient of the two is stored into the output buffer, whatever it held.
-/
import proofs.«114578_j14851996910158_1_alg».proof.Proof.KI.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at the last point, the pieces the output buffer and each accumulator end with found by running the body. -/
noncomputable def runLast (c : Dev nD) (i : grid0.Coords) (arg1 : Memref sig .tc .vmem S8x128 .f32) (harg1 : arg1.IsWhole) (arg2 : Memref sig .tc .vmem S512x128 .f32) (harg2 : arg2.IsWhole) (arg3 : Memref sig .tc .vmem S8x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 : Vec F S8x128 .f32) (x1 : Vec F S512x128 .f32) (x2 : Vec F S8x1 .i32) (x3 : Vec F S1x512 .i32) (xa xb : Vec F S1x1 .f32) :
    Σ' (LO : List (View.Piece (Elt F) S1x1 .f32)) (LA : List (View.Piece (Elt F) S1x1 .f32)), { LB : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xa ∗ owns (c : Thread nD τ) arg7 fullShare xb
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LA)
                ∗ (∃ f, arg7.view.loc (c : Thread nD τ) ↦[arg7.view.set]{fullShare} arg7.view.writes (Elt F) f LB)) -∗ K ⟨⟩))
          ⊢ wp frame (wpE (defs₀ (F := F)) Variants.none c none) E (cc0__kernel i arg1 harg1 arg2 harg2 arg3 harg3 arg4 harg4 arg5 harg5 arg6 harg6 arg7 harg7) K } := by
  refine ⟨?_, ?_, ?_, fun E K => ?run⟩
  case run =>
    simp only [cc0__kernel_eq_skeleton]; unfold cc0__kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    iexists _; iexact H7

end Cert.KernelIdeal.Hand

end
-- ==== Proof.KI.Data.lean ====
/-
  The pipeline's proof data. The region finds the two label arrays as the reshapes of the labels and the embeddings
  as launched; each input window's staging buffer holds its block at every point. The two accumulators are carried
  between points: after point `n` they hold what the point's case leaves over what point `n - 1` left (cleared first at
  point 0); the output buffer is written at the last point only, with the accumulators' quotient.
-/
import proofs.«114578_j14851996910158_1_alg».proof.Proof.KI.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers when the region is entered: the two reshapes of the labels have run. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What each case leaves -/

theorem first_zero (hn : 0 < cfg0.N) : condFirst (grid0.coords ⟨0, hn⟩) := (condFirst_iff ⟨0, hn⟩).mpr rfl
theorem not_last_zero (hn : 0 < cfg0.N) : ¬condLast (grid0.coords ⟨0, hn⟩) := fun h =>
  absurd (show (0 : ℕ) = 63 from (condLast_iff ⟨0, hn⟩).mp h) (by decide)
theorem not_first_succ (n : ℕ) (hn : n + 1 < cfg0.N) : ¬condFirst (grid0.coords ⟨n + 1, hn⟩) := fun h =>
  Nat.succ_ne_zero n ((condFirst_iff ⟨n + 1, hn⟩).mp h)

/-- Contents nothing consults: the output buffer's at a point that leaves it alone. -/
def restO : Vec F S1x1 .f32 := VO.read (Elt F) VO.junk

/-- The accumulators after the first point. -/
def firstA (c : Dev nD) (t : Fin cfg0.N) (hc0 : condFirst (grid0.coords t)) (hc1 : ¬condLast (grid0.coords t)) : Vec F S1x1 .f32 :=
  VA.read (Elt F) (VA.writes (Elt F) VA.junk (runFirst c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t)).1)
def firstB (c : Dev nD) (t : Fin cfg0.N) (hc0 : condFirst (grid0.coords t)) (hc1 : ¬condLast (grid0.coords t)) : Vec F S1x1 .f32 :=
  VB.read (Elt F) (VB.writes (Elt F) VB.junk (runFirst c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t)).2.1)
theorem coverFirstA (c : Dev nD) (t : Fin cfg0.N) (hc0 : condFirst (grid0.coords t)) (hc1 : ¬condLast (grid0.coords t)) (y : S1x1.Idx) :
    ∃ pc ∈ (runFirst c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t)).1, y ∈ pc.1.set :=
  View.cover_of_tiledL _ S1x1.size (by sl_kernel_rfl) y
theorem coverFirstB (c : Dev nD) (t : Fin cfg0.N) (hc0 : condFirst (grid0.coords t)) (hc1 : ¬condLast (grid0.coords t)) (y : S1x1.Idx) :
    ∃ pc ∈ (runFirst c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t)).2.1, y ∈ pc.1.set :=
  View.cover_of_tiledL _ S1x1.size (by sl_kernel_rfl) y

/-- The accumulators after a middle point, over what the point before left (`xa`, `xb`). -/
def midA (c : Dev nD) (t : Fin cfg0.N) (hc0 : ¬condFirst (grid0.coords t)) (hc1 : ¬condLast (grid0.coords t)) (xa xb : Vec F S1x1 .f32) : Vec F S1x1 .f32 :=
  VA.read (Elt F) (VA.writes (Elt F) VA.junk (runMid c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).1)
def midB (c : Dev nD) (t : Fin cfg0.N) (hc0 : ¬condFirst (grid0.coords t)) (hc1 : ¬condLast (grid0.coords t)) (xa xb : Vec F S1x1 .f32) : Vec F S1x1 .f32 :=
  VB.read (Elt F) (VB.writes (Elt F) VB.junk (runMid c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).2.1)
theorem coverMidA (c : Dev nD) (t : Fin cfg0.N) (hc0 : ¬condFirst (grid0.coords t)) (hc1 : ¬condLast (grid0.coords t)) (xa xb : Vec F S1x1 .f32) (y : S1x1.Idx) :
    ∃ pc ∈ (runMid c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).1, y ∈ pc.1.set :=
  View.cover_of_tiledL _ S1x1.size (by sl_kernel_rfl) y
theorem coverMidB (c : Dev nD) (t : Fin cfg0.N) (hc0 : ¬condFirst (grid0.coords t)) (hc1 : ¬condLast (grid0.coords t)) (xa xb : Vec F S1x1 .f32) (y : S1x1.Idx) :
    ∃ pc ∈ (runMid c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).2.1, y ∈ pc.1.set :=
  View.cover_of_tiledL _ S1x1.size (by sl_kernel_rfl) y

/-- The output buffer and the accumulators after the last point. -/
def lastO (c : Dev nD) (t : Fin cfg0.N) (hc0 : ¬condFirst (grid0.coords t)) (hc1 : condLast (grid0.coords t)) (xa xb : Vec F S1x1 .f32) : Vec F S1x1 .f32 :=
  VO.read (Elt F) (VO.writes (Elt F) VO.junk (runLast c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).1)
def lastA (c : Dev nD) (t : Fin cfg0.N) (hc0 : ¬condFirst (grid0.coords t)) (hc1 : condLast (grid0.coords t)) (xa xb : Vec F S1x1 .f32) : Vec F S1x1 .f32 :=
  VA.read (Elt F) (VA.writes (Elt F) VA.junk (runLast c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).2.1)
def lastB (c : Dev nD) (t : Fin cfg0.N) (hc0 : ¬condFirst (grid0.coords t)) (hc1 : condLast (grid0.coords t)) (xa xb : Vec F S1x1 .f32) : Vec F S1x1 .f32 :=
  VB.read (Elt F) (VB.writes (Elt F) VB.junk (runLast c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).2.2.1)
theorem coverLastO (c : Dev nD) (t : Fin cfg0.N) (hc0 : ¬condFirst (grid0.coords t)) (hc1 : condLast (grid0.coords t)) (xa xb : Vec F S1x1 .f32) (y : S1x1.Idx) :
    ∃ pc ∈ (runLast c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).1, y ∈ pc.1.set :=
  View.cover_of_tiledL _ S1x1.size (by sl_kernel_rfl) y
theorem coverLastA (c : Dev nD) (t : Fin cfg0.N) (hc0 : ¬condFirst (grid0.coords t)) (hc1 : condLast (grid0.coords t)) (xa xb : Vec F S1x1 .f32) (y : S1x1.Idx) :
    ∃ pc ∈ (runLast c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).2.1, y ∈ pc.1.set :=
  View.cover_of_tiledL _ S1x1.size (by sl_kernel_rfl) y
theorem coverLastB (c : Dev nD) (t : Fin cfg0.N) (hc0 : ¬condFirst (grid0.coords t)) (hc1 : condLast (grid0.coords t)) (xa xb : Vec F S1x1 .f32) (y : S1x1.Idx) :
    ∃ pc ∈ (runLast c (grid0.coords t) (ms0 t) (hs0 t) (ms1 t) (hs1 t) (ms2 t) (hs2 t) (ms3 t) (hs3 t) (ms4 t) (hs4 t) scA (Memref.isWhole_whole _) scB (Memref.isWhole_whole _) hc0 hc1 (iblk m c 0 t) (iblk m c 1 t) (iblk m c 2 t) (iblk m c 3 t) xa xb).2.2.1, y ∈ pc.1.set :=
  View.cover_of_tiledL _ S1x1.size (by sl_kernel_rfl) y

/-! ## The accumulation over the points -/

/-- After point `n`: the output buffer, the numerator's accumulator, the denominator's. -/
def outsAt (c : Dev nD) : (n : ℕ) → n < cfg0.N → Vec F S1x1 .f32 × Vec F S1x1 .f32 × Vec F S1x1 .f32
  | 0, hn => (restO, firstA m c ⟨0, hn⟩ (first_zero hn) (not_last_zero hn), firstB m c ⟨0, hn⟩ (first_zero hn) (not_last_zero hn))
  | n + 1, hn =>
    if h1 : n + 1 = 63 then
      (lastO m c ⟨n + 1, hn⟩ (not_first_succ n hn) ((condLast_iff ⟨n + 1, hn⟩).mpr h1) (outsAt c n (Nat.lt_of_succ_lt hn)).2.1 (outsAt c n (Nat.lt_of_succ_lt hn)).2.2,
       lastA m c ⟨n + 1, hn⟩ (not_first_succ n hn) ((condLast_iff ⟨n + 1, hn⟩).mpr h1) (outsAt c n (Nat.lt_of_succ_lt hn)).2.1 (outsAt c n (Nat.lt_of_succ_lt hn)).2.2,
       lastB m c ⟨n + 1, hn⟩ (not_first_succ n hn) ((condLast_iff ⟨n + 1, hn⟩).mpr h1) (outsAt c n (Nat.lt_of_succ_lt hn)).2.1 (outsAt c n (Nat.lt_of_succ_lt hn)).2.2)
    else
      (restO,
       midA m c ⟨n + 1, hn⟩ (not_first_succ n hn) (fun h => h1 ((condLast_iff ⟨n + 1, hn⟩).mp h)) (outsAt c n (Nat.lt_of_succ_lt hn)).2.1 (outsAt c n (Nat.lt_of_succ_lt hn)).2.2,
       midB m c ⟨n + 1, hn⟩ (not_first_succ n hn) (fun h => h1 ((condLast_iff ⟨n + 1, hn⟩).mp h)) (outsAt c n (Nat.lt_of_succ_lt hn)).2.1 (outsAt c n (Nat.lt_of_succ_lt hn)).2.2)

theorem outsAt_first (c : Dev nD) (t : Fin cfg0.N) (h0 : t.val = 0) :
    outsAt m c t.val t.isLt = (restO, firstA m c t ((condFirst_iff t).mpr h0) (fun h => by have := (condLast_iff t).mp h; omega),
      firstB m c t ((condFirst_iff t).mpr h0) (fun h => by have := (condLast_iff t).mp h; omega)) := by
  obtain ⟨n, hn⟩ := t
  cases n with
  | zero => rfl
  | succ n => exact absurd h0 (Nat.succ_ne_zero n)

theorem outsAt_mid (c : Dev nD) (t : Fin cfg0.N) (h0 : t.val ≠ 0) (h1 : t.val ≠ 63) :
    outsAt m c t.val t.isLt = (restO,
      midA m c t (fun h => h0 ((condFirst_iff t).mp h)) (fun h => h1 ((condLast_iff t).mp h))
        (outsAt m c (t.val - 1) (Nat.lt_of_le_of_lt (Nat.sub_le _ _) t.isLt)).2.1 (outsAt m c (t.val - 1) (Nat.lt_of_le_of_lt (Nat.sub_le _ _) t.isLt)).2.2,
      midB m c t (fun h => h0 ((condFirst_iff t).mp h)) (fun h => h1 ((condLast_iff t).mp h))
        (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact absurd rfl h0
  | succ n => exact (dif_neg h1).trans rfl

theorem outsAt_last (c : Dev nD) (t : Fin cfg0.N) (h0 : t.val ≠ 0) (h1 : t.val = 63) :
    outsAt m c t.val t.isLt = (
      lastO m c t (fun h => h0 ((condFirst_iff t).mp h)) ((condLast_iff t).mpr h1)
        (outsAt m c (t.val - 1) (Nat.lt_of_le_of_lt (Nat.sub_le _ _) t.isLt)).2.1 (outsAt m c (t.val - 1) (Nat.lt_of_le_of_lt (Nat.sub_le _ _) t.isLt)).2.2,
      lastA m c t (fun h => h0 ((condFirst_iff t).mp h)) ((condLast_iff t).mpr h1)
        (outsAt m c (t.val - 1) (Nat.lt_of_le_of_lt (Nat.sub_le _ _) t.isLt)).2.1 (outsAt m c (t.val - 1) (Nat.lt_of_le_of_lt (Nat.sub_le _ _) t.isLt)).2.2,
      lastB m c t (fun h => h0 ((condFirst_iff t).mp h)) ((condLast_iff t).mpr h1)
        (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact absurd rfl h0
  | succ n => exact (dif_pos h1).trans rfl

/-! ## The invariant: the accumulators between points -/

/-- Before point `n`: at the first point the two scratch buffers at anything; afterwards each at what point `n - 1` left. -/
def PhiS (c : Dev nD) : (n : ℕ) → n ≤ cfg0.N → sProp 𝕄
  | 0, _ => Pipeline.scopedRest spec0 c
  | n + 1, hn => iprop(owns (c : Thread nD τ) scA fullShare ((outsAt m c n hn).2.1) ∗ owns (c : Thread nD τ) scB fullShare ((outsAt m c n hn).2.2))

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = iprop(owns (c : Thread nD τ) scA fullShare ((outsAt m c n hn).2.1) ∗ owns (c : Thread nD τ) scB fullShare ((outsAt m c n hn).2.2)) := rfl
theorem PhiS_pos (c : Dev nD) (n : ℕ) (h : n ≤ cfg0.N) (hz : n ≠ 0) :
    PhiS m c n h = iprop(owns (c : Thread nD τ) scA fullShare ((outsAt m c (n - 1) (by omega)).2.1) ∗ owns (c : Thread nD τ) scB fullShare ((outsAt m c (n - 1) (by omega)).2.2)) := by
  cases n with
  | zero => exact absurd rfl hz
  | succ n => rfl

/-- The scoped buffers no window stages are the two accumulators, each owned at some contents. -/
theorem scopedRest_scratch (c : Dev nD) :
    (Pipeline.scopedRest (Ix := Unit) (Name := ℕ) (U := UR sig nD τ) (Lvl := ℕ) (Val := Elt F) spec0 c : sProp 𝕄)
      = iprop((∃ d, owns (c : Thread nD τ) scA fullShare d) ∗ (∃ d, owns (c : Thread nD τ) scB fullShare d)) := by
  rw [scopedRest0_eq]; simp only [scA, scB, owns_whole]; rfl

/-! ## The proof data -/

/-- On core `c`: the arrays as the region finds them; after the body each input's buffer at its block and the output's
    at `outsAt`; the invariant `PhiS`; the embeddings' array, which two windows read, held half by each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.KernelIdeal.Hand

end
-- ==== Proof.KI.Body.lean ====
/-
  The body obligation: at every point the body, called on the windows' current staging buffers and the two
  accumulators as the invariant holds them, runs to the invariant of the next point. By cases on the point: the first
  (accumulators at anything, cleared), a middle one, the last (the quotient stored into the output buffer).
-/
import proofs.«114578_j14851996910158_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h0 : t.val = 0
  · have hf : condFirst (grid0.coords t) := (condFirst_iff t).mpr h0
    have hl : ¬condLast (grid0.coords t) := fun h => by have := (condLast_iff t).mp h; omega
    rw [Dat.leavesExact_idle (dats m 0 c) 4 t (idle4 t hl) (noFlush4 t hl)]
    rw [outsAt_first m c t h0]
    unfold firstA firstB; (try dsimp only)
    rw [PhiS_castSucc m c t, PhiS_zero m c _ _ h0, scopedRest_scratch]
    iintro ⟨⟨HA, HB⟩, Ho, ⟨%d0, H0⟩, ⟨%d1, H1⟩, ⟨%d2, H2⟩, ⟨%d3, H3⟩, ⟨%d4, H4⟩⟩
    iapply ((runFirst c (grid0.coords t) (ms0 t) (hs0 t) (ms1 t) (hs1 t) (ms2 t) (hs2 t) (ms3 t) (hs3 t) (ms4 t) (hs4 t) scA (Memref.isWhole_whole _) scB (Memref.isWhole_whole _) hf hl (iblk m c 0 t) (iblk m c 1 t) (iblk m c 2 t) (iblk m c 3 t)).2.2 _ Set.univ _)
    isplitl [H0]; · iexact H0
    isplitl [H1]; · iexact H1
    isplitl [H2]; · iexact H2
    isplitl [H3]; · iexact H3
    isplitl [H4]; · iexact H4
    isplitl [HA]; · iexact HA
    isplitl [HB]; · iexact HB
    iintro ⟨H0, H1, H2, H3, H4, ⟨%ea, HA⟩, ⟨%eb, HB⟩⟩
    isplitl [HA HB]
    · isplitl [HA]
      · unfold owns; iexists _; isplitr
        swap; · iexact HA
        ipureintro; exact View.read_writes_of_cover _ _ _ _ _ (coverFirstA m c t _ _)
      · unfold owns; iexists _; isplitr
        swap; · iexact HB
        ipureintro; exact View.read_writes_of_cover _ _ _ _ _ (coverFirstB m c t _ _)
    isplitl [Ho]; · iexact Ho
    isplitl [H0]; · iexact H0
    isplitl [H1]; · iexact H1
    isplitl [H2]; · iexact H2
    isplitl [H3]; · iexact H3
    iexists _; iexact H4
  · have hf : ¬condFirst (grid0.coords t) := fun h => h0 ((condFirst_iff t).mp h)
    by_cases h1 : t.val = 63
    · have hl : condLast (grid0.coords t) := (condLast_iff t).mpr h1
      rw [show (dats m 0 c).leavesExact 4 t = owns (c : Thread nD τ) (ms4 t) fullShare ((dats m 0 c).after 4 t) from by
        unfold Dat.leavesExact; rw [live4 t hl], after4]
      rw [outsAt_last m c t h0 h1]
      unfold lastO lastA lastB; (try dsimp only)
      rw [PhiS_castSucc m c t, PhiS_pos m c _ _ h0]
      iintro ⟨⟨HA, HB⟩, Ho, ⟨%d0, H0⟩, ⟨%d1, H1⟩, ⟨%d2, H2⟩, ⟨%d3, H3⟩, ⟨%d4, H4⟩⟩
      iapply ((runLast c (grid0.coords t) (ms0 t) (hs0 t) (ms1 t) (hs1 t) (ms2 t) (hs2 t) (ms3 t) (hs3 t) (ms4 t) (hs4 t) scA (Memref.isWhole_whole _) scB (Memref.isWhole_whole _) hf hl (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2).2.2.2 Set.univ _)
      isplitl [H0]; · iexact H0
      isplitl [H1]; · iexact H1
      isplitl [H2]; · iexact H2
      isplitl [H3]; · iexact H3
      isplitl [H4]; · iexists _; iexact H4
      isplitl [HA]; · iexact HA
      isplitl [HB]; · iexact HB
      iintro ⟨H0, H1, H2, H3, ⟨%eo, H4⟩, ⟨%ea, HA⟩, ⟨%eb, HB⟩⟩
      isplitl [HA HB]
      · isplitl [HA]
        · unfold owns; iexists _; isplitr
          swap; · iexact HA
          ipureintro; exact View.read_writes_of_cover _ _ _ _ _ (coverLastA m c t _ _ _ _)
        · unfold owns; iexists _; isplitr
          swap; · iexact HB
          ipureintro; exact View.read_writes_of_cover _ _ _ _ _ (coverLastB m c t _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastO m c t _ _ _ _)
    · have hl : ¬condLast (grid0.coords t) := fun h => h1 ((condLast_iff t).mp h)
      rw [Dat.leavesExact_idle (dats m 0 c) 4 t (idle4 t hl) (noFlush4 t hl)]
      rw [outsAt_mid m c t h0 h1]
      unfold midA midB; (try dsimp only)
      rw [PhiS_castSucc m c t, PhiS_pos m c _ _ h0]
      iintro ⟨⟨HA, HB⟩, Ho, ⟨%d0, H0⟩, ⟨%d1, H1⟩, ⟨%d2, H2⟩, ⟨%d3, H3⟩, ⟨%d4, H4⟩⟩
      iapply ((runMid c (grid0.coords t) (ms0 t) (hs0 t) (ms1 t) (hs1 t) (ms2 t) (hs2 t) (ms3 t) (hs3 t) (ms4 t) (hs4 t) scA (Memref.isWhole_whole _) scB (Memref.isWhole_whole _) hf hl (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2).2.2 _ Set.univ _)
      isplitl [H0]; · iexact H0
      isplitl [H1]; · iexact H1
      isplitl [H2]; · iexact H2
      isplitl [H3]; · iexact H3
      isplitl [H4]; · iexact H4
      isplitl [HA]; · iexact HA
      isplitl [HB]; · iexact HB
      iintro ⟨H0, H1, H2, H3, H4, ⟨%ea, HA⟩, ⟨%eb, HB⟩⟩
      isplitl [HA HB]
      · isplitl [HA]
        · unfold owns; iexists _; isplitr
          swap; · iexact HA
          ipureintro; exact View.read_writes_of_cover _ _ _ _ _ (coverMidA m c t _ _ _ _)
        · unfold owns; iexists _; isplitr
          swap; · iexact HB
          ipureintro; exact View.read_writes_of_cover _ _ _ _ _ (coverMidB m c t _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
/-
  The launch. @main is two reshapes of the labels, the kernel region, and the reshape of its 1×1 result to a scalar.
  The embeddings' array is read by two windows: at the region's entry its buffer is split into two half shares, one
  per window, and joined back at the exit.
-/
import proofs.«114578_j14851996910158_1_alg».proof.Proof.KI.Body
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)
/-- The launch element: the pipeline library's, at the staging cells. -/
def u₀ : UR sig nD τ := initOf (Pipeline.cells cfgs cellOf_inj) (Pipeline.launchToks cfgs cellOf_inj)

/-! ## The arrays, one by one -/

/-- The pipeline's arrays at contents `Fw`: the embeddings' buffer twice, at the two half shares, then the labels'
    column, the labels' row and the result, each whole. -/
theorem arrays_chain (c : Dev nD) (Fw : (w : Fin cfg0.W) → Buf (Elt F) ((cfg0.win w).arr.view.loc (c : Thread nD τ))) :
    ((dats m 0 c).arrays Fw : sProp 𝕄)
      = iprop((((c : Thread nD τ).loc main_arg0) ↦{fullShare.left} Fw 0) ∗ (((c : Thread nD τ).loc main_arg0) ↦{fullShare.right} Fw 1)
          ∗ (((c : Thread nD τ).loc main_v0) ↦{fullShare} Fw 2) ∗ (((c : Thread nD τ).loc main_v1) ↦{fullShare} Fw 3)
          ∗ (((c : Thread nD τ).loc main_v2) ↦{fullShare} Fw 4)) := by
  unfold Dat.arrays
  rw [bigSep_W0]
  rw [(arr_whole0 0).set_eq_univ, (arr_whole0 2).set_eq_univ, (arr_whole0 3).set_eq_univ, (arr_whole0 4).set_eq_univ]
  rfl

/-- The distinct buffers behind the arrays, each whole. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg0, main_v0, main_v1, main_v2] (by decide) (by decide) _

/-- The two buffers the last reshape touches. -/
def tailRefs : Finset (DevRef τ sig) := {Proc.devRef .tc main_v2, Proc.devRef .tc main_v3}

theorem held_tail (c : Dev nD) (W : Valuation τ sig (Elt F)) :
    (StableHlo.held (c : Thread nD τ) tailRefs W : sProp 𝕄)
      = iprop((((c : Thread nD τ).loc main_v2) ↦{fullShare} W (Proc.devRef .tc main_v2)) ∗ (((c : Thread nD τ).loc main_v3) ↦{fullShare} W (Proc.devRef .tc main_v3))) := by
  unfold StableHlo.held tailRefs
  rw [bigSep_insert (by decide), bigSep_singleton]
  rfl

/-! ## The valuations around the region -/

/-- What the region's result array holds after the last write-back. -/
abbrev finalO (c : Dev nD) : (main_v2 : Ref sig .tc).ty.Contents (Elt F) := (dats m 0 c).arrAt 4 cfg0.N

/-- The buffers after the region: as the region found them, the result's at its final contents. -/
abbrev V1 (c : Dev nD) : Valuation τ sig (Elt F) := (StableHlo.nullary main_v2 (finalO m c)).result (V0 m c)

theorem V1_v2 (c : Dev nD) : V1 m c (Proc.devRef .tc main_v2) = finalO m c := StableHlo.nullary_result _ _ _ _
theorem V1_v3 (c : Dev nD) : V1 m c (Proc.devRef .tc main_v3) = V m c main_v3 :=
  StableHlo.nullary_result_ne (y := main_v2) (finalO m c) _ (V0 m c) (r := main_v3) (by decide)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h
theorem hostOps1_tail : ∀ op ∈ (hostOps1 : List (HloOp τ sig (Elt F))), op.bufs ⊆ tailRefs := by
  intro _ h; (repeat (cases h with | head => exact subset_rfl | tail _ h => ?_)); exact nomatch h

/-! ## The segments -/

/-- The two reshapes of the labels, over all the unscoped buffers. -/
def seg0 : Pipeline.HostSeg (Name := ℕ) (U := UR sig nD τ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h)) hostOps0_fresh (fun c b => m (c, b)) R

/-- What bypasses the last reshape: the two arguments as the region found them, and the core owing nothing. -/
abbrev R1 (c : Dev nD) : sProp 𝕄 :=
  iprop((((c : Thread nD τ).loc main_arg0) ↦{fullShare} V m c main_arg0) ∗ (((c : Thread nD τ).loc main_arg1) ↦{fullShare} V m c main_arg1) ∗ R c)

/-- The reshape of the 1×1 result to a scalar, over the two buffers it touches. -/
def seg1 : Pipeline.HostSeg (Name := ℕ) (U := UR sig nD τ) (pcfgs (F := F)) defs₀ Variants.none L lv :=
  Pipeline.HostSeg.ofOps _ _ _ _ _ tailRefs hostOps1 hostOps1_tail hostOps1_fresh (V1 m) (R1 m)

set_option backward.isDefEq.respectTransparency.types false in
/-- The region. Entered from the unscoped buffers after the two reshapes: the embeddings' buffer is split into the two
    windows' half shares, the labels' column and row and the result go to their windows, the labels' array and the
    scalar result bypass it; the invariant at the first point is the two scratch buffers. Left with the halves joined
    back and the result's array at its final contents. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) tailRefs (V1 m c) ∗ R1 m c)
  X _ := iprop(emp)
  Y _ := iprop(emp)
  Z c := iprop((((c : Thread nD τ).loc main_arg1) ↦{fullShare} V m c main_arg1) ∗ (((c : Thread nD τ).loc main_v3) ↦{fullShare} V m c main_v3))
  hentry c := by
    rw [show StableHlo.held (c : Thread nD τ) (Pipeline.ucRefs τ sig) (V0 m c) = unscopedBufs c (V m c) from (Pipeline.unscopedBufs_held c _).symm]
    rw [Pipeline.unscopedBufs_split₀ cfgs 0 winFacts₀0.arr_unscoped c (V m c), arrBufs_chain, unscopedRest0_eq, arrays_chain]
    iintro ⟨⟨⟨⟨H0, Hv0, Hv1, Hv2⟩, H1, H3⟩, HO⟩, -, -⟩
    ihave Hs := (pointsTo_share (PosShare.mem_left_op_right fullShare)).1 $$ H0
    icases Hs with ⟨H0l, H0r⟩
    imodintro
    isplitl [H0l H0r Hv0 Hv1 Hv2]
    · isplitl [H0l]; · iexact H0l
      isplitl [H0r]; · iexact H0r
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [H1]; · iexact H1
    iexact H3
  hin c := by
    rw [show (dats m 0 c).Φ 0 = Pipeline.scopedRest spec0 c from rfl]
    iintro ⟨-, -, Hr⟩; iexact Hr
  hout c := by
    rw [Pipeline.ownSems0_none, show (dats m 0 c).Φ (Fin.last cfg0.N) = PhiS m c cfg0.N (Nat.le_refl _) from rfl,
      PhiS_pos m c _ _ (by have h : cfg0.N = 64 := N_0; omega), scopedRest_scratch]
    iintro ⟨HA, HB⟩
    isplitr; · iempintro
    isplitr; · iempintro
    isplitl [HA]; · iexists _; iexact HA
    iexists _; iexact HB
  hexit c := by
    rw [arrays_chain, held_tail, V1_v2, V1_v3]
    rw [(dats m 0 c).arrAt_in 0 rfl, (dats m 0 c).arrAt_in 1 rfl]
    iintro ⟨⟨H0l, H0r, -, -, Hv2⟩, HO, -, ⟨H1, H3⟩⟩
    ihave H0 := (pointsTo_share (PosShare.mem_left_op_right fullShare)).2 $$ [H0l H0r]
    · isplitl [H0l]; · iexact H0l
      iexact H0r
    imodintro
    isplitl [Hv2 H3]
    · isplitl [Hv2]; · iexact Hv2
      iexact H3
    isplitl [H0]; · iexact H0
    isplitl [H1]; · iexact H1
    unfold Pipeline.Dat.owesAt Pipeline.owesWithin
    icases HO with ⟨%W, -, HO⟩; iexists W; iexact HO

/-! ## The run -/

/-- @main as its three segments. -/
abbrev segs : List (Pipeline.Seg (pcfgs (F := F)) adm (dats m) () defs₀ Variants.none L lv) :=
  [.host (seg0 m), .region (reg0 m), .host (seg1 m)]

/-- The buffers at the end: the last reshape has run. -/
abbrev V2 (c : Dev nD) : Valuation τ sig (Elt F) := StableHlo.after hostOps1 (V1 m c)

/-- The two arguments reach the region, and the end, as launched: no reshape writes them. -/
theorem V_arg0 (c : Dev nD) : V m c main_arg0 = m ((c : Thread nD τ).loc main_arg0) := by
  dsimp only [V, V0, hostOps0]; after_results
theorem V_arg1 (c : Dev nD) : V m c main_arg1 = m ((c : Thread nD τ).loc main_arg1) := by
  dsimp only [V, V0, hostOps0]; after_results

/-- The physical post: the scalar result at the last reshape's value, both arguments as launched. -/
def QC : PUnit × MemSt nD τ sig (Elt F) → Prop := fun r => ∀ c : Dev nD,
  r.2.mem ((c : Thread nD τ).loc main_v3) = V2 m c (Proc.devRef .tc main_v3)
  ∧ r.2.mem ((c : Thread nD τ).loc main_arg0) = m ((c : Thread nD τ).loc main_arg0)
  ∧ r.2.mem ((c : Thread nD τ).loc main_arg1) = m ((c : Thread nD τ).loc main_arg1)

/-- What is held at the end. -/
abbrev Tn (c : Dev nD) : sProp 𝕄 :=
  iprop(StableHlo.held (c : Thread nD τ) tailRefs (V2 m c) ∗ (((c : Thread nD τ).loc main_arg0) ↦{fullShare} V m c main_arg0)
    ∗ (((c : Thread nD τ).loc main_arg1) ↦{fullShare} V m c main_arg1))

set_option maxHeartbeats 2000000 in
set_option backward.isDefEq.respectTransparency.types false in
/-- At the compiled mesh, for any float values, from any memory with zero counters: every weakly fair execution of
    @main terminates, and every final state has the scalar result at the reshape of what the region's last point
    wrote back and both arguments unchanged. -/
theorem run_main : θ_run defs (onTc (τ := τ) (main (F := F))) (s₀ m ρ) (QC m) :=
  Pipeline.θ_run_regions_kit (pcfgs (F := F)) adm (dats m) () cellOf_inj EP defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c)) (Tₙ := Tn m)
    (hch := ⟨fun _ => .rfl, fun _ => .rfl, fun _ => .rfl, fun c => by
      show (iprop(StableHlo.held (c : Thread nD τ) tailRefs (V2 m c) ∗ R1 m c) : sProp 𝕄) ⊢ _
      iintro ⟨Hh, H0, H1, HO⟩
      isplitr [HO]
      · isplitl [Hh]; · iexact Hh
        isplitl [H0]; · iexact H0
        iexact H1
      · iexact HO⟩)
    (hinit := by
      refine Pipeline.initEach L lv fun c => ?_
      rw [show unscopedBufs c (fun b => m ((c : Thread nD τ).loc b)) = StableHlo.held (c : Thread nD τ) (Pipeline.ucRefs τ sig) (fun b => m (c, b)) from Pipeline.unscopedBufs_held c (fun b => m (c, b))]
      iintro ⟨⟨Hh, -, HO, -, -, -⟩, -⟩
      imodintro
      isplitl [Hh]; · iexact Hh
      iexists ∅; iexact HO)
    (QY := fun c s => s.mem ((c : Thread nD τ).loc main_v3) = V2 m c (Proc.devRef .tc main_v3)
      ∧ s.mem ((c : Thread nD τ).loc main_arg0) = m ((c : Thread nD τ).loc main_arg0)
      ∧ s.mem ((c : Thread nD τ).loc main_arg1) = m ((c : Thread nD τ).loc main_arg1))
    (hfin := fun c s' => by
      dsimp only [Tn]; rw [held_tail, V_arg0, V_arg1]
      iintro ⟨⟨⟨-, H3⟩, H0, H1⟩, HSI⟩
      icombine HSI H3 gives %h3
      icombine HSI H0 gives %h0
      icombine HSI H1 gives %h1
      imodintro
      isplitr; · ipureintro; exact ⟨Buf.eq_of_forall_mem_univ h3, Buf.eq_of_forall_mem_univ h0, Buf.eq_of_forall_mem_univ h1⟩
      iexact HSI)
    (hQ := fun _ h => h)

/-- info: 'Cert.KernelIdeal.Hand.run_main' depends on axioms: [propext, Classical.choice, Quot.sound] -/
#guard_msgs in #print axioms run_main

/-- The frame: both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.KI.Value.lean ====
/-
  The values the runs found, named. At every point the numerator's accumulator takes the tile's loss sum added to what
  it held (the cleared value at the first point) and the denominator's the tile's count of positive pairs; the last
  point stores their quotient. So after point `n` the accumulators are the `n + 1`-fold iteration of those two steps
  from zero, and the result array ends at the quotient after point 63.
-/
import proofs.«114578_j14851996910158_1_alg».proof.Proof.KI.Run
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hz : (![0, 0] : Fin 2 → Nat) = fun _ => 0 := funext fun a => by fin_cases a <;> rfl

/-- One point's step of the numerator's accumulator from `s`: the tile's loss sum added to it. -/
def stepA (i : grid0.Coords) (x0 : Vec F S8x128 .f32) (x1 : Vec F S512x128 .f32) (x2 : Vec F S8x1 .i32) (x3 : Vec F S1x512 .i32) (s : Vec F S1x1 .f32) : Vec F S1x1 .f32 :=
  k0_pay1 (k0_pay12 (k0_pay7 i x0 x1) (k0_pay8 x2 x3) (k0_pay9 i x2 x3) (k0_pay10 i x0 x1) s)
/-- One point's step of the denominator's accumulator from `s`: the tile's count of positive pairs added to it. -/
def stepB (i : grid0.Coords) (x2 : Vec F S8x1 .i32) (x3 : Vec F S1x512 .i32) (s : Vec F S1x1 .f32) : Vec F S1x1 .f32 :=
  k0_pay2 (k0_pay11 (k0_pay9 i x2 x3)) s

theorem midA_eq (c : Dev nD) (t : Fin cfg0.N) (hc0 : ¬condFirst (grid0.coords t)) (hc1 : ¬condLast (grid0.coords t)) (xa xb : Vec F S1x1 .f32) :
    midA m c t hc0 hc1 xa xb = stepA (grid0.coords t) (iblk m c 0 t) (iblk m c 1 t) (iblk m c 2 t) (iblk m c 3 t) xa := by
  unfold midA
  rw [View.read_writes_eq_canon _ _ _ (coverMidA m c t hc0 hc1 xa xb)]
  unfold runMid
  dsimp only
  sl_unfold_words
  rw [View.canon_unit_zero hz]
  simp only [View.readAt_eq_ld, (hs0 t).read_unread, (hs1 t).read_unread, (hs2 t).read_unread, (hs3 t).read_unread, (Memref.isWhole_whole cc0_scratch0).read_unread, (Memref.isWhole_whole cc0_scratch1).read_unread, View.ld_unit_zero (S := S8x128) hz, View.ld_unit_zero (S := S512x128) hz, View.ld_unit_zero (S := S8x1) hz, View.ld_unit_zero (S := S1x512) hz, View.ld_unit_zero (S := S1x1) hz]
  rfl

theorem midB_eq (c : Dev nD) (t : Fin cfg0.N) (hc0 : ¬condFirst (grid0.coords t)) (hc1 : ¬condLast (grid0.coords t)) (xa xb : Vec F S1x1 .f32) :
    midB m c t hc0 hc1 xa xb = stepB (grid0.coords t) (iblk m c 2 t) (iblk m c 3 t) xb := by
  unfold midB
  rw [View.read_writes_eq_canon _ _ _ (coverMidB m c t hc0 hc1 xa xb)]
  unfold runMid
  dsimp only
  sl_unfold_words
  rw [View.canon_unit_zero hz]
  simp only [View.readAt_eq_ld, (hs0 t).read_unread, (hs1 t).read_unread, (hs2 t).read_unread, (hs3 t).read_unread, (Memref.isWhole_whole cc0_scratch0).read_unread, (Memref.isWhole_whole cc0_scratch1).read_unread, View.ld_unit_zero (S := S8x128) hz, View.ld_unit_zero (S := S512x128) hz, View.ld_unit_zero (S := S8x1) hz, View.ld_unit_zero (S := S1x512) hz, View.ld_unit_zero (S := S1x1) hz]
  rfl

theorem firstA_eq (c : Dev nD) (t : Fin cfg0.N) (hc0 : condFirst (grid0.coords t)) (hc1 : ¬condLast (grid0.coords t)) :
    firstA m c t hc0 hc1 = stepA (grid0.coords t) (iblk m c 0 t) (iblk m c 1 t) (iblk m c 2 t) (iblk m c 3 t) (k0_pay4 (F := F)) := by
  unfold firstA
  rw [View.read_writes_eq_canon _ _ _ (coverFirstA m c t hc0 hc1)]
  unfold runFirst
  dsimp only
  sl_unfold_words
  rw [View.canon_cons_unit_zero (S := S1x1) hz, View.readCov_unit_zero (S := S1x1) _ hz]
  simp only [View.readAt_eq_ld, (hs0 t).read_unread, (hs1 t).read_unread, (hs2 t).read_unread, (hs3 t).read_unread, (Memref.isWhole_whole cc0_scratch0).read_unread, (Memref.isWhole_whole cc0_scratch1).read_unread, View.ld_unit_zero (S := S8x128) hz, View.ld_unit_zero (S := S512x128) hz, View.ld_unit_zero (S := S8x1) hz, View.ld_unit_zero (S := S1x512) hz, View.ld_unit_zero (S := S1x1) hz]
  rfl

theorem firstB_eq (c : Dev nD) (t : Fin cfg0.N) (hc0 : condFirst (grid0.coords t)) (hc1 : ¬condLast (grid0.coords t)) :
    firstB m c t hc0 hc1 = stepB (grid0.coords t) (iblk m c 2 t) (iblk m c 3 t) (k0_pay5 (F := F)) := by
  unfold firstB
  rw [View.read_writes_eq_canon _ _ _ (coverFirstB m c t hc0 hc1)]
  unfold runFirst
  dsimp only
  sl_unfold_words
  rw [View.canon_cons_unit_zero (S := S1x1) hz, View.readCov_unit_zero (S := S1x1) _ hz]
  simp only [View.readAt_eq_ld, (hs0 t).read_unread, (hs1 t).read_unread, (hs2 t).read_unread, (hs3 t).read_unread, (Memref.isWhole_whole cc0_scratch0).read_unread, (Memref.isWhole_whole cc0_scratch1).read_unread, View.ld_unit_zero (S := S8x128) hz, View.ld_unit_zero (S := S512x128) hz, View.ld_unit_zero (S := S8x1) hz, View.ld_unit_zero (S := S1x512) hz, View.ld_unit_zero (S := S1x1) hz]
  rfl

theorem lastA_eq (c : Dev nD) (t : Fin cfg0.N) (hc0 : ¬condFirst (grid0.coords t)) (hc1 : condLast (grid0.coords t)) (xa xb : Vec F S1x1 .f32) :
    lastA m c t hc0 hc1 xa xb = stepA (grid0.coords t) (iblk m c 0 t) (iblk m c 1 t) (iblk m c 2 t) (iblk m c 3 t) xa := by
  unfold lastA
  rw [View.read_writes_eq_canon _ _ _ (coverLastA m c t hc0 hc1 xa xb)]
  unfold runLast
  dsimp only
  sl_unfold_words
  rw [View.canon_unit_zero hz]
  simp only [View.readAt_eq_ld, (hs0 t).read_unread, (hs1 t).read_unread, (hs2 t).read_unread, (hs3 t).read_unread, (Memref.isWhole_whole cc0_scratch0).read_unread, (Memref.isWhole_whole cc0_scratch1).read_unread, View.ld_unit_zero (S := S8x128) hz, View.ld_unit_zero (S := S512x128) hz, View.ld_unit_zero (S := S8x1) hz, View.ld_unit_zero (S := S1x512) hz, View.ld_unit_zero (S := S1x1) hz]
  rfl

theorem lastB_eq (c : Dev nD) (t : Fin cfg0.N) (hc0 : ¬condFirst (grid0.coords t)) (hc1 : condLast (grid0.coords t)) (xa xb : Vec F S1x1 .f32) :
    lastB m c t hc0 hc1 xa xb = stepB (grid0.coords t) (iblk m c 2 t) (iblk m c 3 t) xb := by
  unfold lastB
  rw [View.read_writes_eq_canon _ _ _ (coverLastB m c t hc0 hc1 xa xb)]
  unfold runLast
  dsimp only
  sl_unfold_words
  rw [View.canon_unit_zero hz]
  simp only [View.readAt_eq_ld, (hs0 t).read_unread, (hs1 t).read_unread, (hs2 t).read_unread, (hs3 t).read_unread, (Memref.isWhole_whole cc0_scratch0).read_unread, (Memref.isWhole_whole cc0_scratch1).read_unread, View.ld_unit_zero (S := S8x128) hz, View.ld_unit_zero (S := S512x128) hz, View.ld_unit_zero (S := S8x1) hz, View.ld_unit_zero (S := S1x512) hz, View.ld_unit_zero (S := S1x1) hz]
  rfl

theorem lastO_eq (c : Dev nD) (t : Fin cfg0.N) (hc0 : ¬condFirst (grid0.coords t)) (hc1 : condLast (grid0.coords t)) (xa xb : Vec F S1x1 .f32) :
    lastO m c t hc0 hc1 xa xb = k0_pay3 (stepA (grid0.coords t) (iblk m c 0 t) (iblk m c 1 t) (iblk m c 2 t) (iblk m c 3 t) xa) (stepB (grid0.coords t) (iblk m c 2 t) (iblk m c 3 t) xb) := by
  unfold lastO
  rw [View.read_writes_eq_canon _ _ _ (coverLastO m c t hc0 hc1 xa xb)]
  unfold runLast
  dsimp only
  sl_unfold_words
  rw [View.canon_unit_zero hz, View.readCov_unit_zero (S := S1x1) _ hz, View.readCov_unit_zero (S := S1x1) _ hz]
  simp only [View.readAt_eq_ld, (hs0 t).read_unread, (hs1 t).read_unread, (hs2 t).read_unread, (hs3 t).read_unread, (Memref.isWhole_whole cc0_scratch0).read_unread, (Memref.isWhole_whole cc0_scratch1).read_unread, View.ld_unit_zero (S := S8x128) hz, View.ld_unit_zero (S := S512x128) hz, View.ld_unit_zero (S := S8x1) hz, View.ld_unit_zero (S := S1x512) hz, View.ld_unit_zero (S := S1x1) hz]
  rfl

/-! ## The accumulators after each point -/

/-- The numerator's accumulator after point `n`: the steps of points `0 … n` from the cleared value. -/
def accA (c : Dev nD) : (n : ℕ) → n < cfg0.N → Vec F S1x1 .f32
  | 0, h => stepA (grid0.coords ⟨0, h⟩) (iblk m c 0 ⟨0, h⟩) (iblk m c 1 ⟨0, h⟩) (iblk m c 2 ⟨0, h⟩) (iblk m c 3 ⟨0, h⟩) (k0_pay4 (F := F))
  | n + 1, h => stepA (grid0.coords ⟨n + 1, h⟩) (iblk m c 0 ⟨n + 1, h⟩) (iblk m c 1 ⟨n + 1, h⟩) (iblk m c 2 ⟨n + 1, h⟩) (iblk m c 3 ⟨n + 1, h⟩) (accA c n (Nat.lt_of_succ_lt h))
/-- The denominator's. -/
def accB (c : Dev nD) : (n : ℕ) → n < cfg0.N → Vec F S1x1 .f32
  | 0, h => stepB (grid0.coords ⟨0, h⟩) (iblk m c 2 ⟨0, h⟩) (iblk m c 3 ⟨0, h⟩) (k0_pay5 (F := F))
  | n + 1, h => stepB (grid0.coords ⟨n + 1, h⟩) (iblk m c 2 ⟨n + 1, h⟩) (iblk m c 3 ⟨n + 1, h⟩) (accB c n (Nat.lt_of_succ_lt h))

/-- What the runs leave in the two scratch buffers after point `n` is those iterations. -/
theorem outsAt_acc (c : Dev nD) : ∀ (n : ℕ) (hn : n < cfg0.N),
    (outsAt m c n hn).2.1 = accA m c n hn ∧ (outsAt m c n hn).2.2 = accB m c n hn := by
  intro n
  induction n with
  | zero => intro hn; exact ⟨firstA_eq m c ⟨0, hn⟩ (first_zero hn) (not_last_zero hn), firstB_eq m c ⟨0, hn⟩ (first_zero hn) (not_last_zero hn)⟩
  | succ n ih =>
    intro hn
    obtain ⟨ia, ib⟩ := ih (Nat.lt_of_succ_lt hn)
    have ea : (outsAt m c (n + 1) hn).2.1 = stepA (grid0.coords ⟨n + 1, hn⟩) (iblk m c 0 ⟨n + 1, hn⟩) (iblk m c 1 ⟨n + 1, hn⟩) (iblk m c 2 ⟨n + 1, hn⟩) (iblk m c 3 ⟨n + 1, hn⟩) (outsAt m c n (Nat.lt_of_succ_lt hn)).2.1 := by
      by_cases h1 : n + 1 = 63
      · rw [show outsAt m c (n + 1) hn = _ from outsAt_last m c ⟨n + 1, hn⟩ (Nat.succ_ne_zero n) h1]
        exact lastA_eq m c ⟨n + 1, hn⟩ (not_first_succ n hn) ((condLast_iff ⟨n + 1, hn⟩).mpr h1) (outsAt m c n (Nat.lt_of_succ_lt hn)).2.1 (outsAt m c n (Nat.lt_of_succ_lt hn)).2.2
      · rw [show outsAt m c (n + 1) hn = _ from outsAt_mid m c ⟨n + 1, hn⟩ (Nat.succ_ne_zero n) h1]
        exact midA_eq m c ⟨n + 1, hn⟩ (not_first_succ n hn) (fun h => h1 ((condLast_iff ⟨n + 1, hn⟩).mp h)) (outsAt m c n (Nat.lt_of_succ_lt hn)).2.1 (outsAt m c n (Nat.lt_of_succ_lt hn)).2.2
    have eb : (outsAt m c (n + 1) hn).2.2 = stepB (grid0.coords ⟨n + 1, hn⟩) (iblk m c 2 ⟨n + 1, hn⟩) (iblk m c 3 ⟨n + 1, hn⟩) (outsAt m c n (Nat.lt_of_succ_lt hn)).2.2 := by
      by_cases h1 : n + 1 = 63
      · rw [show outsAt m c (n + 1) hn = _ from outsAt_last m c ⟨n + 1, hn⟩ (Nat.succ_ne_zero n) h1]
        exact lastB_eq m c ⟨n + 1, hn⟩ (not_first_succ n hn) ((condLast_iff ⟨n + 1, hn⟩).mpr h1) (outsAt m c n (Nat.lt_of_succ_lt hn)).2.1 (outsAt m c n (Nat.lt_of_succ_lt hn)).2.2
      · rw [show outsAt m c (n + 1) hn = _ from outsAt_mid m c ⟨n + 1, hn⟩ (Nat.succ_ne_zero n) h1]
        exact midB_eq m c ⟨n + 1, hn⟩ (not_first_succ n hn) (fun h => h1 ((condLast_iff ⟨n + 1, hn⟩).mp h)) (outsAt m c n (Nat.lt_of_succ_lt hn)).2.1 (outsAt m c n (Nat.lt_of_succ_lt hn)).2.2
    exact ⟨ea.trans (congrArg (stepA (grid0.coords ⟨n + 1, hn⟩) (iblk m c 0 ⟨n + 1, hn⟩) (iblk m c 1 ⟨n + 1, hn⟩) (iblk m c 2 ⟨n + 1, hn⟩) (iblk m c 3 ⟨n + 1, hn⟩)) ia), eb.trans (congrArg (stepB (grid0.coords ⟨n + 1, hn⟩) (iblk m c 2 ⟨n + 1, hn⟩) (iblk m c 3 ⟨n + 1, hn⟩)) ib)⟩

theorem lt63 : 63 < cfg0.N := by have h : cfg0.N = 64 := N_0; omega

/-- The quotient the last point stores. -/
def quot (c : Dev nD) : Vec F S1x1 .f32 := k0_pay3 (accA m c 63 lt63) (accB m c 63 lt63)

/-- The output buffer after the last point holds it. -/
theorem out_last (c : Dev nD) (h : 63 < cfg0.N) : (outsAt m c 63 h).1 = quot m c := by
  obtain ⟨ia, ib⟩ := outsAt_acc m c 62 (Nat.lt_of_succ_lt h)
  have eo : (outsAt m c 63 h).1 = k0_pay3 (stepA (grid0.coords ⟨63, h⟩) (iblk m c 0 ⟨63, h⟩) (iblk m c 1 ⟨63, h⟩) (iblk m c 2 ⟨63, h⟩) (iblk m c 3 ⟨63, h⟩) (outsAt m c 62 (Nat.lt_of_succ_lt h)).2.1)
      (stepB (grid0.coords ⟨63, h⟩) (iblk m c 2 ⟨63, h⟩) (iblk m c 3 ⟨63, h⟩) (outsAt m c 62 (Nat.lt_of_succ_lt h)).2.2) := by
    rw [show outsAt m c 63 h = _ from outsAt_last m c ⟨63, h⟩ (show (63 : ℕ) ≠ 0 from by decide) rfl]
    exact lastO_eq m c ⟨63, h⟩ (not_first_succ 62 h) ((condLast_iff ⟨63, h⟩).mpr rfl) (outsAt m c 62 (Nat.lt_of_succ_lt h)).2.1 (outsAt m c 62 (Nat.lt_of_succ_lt h)).2.2
  rw [eo, ia, ib]
  rfl

/-! ## The result array after the run -/

instance : Subsingleton S1x1.Idx := ⟨fun a b => funext fun d => Fin.ext (by
  have ha := (a d).isLt; have hb := (b d).isLt
  have hs : S1x1.size d = 1 := by fin_cases d <;> rfl
  omega)⟩

/-- The result's window is its whole 1×1 array at every point. -/
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The result array ends at the quotient: the one write-back, at the last point, covers it. -/
theorem final4 (c : Dev nD) : (dats m 0 c).arrAt 4 cfg0.N = quot m c := by
  refine (dats m 0 c).arrAt_eq_of_cover 4 (quot m c) (fun t hf => ?_) (fun i => ?_)
  · have h63 : t.val = 63 := by have := (flush0_4 t).mp hf; have := t.isLt; have h : cfg0.N = 64 := N_0; omega
    obtain ⟨tv, ht⟩ := t
    dsimp only at h63; subst h63
    show (cfg0.win 4).cut (grid0.coords ⟨63, ht⟩) ((dats m 0 c).after 4 ⟨63, ht⟩) = _
    rw [after4, out_last m c ht]
    funext y
    exact congrArg (quot m c) (Subsingleton.elim _ _)
  · refine ⟨⟨63, lt63⟩, (flush0_4 _).mpr rfl, ?_⟩
    show i ∈ ((View.whole main_v2).slice (win0_4.rect ⟨63, lt63⟩)).set
    rw [View.set_slice_whole, Rect.mem_set_unit]
    obtain ⟨e0, e1⟩ := index4 ⟨63, lt63⟩
    intro a
    match a with
    | ⟨0, _⟩ => show win0_4.index ⟨63, lt63⟩ (0 : Fin 2) * 1 ≤ (i 0).val ∧ (i 0).val < win0_4.index ⟨63, lt63⟩ (0 : Fin 2) * 1 + 1; have hi : (i 0).val < 1 := (i 0).isLt; omega
    | ⟨1, _⟩ => show win0_4.index ⟨63, lt63⟩ (1 : Fin 2) * 1 ≤ (i 1).val ∧ (i 1).val < win0_4.index ⟨63, lt63⟩ (1 : Fin 2) * 1 + 1; have hi : (i 1).val < 1 := (i 1).isLt; omega

/-! ## The scalar result -/

/-- After the last reshape the scalar result is the stored quotient, read at the one index of a rank-0 array. -/
theorem result_eq (c : Dev nD) : V2 m c (Proc.devRef .tc main_v3) = shapeCast S_ (quot m c) shapeCasts_S1x1_S_ := by
  rw [← final4 m c]
  dsimp only [V2, V1, hostOps1]
  after_results
  rfl

end Cert.KernelIdeal.Hand

end
-- ==== Proof.KI.Blocks.lean ====
/-
  What the kernel's four input windows hold at an index.  The region finds the embeddings as launched and the two
  label arrays as the labels reshaped to a column and to a row; a window's block at grid point `t` is its array
  read at the block's offset.  So, at point `t`: the first window holds rows `8 t … 8 t + 7` of the embeddings, the
  second all of them, the third the labels of rows `8 t … 8 t + 7` as a column, the fourth all labels as a row.
-/
import proofs.«114578_j14851996910158_1_alg».proof.Proof.KI.Data
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Hand
open Idealize.ShloMosaic Idealize.ShloMosaic.TcCoe Idealize.ShloMosaic.ValueIdx Idealize.ShloMosaic.StableHlo
open Idealize.SL.Sem

variable {F : FTy → Type} [FloatOps F]
variable (m : (ℓ : Loc nD τ sig) → Buf (Elt F) ℓ)

/-! ## The arrays as the region finds them -/

theorem V_arg0 (c : Dev nD) : V m c main_arg0 = m ((c : Thread nD τ).loc main_arg0) := by
  dsimp only [V, V0, hostOps0]
  after_results

theorem V_v0 (c : Dev nD) :
    V m c main_v0 = shapeCast S512x1 (m ((c : Thread nD τ).loc main_arg1) : S512.Idx → BitVec 32) shapeCasts_S512_S512x1 := by
  dsimp only [V, V0, hostOps0]
  after_results
  rfl

theorem V_v1 (c : Dev nD) :
    V m c main_v1 = shapeCast S1x512 (m ((c : Thread nD τ).loc main_arg1) : S512.Idx → BitVec 32) shapeCasts_S512_S1x512 := by
  dsimp only [V, V0, hostOps0]
  after_results
  rfl

/-! ## The reshapes at an index -/

theorem cast_col {α : Type} (x : S512.Idx → α) (h : S512.ShapeCasts S512x1) (i : Fin 512) (u : Fin 1) :
    shapeCast S512x1 x h (ix2 i u) = x (ix1 i) := by
  refine shapeCast_apply x h _ _ ?_
  rw [Shape.rowMajor_val_one, Shape.rowMajor_val_two]
  show i.val = i.val * 1 + u.val
  have := u.isLt; omega

theorem cast_row {α : Type} (x : S512.Idx → α) (h : S512.ShapeCasts S1x512) (u : Fin 1) (j : Fin 512) :
    shapeCast S1x512 x h (ix2 u j) = x (ix1 j) := by
  refine shapeCast_apply x h _ _ ?_
  rw [Shape.rowMajor_val_one, Shape.rowMajor_val_two]
  show j.val = u.val * 512 + j.val
  have := u.isLt; omega

/-! ## The windows' block offsets over the 64 grid points -/

theorem t_lt (t : Fin cfg0.N) : t.val < 64 := by
  have h := t.isLt
  have e : cfg0.N = 64 := N_0
  omega

theorem row_lt (t : Fin cfg0.N) (r : Fin 8) : 8 * t.val + r.val < 512 := by
  have := t_lt t; have := r.isLt; omega

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-! ## A block's index in its array -/

theorem emb0 (t : Fin cfg0.N) (r : Fin 8) (d : Fin 128) :
    ((cfg0.win 0).blk t).view.emb (ix2 r d : S8x128.Idx) = (ix2 (⟨8 * t.val + r.val, row_lt t r⟩ : Fin 512) d : S512x128.Idx) := by
  obtain ⟨e0, e1⟩ := idx0 t
  funext a; apply Fin.ext
  match a with
  | ⟨0, _⟩ => show win0_0.index t (0 : Fin 2) * 8 + 1 * r.val = 8 * t.val + r.val; rw [e0]; omega
  | ⟨1, _⟩ => show win0_0.index t (1 : Fin 2) * 128 + 1 * d.val = d.val; rw [e1]; omega

theorem emb1 (t : Fin cfg0.N) (j : Fin 512) (d : Fin 128) :
    ((cfg0.win 1).blk t).view.emb (ix2 j d : S512x128.Idx) = (ix2 j d : S512x128.Idx) := by
  obtain ⟨e0, e1⟩ := idx1 t
  funext a; apply Fin.ext
  match a with
  | ⟨0, _⟩ => show win0_1.index t (0 : Fin 2) * 512 + 1 * j.val = j.val; rw [e0]; omega
  | ⟨1, _⟩ => show win0_1.index t (1 : Fin 2) * 128 + 1 * d.val = d.val; rw [e1]; omega

theorem emb2 (t : Fin cfg0.N) (r : Fin 8) (u : Fin 1) :
    ((cfg0.win 2).blk t).view.emb (ix2 r u : S8x1.Idx) = (ix2 (⟨8 * t.val + r.val, row_lt t r⟩ : Fin 512) u : S512x1.Idx) := by
  obtain ⟨e0, e1⟩ := idx2 t
  funext a; apply Fin.ext
  match a with
  | ⟨0, _⟩ => show win0_2.index t (0 : Fin 2) * 8 + 1 * r.val = 8 * t.val + r.val; rw [e0]; omega
  | ⟨1, _⟩ => show win0_2.index t (1 : Fin 2) * 1 + 1 * u.val = u.val; rw [e1]; omega

theorem emb3 (t : Fin cfg0.N) (u : Fin 1) (j : Fin 512) :
    ((cfg0.win 3).blk t).view.emb (ix2 u j : S1x512.Idx) = (ix2 u j : S1x512.Idx) := by
  obtain ⟨e0, e1⟩ := idx3 t
  funext a; apply Fin.ext
  match a with
  | ⟨0, _⟩ => show win0_3.index t (0 : Fin 2) * 1 + 1 * u.val = u.val; rw [e0]; omega
  | ⟨1, _⟩ => show win0_3.index t (1 : Fin 2) * 512 + 1 * j.val = j.val; rw [e1]; omega

/-! ## The four blocks at an index -/

/-- Rows `8 t … 8 t + 7` of the embeddings. -/
theorem iblk0_apply (c : Dev nD) (t : Fin cfg0.N) (r : Fin 8) (d : Fin 128) :
    (iblk m c 0 t : Vec F S8x128 .f32) (ix2 r d)
      = (m ((c : Thread nD τ).loc main_arg0) : S512x128.Idx → Elt F .f32) (ix2 (⟨8 * t.val + r.val, row_lt t r⟩ : Fin 512) d) := by
  unfold iblk
  rw [View.read_apply]
  show V m c main_arg0 _ = _
  rw [V_arg0, emb0]

/-- All of the embeddings. -/
theorem iblk1_apply (c : Dev nD) (t : Fin cfg0.N) (j : Fin 512) (d : Fin 128) :
    (iblk m c 1 t : Vec F S512x128 .f32) (ix2 j d)
      = (m ((c : Thread nD τ).loc main_arg0) : S512x128.Idx → Elt F .f32) (ix2 j d) := by
  unfold iblk
  rw [View.read_apply]
  show V m c main_arg0 _ = _
  rw [V_arg0, emb1]

/-- The labels of rows `8 t … 8 t + 7`, as a column. -/
theorem iblk2_apply (c : Dev nD) (t : Fin cfg0.N) (r : Fin 8) (u : Fin 1) :
    (iblk m c 2 t : Vec F S8x1 .i32) (ix2 r u)
      = (m ((c : Thread nD τ).loc main_arg1) : S512.Idx → BitVec 32) (ix1 (⟨8 * t.val + r.val, row_lt t r⟩ : Fin 512)) := by
  unfold iblk
  rw [View.read_apply]
  show V m c main_v0 _ = _
  rw [V_v0, emb2, cast_col]

/-- All labels, as a row. -/
theorem iblk3_apply (c : Dev nD) (t : Fin cfg0.N) (u : Fin 1) (j : Fin 512) :
    (iblk m c 3 t : Vec F S1x512 .i32) (ix2 u j)
      = (m ((c : Thread nD τ).loc main_arg1) : S512.Idx → BitVec 32) (ix1 j) := by
  unfold iblk
  rw [View.read_apply]
  show V m c main_v1 _ = _
  rw [V_v1, emb3, cast_row]

end Cert.KernelIdeal.Blocks

end
-- ==== Proof.LibLayout3.lean ====
/-
  Layout operations and one-axis reductions read at an index written by coordinates (a general lemma file: it imports
  only the library and is generic in the extents).

  A tile of the kernel works with three index sets: (row, column) pairs, (row, column, coordinate) triples for the
  distances, and (row, positive, negative) triples for the mining step. The programs move between them by inserting a
  unit axis and broadcasting along it, and come back by reducing over the last axis. Each lemma here says which entry of
  the operand one entry of the result reads, with every index spelt by its coordinates.
-/
import Idealize.ShloMosaic.Lib.ValueLayout
import Idealize.ShloMosaic.PureOps.Ideal.Laws

open scoped BigOperators

namespace Cert.LibLayout3

open Idealize.ShloMosaic Idealize.ShloMosaic.ValueIdx

section Casts
variable {α : Type}

/-- An [a, c] array viewed as [a, 1, c] reads, at (r, u, d), the operand at (r, d). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (d : Fin c) :
    shapeCast ⟨3, ![a, 1, c]⟩ x h (ix3 r u d) = x (ix2 r d) :=
  shapeCast_apply x h _ _ (by
    have hu : u.val = 0 := by omega
    rw [Shape.rowMajor_val_three, Shape.rowMajor_val_two]
    show r.val * c + d.val = (r.val * 1 + u.val) * c + d.val
    rw [hu, Nat.mul_one, Nat.add_zero])

/-- An [a, b] array viewed as [a, b, 1] reads, at (r, j, u), the operand at (r, j). -/
theorem shapeCast_ab_ab1_apply {a b : ℕ} (x : (⟨2, ![a, b]⟩ : Shape).Idx → α)
    (h : (⟨2, ![a, b]⟩ : Shape).ShapeCasts ⟨3, ![a, b, 1]⟩) (r : Fin a) (j : Fin b) (u : Fin 1) :
    shapeCast ⟨3, ![a, b, 1]⟩ x h (ix3 r j u) = x (ix2 r j) :=
  shapeCast_apply x h _ _ (by
    have hu : u.val = 0 := by omega
    rw [Shape.rowMajor_val_three, Shape.rowMajor_val_two]
    show r.val * b + j.val = (r.val * b + j.val) * 1 + u.val
    rw [hu, Nat.mul_one, Nat.add_zero])

/-- A vector [a] viewed as the column [a, 1] reads, at (r, u), the operand at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Casts

section Broadcasts
variable {α : Type}

/-- A column [a, 1] broadcast to [a, b] reads, at (r, j), the column at r. -/
theorem broadcastTo_a1_ab_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- An [a, 1, c] array broadcast along its middle axis to [a, b, c] reads, at (r, j, d), the operand at (r, 0, d). -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (j : Fin b) (d : Fin c) :
    broadcastTo ⟨3, ![a, b, c]⟩ v h (ix3 r j d) = v (ix3 r (0 : Fin 1) d) := by
  refine broadcastTo_apply v h (ix3 r j d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if c = 1 then 0 else d.val
    split
    · have := d.isLt; omega
    · rfl

/-- A [1, b, c] array broadcast along its first axis to [a, b, c] reads, at (r, j, d), the operand at (0, j, d). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (j : Fin b) (d : Fin c) :
    broadcastTo ⟨3, ![a, b, c]⟩ v h (ix3 r j d) = v (ix3 (0 : Fin 1) j d) := by
  refine broadcastTo_apply v h (ix3 r j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- An [a, b, 1] array broadcast along its last axis to [a, b, c] reads, at (r, j, k), the operand at (r, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (j : Fin b) (k : Fin c) :
    broadcastTo ⟨3, ![a, b, c]⟩ v h (ix3 r j k) = v (ix3 r j (0 : Fin 1)) := by
  refine broadcastTo_apply v h (ix3 r j k) (ix3 r j (0 : Fin 1)) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl
  | ⟨2, _⟩ => rfl

end Broadcasts

/-! ## The index a one-axis reduction inserts, by coordinates -/

section Lift

/-- Over [a, b, c] reduced along its last axis, the index above (r, j) with coordinate d is (r, j, d). -/
theorem lift_abc_last {a b c : ℕ} (h : Shape.Reduces ⟨3, ![a, b, c]⟩ [2] ⟨2, ![a, b]⟩) (r : Fin a) (j : Fin b) (d : Fin c) :
    h.lift (ix2 r j) d = ix3 r j d := by
  funext x
  match x with
  | ⟨0, _⟩ => exact Fin.ext rfl
  | ⟨1, _⟩ => exact Fin.ext rfl
  | ⟨2, _⟩ => exact Fin.ext rfl

/-- Over [a, b] reduced along its columns, the index above r with coordinate j is (r, j). -/
theorem lift_ab_last {a b : ℕ} (h : Shape.Reduces ⟨2, ![a, b]⟩ [1] ⟨1, ![a]⟩) (r : Fin a) (j : Fin b) :
    h.lift (ix1 r) j = ix2 r j := by
  funext x
  match x with
  | ⟨0, _⟩ => exact Fin.ext rfl
  | ⟨1, _⟩ => exact Fin.ext rfl

/-- Over the column [a, 1] reduced along its rows, the index above u with coordinate r is (r, u). -/
theorem lift_a1_first {a : ℕ} (h : Shape.Reduces ⟨2, ![a, 1]⟩ [0] ⟨1, ![1]⟩) (u : Fin 1) (r : Fin a) :
    h.lift (ix1 u) r = ix2 r u := by
  funext x
  match x with
  | ⟨0, _⟩ => exact Fin.ext rfl
  | ⟨1, _⟩ => exact Fin.ext rfl

end Lift

/-! ## One-axis reductions over the extended reals

The sum of a lane is a plain finite sum; a maximum or a minimum is the fold of max or min over the lane's
coordinates, started from the value of the accumulator's word. The reduced axis is written as an element of a literal
Fin type (Fin 2 or Fin 3), the rank of the array being reduced. -/

section Reductions

/-- A minimum over one axis is the fold of min over that axis's coordinates, from the accumulator's value. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum over the last axis of an [a, b, c] array, at (r, j). -/
theorem sum_abc_last {a b c : ℕ} (src : FVec Ideal ⟨3, ![a, b, c]⟩ .f32)
    (h : Shape.Reduces ⟨3, ![a, b, c]⟩ [2] ⟨2, ![a, b]⟩) (hacc : (0x00000000#32 : BitVec 32) = 0x00000000#32)
    (r : Fin a) (j : Fin b) :
    multiReduction (s := ⟨3, ![a, b, c]⟩) .add ([2] : List (Fin 3)) ⟨2, ![a, b]⟩ src 0x00000000#32 h (.inl rfl) hacc (ix2 r j)
      = ∑ d : Fin c, src (ix3 r j d) :=
  (Ideal.multiReduction_add_single src 0x00000000#32 h (.inl rfl) hacc (ix2 r j)).trans
    (Finset.sum_congr rfl fun d _ => congrArg src (lift_abc_last h r j d))

/-- The sum over the columns of an [a, b] array, at r. -/
theorem sum_ab_last {a b : ℕ} (src : FVec Ideal ⟨2, ![a, b]⟩ .f32)
    (h : Shape.Reduces ⟨2, ![a, b]⟩ [1] ⟨1, ![a]⟩) (hacc : (0x00000000#32 : BitVec 32) = 0x00000000#32) (r : Fin a) :
    multiReduction (s := ⟨2, ![a, b]⟩) .add ([1] : List (Fin 2)) ⟨1, ![a]⟩ src 0x00000000#32 h (.inl rfl) hacc (ix1 r)
      = ∑ j : Fin b, src (ix2 r j) :=
  (Ideal.multiReduction_add_single src 0x00000000#32 h (.inl rfl) hacc (ix1 r)).trans
    (Finset.sum_congr rfl fun j _ => congrArg src (lift_ab_last h r j))

/-- The sum over the rows of a column [a, 1], at its one index. -/
theorem sum_a1_first {a : ℕ} (src : FVec Ideal ⟨2, ![a, 1]⟩ .f32)
    (h : Shape.Reduces ⟨2, ![a, 1]⟩ [0] ⟨1, ![1]⟩) (hacc : (0x00000000#32 : BitVec 32) = 0x00000000#32) (u : Fin 1) :
    multiReduction (s := ⟨2, ![a, 1]⟩) .add ([0] : List (Fin 2)) ⟨1, ![1]⟩ src 0x00000000#32 h (.inl rfl) hacc (ix1 u)
      = ∑ r : Fin a, src (ix2 r u) :=
  (Ideal.multiReduction_add_single src 0x00000000#32 h (.inl rfl) hacc (ix1 u)).trans
    (Finset.sum_congr rfl fun r _ => congrArg src (lift_a1_first h u r))

/-- The maximum over the columns of an [a, b] array, at r. -/
theorem max_ab_last {a b : ℕ} (src : FVec Ideal ⟨2, ![a, b]⟩ .f32)
    (h : Shape.Reduces ⟨2, ![a, b]⟩ [1] ⟨1, ![a]⟩) (hacc : (0xFF800000#32 : BitVec 32) = 0xFF800000#32) (r : Fin a) :
    multiReduction (s := ⟨2, ![a, b]⟩) .maximumf ([1] : List (Fin 2)) ⟨1, ![a]⟩ src 0xFF800000#32 h (.inl rfl) hacc (ix1 r)
      = (Finset.univ : Finset (Fin b)).fold max (Ideal.ofBits .f32 0xFF800000#32) (fun j => src (ix2 r j)) :=
  (Ideal.multiReduction_maximumf_single src 0xFF800000#32 h (.inl rfl) hacc (ix1 r)).trans
    (Finset.fold_congr fun j _ => congrArg src (lift_ab_last h r j))

/-- The minimum over the columns of an [a, b] array, at r. -/
theorem min_ab_last {a b : ℕ} (src : FVec Ideal ⟨2, ![a, b]⟩ .f32)
    (h : Shape.Reduces ⟨2, ![a, b]⟩ [1] ⟨1, ![a]⟩) (hacc : (0x7F800000#32 : BitVec 32) = 0x7F800000#32) (r : Fin a) :
    multiReduction (s := ⟨2, ![a, b]⟩) .minimumf ([1] : List (Fin 2)) ⟨1, ![a]⟩ src 0x7F800000#32 h (.inl rfl) hacc (ix1 r)
      = (Finset.univ : Finset (Fin b)).fold min (Ideal.ofBits .f32 0x7F800000#32) (fun j => src (ix2 r j)) :=
  (multiReduction_minimumf_single src 0x7F800000#32 h (.inl rfl) hacc (ix1 r)).trans
    (Finset.fold_congr fun j _ => congrArg src (lift_ab_last h r j))

/-- The minimum over the last axis of an [a, b, c] array, at (r, j). -/
theorem min_abc_last {a b c : ℕ} (src : FVec Ideal ⟨3, ![a, b, c]⟩ .f32)
    (h : Shape.Reduces ⟨3, ![a, b, c]⟩ [2] ⟨2, ![a, b]⟩) (hacc : (0x7F800000#32 : BitVec 32) = 0x7F800000#32)
    (r : Fin a) (j : Fin b) :
    multiReduction (s := ⟨3, ![a, b, c]⟩) .minimumf ([2] : List (Fin 3)) ⟨2, ![a, b]⟩ src 0x7F800000#32 h (.inl rfl) hacc (ix2 r j)
      = (Finset.univ : Finset (Fin c)).fold min (Ideal.ofBits .f32 0x7F800000#32) (fun k => src (ix3 r j k)) :=
  (multiReduction_minimumf_single src 0x7F800000#32 h (.inl rfl) hacc (ix2 r j)).trans
    (Finset.fold_congr fun k _ => congrArg src (lift_abc_last h r j k))

end Reductions

end Cert.LibLayout3
-- ==== Proof.Spec.lean ====
/-
  The semi-hard triplet loss as ONE function of the embeddings and the labels, over the extended reals.

  For points `i`, `j` the distance is `pd i j = √(∑_d (x i d - x j d + ε)²)` off the diagonal and `0` on it.
  With `adjn i j = 1` when the labels differ (else `0`) and `mpos i j = (1 - adjn i j) - [i = j]`, the anchor `i`
  and the positive `b` take the semi-hard negative
    `noutside i b = min_k ((pd i k - amax i) · cond i b k) + amax i`   when some negative lies farther than `b`
                                                                        (`∑_k cond i b k > 0`),
    `ninside i     = max_j ((pd i j - amin i) · adjn i j) + amin i`     otherwise,
  where `cond i b k = [pd i k > pd i b] · adjn i k` and `amax`, `amin` are the row's largest and smallest distance.
  The loss is `∑_{i,b} max ((1 + pd i b - semi i b) · mpos i b) 0` divided by `∑_{i,b} mpos i b`.
  Maxima and minima are folds of `max` / `min` from `-∞` / `+∞`; sums are `Finset` sums over `Fin 512`.
-/
import Idealize.ShloMosaic.PureOps.Ideal

noncomputable section

namespace Cert.Spec

open Idealize.ShloMosaic

/-- The embeddings, by row and coordinate; the labels, by row. -/
abbrev Emb := Fin 512 → Fin 128 → EReal
abbrev Lab := Fin 512 → BitVec 32

/-- The shift added inside the norm (the same word in both programs), the unit, and the two reduction seeds. -/
def eps : EReal := Ideal.ofBits .f32 0x24E69595#32
def one : EReal := Ideal.ofBits .f32 0x3F800000#32
def negInf : EReal := Ideal.ofBits .f32 0xFF800000#32
def posInf : EReal := Ideal.ofBits .f32 0x7F800000#32

/-- A one-bit truth value as the number 0 or 1. -/
def ind (b : BitVec 1) : EReal := ((b.toNat : ℝ) : EReal)

/-- The distance before the diagonal is cleared. -/
def pdRaw (x : Emb) (i j : Fin 512) : EReal :=
  Ideal.sqrt (∑ d : Fin 128, (x i d - x j d + eps) * (x i d - x j d + eps))

/-- The distance matrix: zero on the diagonal. -/
def pd (x : Emb) (i j : Fin 512) : EReal := if i = j then 0 else pdRaw x i j

/-- 1 where the labels differ. -/
def adjn (lab : Lab) (i j : Fin 512) : EReal := if lab i ≠ lab j then 1 else 0

/-- 1 on the diagonal. -/
def eye (i j : Fin 512) : EReal := if i = j then 1 else 0

/-- 1 at a positive pair: same label, not the anchor itself. -/
def mpos (lab : Lab) (i j : Fin 512) : EReal := (one - adjn lab i j) - eye i j

/-- A row's largest and smallest distance. -/
def amax (x : Emb) (i : Fin 512) : EReal := (Finset.univ : Finset (Fin 512)).fold max negInf (fun j => pd x i j)
def amin (x : Emb) (i : Fin 512) : EReal := (Finset.univ : Finset (Fin 512)).fold min posInf (fun j => pd x i j)

/-- The farthest negative of the anchor (used when no negative lies beyond the positive). -/
def ninside (x : Emb) (lab : Lab) (i : Fin 512) : EReal :=
  (Finset.univ : Finset (Fin 512)).fold max negInf (fun j => (pd x i j - amin x i) * adjn lab i j) + amin x i

/-- 1 where `k` is a negative of `i` lying strictly farther than `b`. -/
def cond (x : Emb) (lab : Lab) (i b k : Fin 512) : EReal :=
  ind (Ideal.cmp .ogt (pd x i k) (pd x i b)) * adjn lab i k

/-- The nearest negative beyond the positive. -/
def noutside (x : Emb) (lab : Lab) (i b : Fin 512) : EReal :=
  (Finset.univ : Finset (Fin 512)).fold min posInf (fun k => (pd x i k - amax x i) * cond x lab i b k) + amax x i

/-- Whether some negative lies beyond the positive, as the programs test it. -/
def hasOutside (x : Emb) (lab : Lab) (i b : Fin 512) : BitVec 1 :=
  Ideal.cmp .ogt (∑ k : Fin 512, cond x lab i b k) 0

/-- The semi-hard negative's distance. -/
def semi (x : Emb) (lab : Lab) (i b : Fin 512) : EReal :=
  if hasOutside x lab i b = 1#1 then noutside x lab i b else ninside x lab i

/-- One pair's contribution to the numerator. -/
def contrib (x : Emb) (lab : Lab) (i b : Fin 512) : EReal :=
  max (((one + pd x i b) - semi x lab i b) * mpos lab i b) 0

/-- An anchor's row of the numerator and of the denominator. -/
def rowLoss (x : Emb) (lab : Lab) (i : Fin 512) : EReal := ∑ b : Fin 512, contrib x lab i b
def rowPos (lab : Lab) (i : Fin 512) : EReal := ∑ b : Fin 512, mpos lab i b

/-- The loss. -/
def loss (x : Emb) (lab : Lab) : EReal :=
  Ideal.div (∑ i : Fin 512, rowLoss x lab i) (∑ i : Fin 512, rowPos lab i)

end Cert.Spec

end
-- ==== Proof.TileWords.lean ====
/-
  The integer and one-bit words of a tile, read as numbers.

  Row 8t + r of the whole problem sits at row r of tile t. The kernel recognises the diagonal by comparing the 32-bit
  word of 8t + r with the word of the column number; nothing wraps, since every number involved is below 2^32, so the
  words agree exactly when the numbers do. A truth bit widened to 32 bits and converted to a float is the number 0 or 1.
-/
import Idealize.ShloMosaic.Lib.ValueIdx
import proofs.«114578_j14851996910158_1_alg».proof.Proof.Spec

namespace Cert.KernelIdeal.Tile

open Idealize.ShloMosaic Idealize.ShloMosaic.ValueIdx

/-- Row r of tile t is row 8t + r of the whole problem. -/
abbrev row (t : Fin 64) (r : Fin 8) : Fin 512 := ⟨8 * t.val + r.val, by omega⟩

/-- Row r of tile t is column j exactly when 8t + r = j. -/
theorem row_eq_iff (t : Fin 64) (r : Fin 8) (j : Fin 512) : row t r = j ↔ 8 * t.val + r.val = j.val := Fin.ext_iff

/-- The diagonal test on words: for a tile number n below 64, a row r below 8 and a column j below 512, the word of
    8n + r, computed as the kernel does, equals the word of j exactly when 8n + r = j. -/
theorem diag_word (n r j : ℕ) (hn : n < 64) (hr : r < 8) (hj : j < 512) :
    IntOp.cmpi .eq (IntOp.addi (Scalar.muli (BitVec.ofNat 32 n) 8#32) (BitVec.ofNat 32 r)) (BitVec.ofNat 32 j)
      = BitVec.ofBool (decide (8 * n + r = j)) := by
  unfold IntOp.cmpi IntOp.addi Scalar.muli IntOp.muli
  refine congrArg BitVec.ofBool ?_
  rw [Bool.eq_iff_iff]
  simp only [beq_iff_eq, decide_eq_true_eq]
  rw [← BitVec.toNat_inj]
  simp only [BitVec.toNat_add, BitVec.toNat_mul, BitVec.toNat_ofNat, Nat.reducePow, Nat.reduceMod]
  omega

/-- A truth bit, widened and converted, is the number 0 or 1. -/
theorem sitofp_extui_bit (b : BitVec 1) :
    (FloatOps.sitofp (F := Ideal) .f32 (b.setWidth 32) : EReal) = Cert.Spec.ind b := by
  show (((b.setWidth 32).toInt : ℝ) : EReal) = ((b.toNat : ℝ) : EReal)
  have e : (b.setWidth 32).toInt = (b.toNat : ℤ) := by
    rcases BitVec.eq_zero_or_eq_one b with h | h <;> subst h <;> decide
  rw [e, Int.cast_natCast]

/-- The number of a decided truth value. -/
theorem ind_ofBool (p : Bool) : Cert.Spec.ind (BitVec.ofBool p) = if p then 1 else 0 := by
  cases p <;> simp [Cert.Spec.ind]

/-- The number of a label comparison: 1 where the two words differ. -/
theorem ind_cmpi_ne (a b : BitVec 32) : Cert.Spec.ind (IntOp.cmpi .ne a b) = if a ≠ b then 1 else 0 := by
  unfold IntOp.cmpi
  rw [ind_ofBool]
  by_cases h : a = b <;> simp [h]

/-- A decided bit is set exactly when the proposition holds. -/
theorem ofBool_decide_eq_one (p : Prop) [Decidable p] : BitVec.ofBool (decide p) = 1#1 ↔ p := by
  by_cases h : p <;> simp [h]

end Cert.KernelIdeal.Tile
-- ==== Proof.TileMasks.lean ====
/-
  The tile's masks at an entry: the diagonal bit, the "labels differ" mask and the mask of positive pairs.

  Entry (r, j) of a tile belongs to anchor row 8t + r and column j. The diagonal bit compares the two numbers; the
  label mask compares the anchor's label, read from the tile's label column, with column j's label, read from the
  label row; a positive pair has equal labels and is off the diagonal.
-/
import proofs.«114578_j14851996910158_1_alg».proof.Proof.Gen.KernelIdeal.Skeleton
import proofs.«114578_j14851996910158_1_alg».proof.Proof.LibLayout3
import proofs.«114578_j14851996910158_1_alg».proof.Proof.TileWords

namespace Cert.KernelIdeal.Tile

open Idealize.ShloMosaic Idealize.ShloMosaic.ValueIdx Cert.KernelIdeal Cert.KernelIdeal.Gen Cert.LibLayout3

/-- The diagonal bit at (r, j): set exactly when 8 (tile number) + r = j. -/
theorem pay6_apply (i : grid0.Coords) (r : Fin 8) (j : Fin 512) :
    k0_pay6 i (ix2 r j) = BitVec.ofBool (decide (8 * (i 0).val + r.val = j.val)) := by
  have h64 : (i 0).val < 64 := (i 0).isLt
  unfold k0_pay6
  dsimp only
  show IntOp.cmpi .eq (broadcastTo S8x512 _ _ (ix2 r j)) (broadcastTo S8x512 _ _ (ix2 r j)) = _
  rw [broadcastTo_a1_ab_apply, broadcastTo_1b_ab_apply]
  show IntOp.cmpi .eq (IntOp.addi (Scalar.muli (BitVec.ofNat 32 (i 0).val) 8#32) (iota .tc S8x1 32 [0] _ (ix2 r (0 : Fin 1))))
      (iota .tc S1x512 32 [1] _ (ix2 (0 : Fin 1) j)) = _
  rw [iota_single_apply, iota_single_apply]
  exact diag_word (i 0).val r.val j.val h64 r.isLt j.isLt

/-- The diagonal bit of tile t at (r, j) is set exactly when row 8t + r is column j. -/
theorem pay6_eq_one_iff (t : Fin 64) (i : grid0.Coords) (hi : (i 0).val = t.val) (r : Fin 8) (j : Fin 512) :
    k0_pay6 i (ix2 r j) = 1#1 ↔ row t r = j := by
  rw [pay6_apply, ofBool_decide_eq_one, hi, row_eq_iff]

/-- The number of the diagonal bit is the identity matrix's entry. -/
theorem ind_pay6 (t : Fin 64) (i : grid0.Coords) (hi : (i 0).val = t.val) (r : Fin 8) (j : Fin 512) :
    Cert.Spec.ind (k0_pay6 i (ix2 r j)) = Cert.Spec.eye (row t r) j := by
  rw [pay6_apply, ind_ofBool, hi]
  unfold Cert.Spec.eye
  by_cases h : 8 * t.val + r.val = j.val
  · rw [if_pos ((row_eq_iff t r j).mpr h)]; simp [h]
  · rw [if_neg (fun e => h ((row_eq_iff t r j).mp e))]; simp [h]

/-- The label mask at (r, j) compares the label at row r of the column with the label at column j of the row. -/
theorem pay8_apply (v5 : Vec Ideal S8x1 .i32) (v7 : Vec Ideal S1x512 .i32) (r : Fin 8) (j : Fin 512) :
    k0_pay8 (F := Ideal) v5 v7 (ix2 r j)
      = Cert.Spec.ind (IntOp.cmpi .ne (v5 (ix2 r (0 : Fin 1))) (v7 (ix2 (0 : Fin 1) j))) := by
  unfold k0_pay8
  show (FloatOps.sitofp (F := Ideal) .f32
      ((IntOp.cmpi .ne (broadcastTo S8x512 (shapeCast S8x1 v5 _) _ (ix2 r j))
        (broadcastTo S8x512 (shapeCast S1x512 v7 _) _ (ix2 r j))).setWidth 32) : EReal) = _
  rw [sitofp_extui_bit, broadcastTo_a1_ab_apply, broadcastTo_1b_ab_apply, shapeCast_self, shapeCast_self]

/-- The label mask of tile t is the "labels differ" matrix on the tile's rows. -/
theorem pay8_eq_adjn (lab : Cert.Spec.Lab) (t : Fin 64) (v5 : Vec Ideal S8x1 .i32) (v7 : Vec Ideal S1x512 .i32)
    (h5 : ∀ r : Fin 8, v5 (ix2 r (0 : Fin 1)) = lab (row t r))
    (h7 : ∀ j : Fin 512, v7 (ix2 (0 : Fin 1) j) = lab j) (r : Fin 8) (j : Fin 512) :
    k0_pay8 (F := Ideal) v5 v7 (ix2 r j) = Cert.Spec.adjn lab (row t r) j := by
  rw [pay8_apply, h5, h7, ind_cmpi_ne]
  rfl

/-- The mask of positive pairs of tile t is the positives matrix on the tile's rows. -/
theorem pay9_eq_mpos (lab : Cert.Spec.Lab) (t : Fin 64) (i : grid0.Coords) (hi : (i 0).val = t.val)
    (v5 : Vec Ideal S8x1 .i32) (v7 : Vec Ideal S1x512 .i32)
    (h5 : ∀ r : Fin 8, v5 (ix2 r (0 : Fin 1)) = lab (row t r))
    (h7 : ∀ j : Fin 512, v7 (ix2 (0 : Fin 1) j) = lab j) (r : Fin 8) (j : Fin 512) :
    k0_pay9 (F := Ideal) i v5 v7 (ix2 r j) = Cert.Spec.mpos lab (row t r) j := by
  unfold k0_pay9
  show (Cert.Spec.one - k0_pay8 (F := Ideal) v5 v7 (ix2 r j))
      - (FloatOps.sitofp (F := Ideal) .f32 ((k0_pay6 i (ix2 r j)).setWidth 32) : EReal) = _
  rw [sitofp_extui_bit, ind_pay6 t i hi, pay8_eq_adjn lab t v5 v7 h5 h7]
  rfl

end Cert.KernelIdeal.Tile
-- ==== Proof.TilePos.lean ====
/-
  The tile's count of positive pairs.

  The kernel sums the positives mask along each row, then sums the eight row totals; over the extended reals that is the
  double sum over the tile's entries, which is the sum over the tile's anchors of each anchor's number of positives.
-/
import proofs.«114578_j14851996910158_1_alg».proof.Proof.TileMasks

open scoped BigOperators

namespace Cert.KernelIdeal.Tile

open Idealize.ShloMosaic Idealize.ShloMosaic.ValueIdx Cert.KernelIdeal Cert.KernelIdeal.Gen Cert.LibLayout3

/-- The sum of an [8, 512] block taken rows first, then over the eight row totals. -/
theorem pay11_apply (v38 : FVec Ideal S8x512 .f32) :
    k0_pay11 (F := Ideal) v38 (ix2 (0 : Fin 1) (0 : Fin 1)) = ∑ r : Fin 8, ∑ j : Fin 512, v38 (ix2 r j) := by
  unfold k0_pay11
  rw [shapeCast_a_a1_apply, sum_a1_first]
  refine Finset.sum_congr rfl fun r _ => ?_
  rw [shapeCast_a_a1_apply, sum_ab_last]

/-- Tile t adds to the denominator the number of positives of each of its eight anchors. -/
theorem tile_pos (lab : Cert.Spec.Lab) (t : Fin 64) (i : grid0.Coords) (hi : (i 0).val = t.val)
    (v5 : Vec Ideal S8x1 .i32) (v7 : Vec Ideal S1x512 .i32)
    (h5 : ∀ r : Fin 8, v5 (ix2 r (0 : Fin 1)) = lab (row t r))
    (h7 : ∀ j : Fin 512, v7 (ix2 (0 : Fin 1) j) = lab j) :
    k0_pay11 (F := Ideal) (k0_pay9 (F := Ideal) i v5 v7) (ix2 (0 : Fin 1) (0 : Fin 1))
      = ∑ r : Fin 8, Cert.Spec.rowPos lab (row t r) := by
  rw [pay11_apply]
  refine Finset.sum_congr rfl fun r _ => ?_
  unfold Cert.Spec.rowPos
  exact Finset.sum_congr rfl fun j _ => pay9_eq_mpos lab t i hi v5 v7 h5 h7 r j

end Cert.KernelIdeal.Tile
-- ==== Proof.TileLoss.lean ====
/-
  The tile's contribution to the loss numerator.

  For an anchor row r of the tile and a positive candidate b, the kernel lays the row's distances out twice along a
  third axis, once indexed by the negative candidate k and once constant in k, compares them, and masks the result by
  "labels differ": that is the indicator that k is a negative of the anchor lying strictly beyond b. From it come
  the nearest such negative (a minimum over k of masked shifted distances), the test whether there is one at all (their
  count is positive), and otherwise the farthest negative of the anchor (a maximum over the row). The pair's loss is the
  clamped margin, kept only at positive pairs; the tile adds the sum of its 8 x 512 entries to the accumulator.

  Everything is stated for arbitrary blocks P (distances), A (labels differ), M (positives) and a column X (row
  maxima) read off the kernel's vectors entry by entry.
-/
import proofs.«114578_j14851996910158_1_alg».proof.Proof.Gen.KernelIdeal.Skeleton
import proofs.«114578_j14851996910158_1_alg».proof.Proof.LibLayout3
import proofs.«114578_j14851996910158_1_alg».proof.Proof.TileWords

open scoped BigOperators

noncomputable section

namespace Cert.KernelIdeal.Tile

open Idealize.ShloMosaic Idealize.ShloMosaic.ValueIdx Cert.KernelIdeal Cert.KernelIdeal.Gen Cert.LibLayout3

section Entry
variable (P A M : Fin 8 → Fin 512 → EReal) (X : Fin 8 → EReal)

/-- 1 where k is a negative of row r lying strictly farther than b. -/
def eCond (r : Fin 8) (b k : Fin 512) : EReal := Cert.Spec.ind (Ideal.cmp .ogt (P r k) (P r b)) * A r k

/-- Row r's smallest distance. -/
def eAmin (r : Fin 8) : EReal := (Finset.univ : Finset (Fin 512)).fold min Cert.Spec.posInf (fun j => P r j)

/-- Row r's farthest negative. -/
def eInside (r : Fin 8) : EReal :=
  (Finset.univ : Finset (Fin 512)).fold max Cert.Spec.negInf (fun j => (P r j - eAmin P r) * A r j) + eAmin P r

/-- Row r's nearest negative beyond b, measured from the row maximum X r. -/
def eOutside (r : Fin 8) (b : Fin 512) : EReal :=
  (Finset.univ : Finset (Fin 512)).fold min Cert.Spec.posInf (fun k => (P r k - X r) * eCond P A r b k) + X r

/-- The semi-hard negative's distance for the pair (r, b). -/
def eSemi (r : Fin 8) (b : Fin 512) : EReal :=
  if Ideal.cmp .ogt (∑ k : Fin 512, eCond P A r b k) 0 = 1#1 then eOutside P A X r b else eInside P A r

/-- The pair's contribution. -/
def eContrib (r : Fin 8) (b : Fin 512) : EReal := max (((Cert.Spec.one + P r b) - eSemi P A X r b) * M r b) 0

/-- A select on a bit is the if on "the bit is 1". -/
theorem select_eq_ite {α : Type} (c : BitVec 1) (a b : α) : Scalar.select c a b = if c = 1#1 then a else b := rfl

/-- One entry assembled from its three reduced pieces: the beyond-b indicators S, the masked shifted distances T and
    the farthest negative W. -/
theorem entry_assemble (r : Fin 8) (b : Fin 512) (S T : Fin 512 → EReal) (W : EReal)
    (hS : ∀ k, S k = eCond P A r b k) (hT : ∀ k, T k = (P r k - X r) * eCond P A r b k) (hW : W = eInside P A r) :
    max (((FloatOps.ofBits (F := Ideal) .f32 0x3F800000#32 + P r b)
        - Scalar.select (FloatOps.cmpf (F := Ideal) .ogt (∑ k : Fin 512, S k) (FloatOps.ofBits (F := Ideal) .f32 0x00000000#32))
            ((Finset.univ : Finset (Fin 512)).fold min (Ideal.ofBits .f32 0x7F800000#32) (fun k => T k) + X r) W) * M r b)
        (FloatOps.ofBits (F := Ideal) .f32 0x00000000#32)
      = eContrib P A M X r b := by
  have hz : FloatOps.ofBits (F := Ideal) .f32 0x00000000#32 = (0 : EReal) := Ideal.ofBits_zero_f32
  obtain rfl : S = fun k => eCond P A r b k := funext hS
  obtain rfl : T = fun k => (P r k - X r) * eCond P A r b k := funext hT
  subst hW
  rw [hz, select_eq_ite]
  unfold eContrib eSemi eOutside
  rfl

end Entry

/-- The loss accumulator after the tile: what it held plus the sum of the tile's entries. -/
theorem pay12_apply (P A M : Fin 8 → Fin 512 → EReal) (X : Fin 8 → EReal)
    (v28 v33 v38 : FVec Ideal S8x512 .f32) (v40 : FVec Ideal S8x1 .f32) (s : Vec Ideal S1x1 .f32)
    (h28 : ∀ r j, v28 (ix2 r j) = P r j) (h33 : ∀ r j, v33 (ix2 r j) = A r j) (h38 : ∀ r j, v38 (ix2 r j) = M r j)
    (h40 : ∀ r, v40 (ix2 r (0 : Fin 1)) = X r) :
    k0_pay12 (F := Ideal) v28 v33 v38 v40 s (ix2 (0 : Fin 1) (0 : Fin 1))
      = s (ix2 (0 : Fin 1) (0 : Fin 1)) + ∑ r : Fin 8, ∑ b : Fin 512, eContrib P A M X r b := by
  unfold k0_pay12
  refine congrArg (fun z => s (ix2 (0 : Fin 1) (0 : Fin 1)) + z) ?_
  rw [shapeCast_a_a1_apply, sum_a1_first]
  refine Finset.sum_congr rfl fun r _ => ?_
  rw [shapeCast_a_a1_apply, sum_ab_last]
  refine Finset.sum_congr rfl fun b _ => ?_
  rw [maximumf_apply, mulf_apply, subf_apply, addf_apply, select_apply, cmpf_apply, addf_apply, broadcast_apply, broadcast_apply]
  rw [sum_abc_last, min_abc_last, broadcastTo_a1_ab_apply, broadcastTo_a1_ab_apply, shapeCast_self, h28 r b, h38 r b, h40 r]
  refine entry_assemble P A M X r b _ _ _ (fun k => ?_) (fun k => ?_) ?_
  · rw [mulf_apply, sitofp_apply, extui_apply, sitofp_extui_bit, cmpf_apply, broadcastTo_a1c_abc_apply,
      broadcastTo_a1c_abc_apply, broadcastTo_ab1_abc_apply, shapeCast_ac_a1c_apply, shapeCast_ac_a1c_apply,
      shapeCast_ab_ab1_apply, h28, h28, h33]
    rfl
  · rw [mulf_apply, mulf_apply, sitofp_apply, extui_apply, sitofp_extui_bit, cmpf_apply, broadcastTo_a1c_abc_apply,
      broadcastTo_a1c_abc_apply, broadcastTo_a1c_abc_apply, broadcastTo_ab1_abc_apply, shapeCast_ac_a1c_apply,
      shapeCast_ac_a1c_apply, shapeCast_ac_a1c_apply, shapeCast_ab_ab1_apply, subf_apply, broadcastTo_a1_ab_apply,
      h28, h28, h33, h40]
    rfl
  · rw [addf_apply, shapeCast_a_a1_apply, shapeCast_a_a1_apply, max_ab_last, min_ab_last]
    unfold eInside eAmin
    refine congrArg₂ (· + ·) (Finset.fold_congr fun j _ => ?_) (Finset.fold_congr fun j _ => h28 r j)
    rw [mulf_apply, subf_apply, broadcastTo_a1_ab_apply, shapeCast_a_a1_apply, min_ab_last, h28 r j, h33 r j]
    exact congrArg (fun z => (P r j - z) * A r j) (Finset.fold_congr fun j' _ => h28 r j')

end Cert.KernelIdeal.Tile

end
-- ==== Proof.TileDist.lean ====
/-
  The tile's distances at an entry, and each anchor row's largest distance.

  Entry (r, j) of the tile's distance block is the norm of x(8t + r) - x(j) + eps, summed over the 128 coordinates
  after the anchor rows and all the points have been laid side by side along a common coordinate axis, with the
  diagonal entry replaced by zero. The row maximum is the fold of max over the 512 columns from minus infinity.
-/
import proofs.«114578_j14851996910158_1_alg».proof.Proof.TileMasks

open scoped BigOperators

namespace Cert.KernelIdeal.Tile

open Idealize.ShloMosaic Idealize.ShloMosaic.ValueIdx Cert.KernelIdeal Cert.KernelIdeal.Gen Cert.LibLayout3

/-- The distance block at (r, j): zero where the diagonal bit is set, else the root of the sum of squares of the
    shifted coordinate differences between row r of the tile and row j of all the points. -/
theorem pay7_apply (i : grid0.Coords) (v3 : Vec Ideal S8x128 .f32) (v4 : Vec Ideal S512x128 .f32) (r : Fin 8) (j : Fin 512) :
    k0_pay7 (F := Ideal) i v3 v4 (ix2 r j)
      = Scalar.select (k0_pay6 i (ix2 r j)) (0 : EReal)
          (Ideal.sqrt (∑ d : Fin 128, (v3 (ix2 r d) - v4 (ix2 j d) + Cert.Spec.eps) * (v3 (ix2 r d) - v4 (ix2 j d) + Cert.Spec.eps))) := by
  unfold k0_pay7
  show Scalar.select (k0_pay6 i (ix2 r j)) (Ideal.ofBits .f32 0x00000000#32)
      (Ideal.sqrt (multiReduction (F := Ideal) (s := S8x512x128) (φ := .f32) .add [2] S8x512 _ 0x00000000#32 _ _ _ (ix2 r j))) = _
  rw [Ideal.ofBits_zero_f32, sum_abc_last]
  refine congrArg (fun z => Scalar.select (k0_pay6 i (ix2 r j)) (0 : EReal) (Ideal.sqrt z)) (Finset.sum_congr rfl fun d _ => ?_)
  show (broadcastTo S8x512x128 (shapeCast S8x1x128 v3 _) _ (ix3 r j d)
        - broadcastTo S8x512x128 (shapeCast S1x512x128 v4 _) _ (ix3 r j d) + Cert.Spec.eps)
      * (broadcastTo S8x512x128 (shapeCast S8x1x128 v3 _) _ (ix3 r j d)
        - broadcastTo S8x512x128 (shapeCast S1x512x128 v4 _) _ (ix3 r j d) + Cert.Spec.eps) = _
  rw [broadcastTo_a1c_abc_apply, broadcastTo_1bc_abc_apply, shapeCast_ac_a1c_apply, shapeCast_ab_1ab_apply]

/-- The distance block of tile t is the distance matrix on the tile's rows. -/
theorem pay7_eq_pd (x : Cert.Spec.Emb) (t : Fin 64) (i : grid0.Coords) (hi : (i 0).val = t.val)
    (v3 : Vec Ideal S8x128 .f32) (v4 : Vec Ideal S512x128 .f32)
    (h3 : ∀ (r : Fin 8) (d : Fin 128), v3 (ix2 r d) = x (row t r) d)
    (h4 : ∀ (j : Fin 512) (d : Fin 128), v4 (ix2 j d) = x j d) (r : Fin 8) (j : Fin 512) :
    k0_pay7 (F := Ideal) i v3 v4 (ix2 r j) = Cert.Spec.pd x (row t r) j := by
  rw [pay7_apply]
  unfold Cert.Spec.pd Cert.Spec.pdRaw
  simp only [h3, h4]
  by_cases h : row t r = j
  · rw [if_pos h, (pay6_eq_one_iff t i hi r j).mpr h]
    exact select_one _ _
  · have hz : k0_pay6 i (ix2 r j) = 0#1 := eq_zero_of_ne_one (fun e => h ((pay6_eq_one_iff t i hi r j).mp e))
    rw [if_neg h, hz]
    exact select_zero _ _

/-- The column of row maxima at r: the fold of max over the row of the distance block, from minus infinity. -/
theorem pay10_apply (i : grid0.Coords) (v3 : Vec Ideal S8x128 .f32) (v4 : Vec Ideal S512x128 .f32) (r : Fin 8) :
    k0_pay10 (F := Ideal) i v3 v4 (ix2 r (0 : Fin 1))
      = (Finset.univ : Finset (Fin 512)).fold max Cert.Spec.negInf (fun j => k0_pay7 (F := Ideal) i v3 v4 (ix2 r j)) := by
  unfold k0_pay10
  rw [shapeCast_a_a1_apply, max_ab_last]
  rfl

/-- The row maxima of tile t are the largest distances of the tile's anchors. -/
theorem pay10_eq_amax (x : Cert.Spec.Emb) (t : Fin 64) (i : grid0.Coords) (hi : (i 0).val = t.val)
    (v3 : Vec Ideal S8x128 .f32) (v4 : Vec Ideal S512x128 .f32)
    (h3 : ∀ (r : Fin 8) (d : Fin 128), v3 (ix2 r d) = x (row t r) d)
    (h4 : ∀ (j : Fin 512) (d : Fin 128), v4 (ix2 j d) = x j d) (r : Fin 8) :
    k0_pay10 (F := Ideal) i v3 v4 (ix2 r (0 : Fin 1)) = Cert.Spec.amax x (row t r) := by
  rw [pay10_apply]
  unfold Cert.Spec.amax
  exact Finset.fold_congr fun j _ => pay7_eq_pd x t i hi v3 v4 h3 h4 r j

end Cert.KernelIdeal.Tile
-- ==== Proof.TileMain.lean ====
/-
  What one tile adds to the loss numerator, in terms of the specification.

  With the tile's distance block, label mask, positives mask and row maxima identified with the distance matrix, the
  "labels differ" matrix, the positives matrix and the row maxima of the whole problem on rows 8t .. 8t + 7, each entry
  of the tile is the contribution of the pair (8t + r, b), and a row of entries sums to the anchor's row of the numerator.
-/
import proofs.«114578_j14851996910158_1_alg».proof.Proof.TileLoss
import proofs.«114578_j14851996910158_1_alg».proof.Proof.TileDist

open scoped BigOperators

namespace Cert.KernelIdeal.Tile

open Idealize.ShloMosaic Idealize.ShloMosaic.ValueIdx Cert.KernelIdeal Cert.KernelIdeal.Gen Cert.LibLayout3

/-- On the rows of tile t, an entry of the tile is the pair's contribution to the numerator. -/
theorem eContrib_spec (x : Cert.Spec.Emb) (lab : Cert.Spec.Lab) (t : Fin 64) (r : Fin 8) (b : Fin 512) :
    eContrib (fun r j => Cert.Spec.pd x (row t r) j) (fun r j => Cert.Spec.adjn lab (row t r) j)
        (fun r j => Cert.Spec.mpos lab (row t r) j) (fun r => Cert.Spec.amax x (row t r)) r b
      = Cert.Spec.contrib x lab (row t r) b := by
  unfold eContrib eSemi eOutside eInside eAmin eCond
  unfold Cert.Spec.contrib Cert.Spec.semi Cert.Spec.hasOutside Cert.Spec.noutside Cert.Spec.ninside Cert.Spec.cond
    Cert.Spec.amin
  rfl

/-- Tile t adds to the numerator the rows of its eight anchors. -/
theorem tile_loss (x : Cert.Spec.Emb) (lab : Cert.Spec.Lab) (t : Fin 64) (i : grid0.Coords) (hi : (i 0).val = t.val)
    (v3 : Vec Ideal S8x128 .f32) (v4 : Vec Ideal S512x128 .f32) (v5 : Vec Ideal S8x1 .i32) (v7 : Vec Ideal S1x512 .i32)
    (h3 : ∀ (r : Fin 8) (d : Fin 128), v3 (ix2 r d) = x (row t r) d)
    (h4 : ∀ (j : Fin 512) (d : Fin 128), v4 (ix2 j d) = x j d)
    (h5 : ∀ r : Fin 8, v5 (ix2 r (0 : Fin 1)) = lab (row t r))
    (h7 : ∀ j : Fin 512, v7 (ix2 (0 : Fin 1) j) = lab j) (s : Vec Ideal S1x1 .f32) :
    k0_pay12 (F := Ideal) (k0_pay7 (F := Ideal) i v3 v4) (k0_pay8 (F := Ideal) v5 v7) (k0_pay9 (F := Ideal) i v5 v7)
        (k0_pay10 (F := Ideal) i v3 v4) s (ix2 (0 : Fin 1) (0 : Fin 1))
      = s (ix2 (0 : Fin 1) (0 : Fin 1)) + ∑ r : Fin 8, Cert.Spec.rowLoss x lab (row t r) := by
  refine (pay12_apply (fun r j => Cert.Spec.pd x (row t r) j) (fun r j => Cert.Spec.adjn lab (row t r) j)
    (fun r j => Cert.Spec.mpos lab (row t r) j) (fun r => Cert.Spec.amax x (row t r)) _ _ _ _ s
    (fun r j => pay7_eq_pd x t i hi v3 v4 h3 h4 r j) (fun r j => pay8_eq_adjn lab t v5 v7 h5 h7 r j)
    (fun r j => pay9_eq_mpos lab t i hi v5 v7 h5 h7 r j) (fun r => pay10_eq_amax x t i hi v3 v4 h3 h4 r)).trans ?_
  refine congrArg (fun z => s (ix2 (0 : Fin 1) (0 : Fin 1)) + z) (Finset.sum_congr rfl fun r _ => ?_)
  unfold Cert.Spec.rowLoss
  exact Finset.sum_congr rfl fun b _ => eContrib_spec x lab t r b

end Cert.KernelIdeal.Tile
-- ==== Proof.TileSum.lean ====
/-
  Sums over 512 rows taken eight at a time: the 512 rows are 64 tiles of 8, row `8 t + r` being row `r` of tile `t`,
  so a sum over the rows is the sum over the tiles of the sums over each tile's rows.  Also the same for the rows
  below a tile boundary: the first `n` tiles' rows are the rows below `8 n`.
-/
import Mathlib.Algebra.BigOperators.Fin
import Mathlib.Data.Fintype.BigOperators
import Mathlib.Logic.Equiv.Fin.Basic

namespace Cert.TileSum

open scoped BigOperators

/-- Row `r` of tile `t`. -/
abbrev rowOf (t : Fin 64) (r : Fin 8) : Fin 512 := ⟨8 * t.val + r.val, by omega⟩

/-- A sum over the 512 rows, tile by tile. -/
theorem tile_sum {M : Type*} [AddCommMonoid M] (f : Fin 512 → M) :
    ∑ t : Fin 64, ∑ r : Fin 8, f ⟨8 * t.val + r.val, by omega⟩ = ∑ i : Fin 512, f i := by
  have h := Equiv.sum_comp (finProdFinEquiv (m := 64) (n := 8)) (fun i : Fin (64 * 8) => f i)
  rw [Fintype.sum_prod_type] at h
  rw [← h]
  refine Finset.sum_congr rfl fun t _ => Finset.sum_congr rfl fun r _ => ?_
  refine congrArg f (Fin.ext ?_)
  show 8 * t.val + r.val = r.val + 8 * t.val
  omega

/-- The same with the row written `rowOf t r`. -/
theorem tile_sum_rowOf {M : Type*} [AddCommMonoid M] (f : Fin 512 → M) :
    ∑ t : Fin 64, ∑ r : Fin 8, f (rowOf t r) = ∑ i : Fin 512, f i := tile_sum f

/-- The rows of the first `n` tiles are the rows below `8 n`. -/
theorem tile_sum_prefix {M : Type*} [AddCommMonoid M] (g : ℕ → M) (n : ℕ) :
    ∑ t ∈ Finset.range n, ∑ r : Fin 8, g (8 * t + r.val) = ∑ i ∈ Finset.range (8 * n), g i := by
  induction n with
  | zero => simp
  | succ n ih =>
    rw [Finset.sum_range_succ, ih, Nat.mul_succ, Finset.sum_range_add,
      Fin.sum_univ_eq_sum_range (fun r => g (8 * n + r)) 8]

end Cert.TileSum
-- ==== Proof.RefOps.lean ====
/-
  The reference program as data: its 83 host operations as one list, equal to @main, and the function `refOut` of
  the two arguments that the list computes into the result buffer.

  `refOut` is written as a composition of named stages, one per intermediate array that is read more than
  once: the shifted differences, the distance matrix before and after its diagonal is cleared, the diagonal's
  indicator, the two label indicators, the three-index candidate mask, the rows' extreme distances, the two
  candidate negatives, the choice between them, the positives' mask, and the two totals.  Every stage is
  stated at the extended reals.
-/
import proofs.«114578_j14851996910158_1_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The stages -/

/-- The zero word, the unit word and the two infinities as rank-0 arrays. -/
def cZero : FVec Ideal S_ .f32 := constant (F := Ideal) S_ .f32 0x00000000#32
def cOne : FVec Ideal S_ .f32 := constant (F := Ideal) S_ .f32 0x3F800000#32
def cNegInf : FVec Ideal S_ .f32 := constant (F := Ideal) S_ .f32 0xFF800000#32
def cPosInf : FVec Ideal S_ .f32 := constant (F := Ideal) S_ .f32 0x7F800000#32
def cEps : FVec Ideal S_ .f32 := constant (F := Ideal) S_ .f32 0x24E69595#32

/-- `x i d - x j d + ε` at `(i, j, d)`. -/
def sDiff (x : FVec Ideal S512x128 .f32) : FVec Ideal S512x512x128 .f32 :=
  addf (F := Ideal)
    (subf (F := Ideal)
      (broadcastInDim S512x512x128 ![0, 1, 2] bcast_S512x1x128_S512x512x128_0_1_2
        (broadcastInDim S512x1x128 ![0, 2] bcast_S512x128_S512x1x128_0_2 x))
      (broadcastInDim S512x512x128 ![0, 1, 2] bcast_S1x512x128_S512x512x128_0_1_2
        (broadcastInDim S1x512x128 ![1, 2] bcast_S512x128_S1x512x128_1_2 x)))
    (broadcastInDim S512x512x128 ![] bcast_S_S512x512x128 cEps)

/-- The distance before the diagonal is cleared. -/
def sPdRaw (x : FVec Ideal S512x128 .f32) : FVec Ideal S512x512 .f32 :=
  Host.sqrt (F := Ideal)
    (Host.reduceAdd (F := Ideal) (mulf (F := Ideal) (sDiff x) (sDiff x)) cZero reducesTo_S512x512x128_S512x512_d2 h_S_)

/-- The diagonal's indicator. -/
def sEye : FVec Ideal S512x512 .f32 :=
  uitofp (F := Ideal) .f32
    (cmpi .eq (addi (iotaInDim S512x512 32 0) (broadcastInDim S512x512 ![] bcast_S_S512x512 (constantI S_ 32 0#32)))
      (iotaInDim S512x512 32 1))

/-- The distance matrix. -/
def sPd (x : FVec Ideal S512x128 .f32) : FVec Ideal S512x512 .f32 :=
  mulf (F := Ideal) (sPdRaw x)
    (subf (F := Ideal) (broadcastInDim S512x512 ![] bcast_S_S512x512 cOne) sEye)

/-- Whether two rows carry the same label. -/
def sSame (lab : IVec S512 32) : IVec S512x512 1 :=
  cmpi .eq
    (broadcastInDim S512x512 ![0, 1] bcast_S512x1_S512x512_0_1 (broadcastInDim S512x1 ![0] bcast_S512_S512x1_0 lab))
    (broadcastInDim S512x512 ![0, 1] bcast_S1x512_S512x512_0_1 (broadcastInDim S1x512 ![1] bcast_S512_S1x512_1 lab))

/-- 1 where the labels differ; 1 where they agree. -/
def sAdjn (lab : IVec S512 32) : FVec Ideal S512x512 .f32 := uitofp (F := Ideal) .f32 (noti (sSame lab))
def sAdj (lab : IVec S512 32) : FVec Ideal S512x512 .f32 := uitofp (F := Ideal) .f32 (sSame lab)

/-- At `(i, b, k)`: 1 where `k` is a negative of `i` lying strictly farther than `b`. -/
def sCond (x : FVec Ideal S512x128 .f32) (lab : IVec S512 32) : FVec Ideal S512x512x512 .f32 :=
  mulf (F := Ideal)
    (broadcastInDim S512x512x512 ![0, 1, 2] bcast_S512x1x512_S512x512x512_0_1_2
      (broadcastInDim S512x1x512 ![0, 2] bcast_S512x512_S512x1x512_0_2 (sAdjn lab)))
    (uitofp (F := Ideal) .f32
      (cmpf (F := Ideal) .ogt
        (broadcastInDim S512x512x512 ![0, 1, 2] bcast_S512x1x512_S512x512x512_0_1_2
          (broadcastInDim S512x1x512 ![0, 2] bcast_S512x512_S512x1x512_0_2 (sPd x)))
        (broadcastInDim S512x512x512 ![0, 1, 2] bcast_S512x512x1_S512x512x512_0_1_2
          (broadcastInDim S512x512x1 ![0, 1] bcast_S512x512_S512x512x1_0_1 (sPd x)))))

/-- A row's largest and smallest distance, kept as a column. -/
def sAmax (x : FVec Ideal S512x128 .f32) : FVec Ideal S512x1 .f32 :=
  broadcastInDim S512x1 ![0] bcast_S512_S512x1_0
    (Host.reduce (FloatOps.maximumf (F := Ideal) (φ := .f32)) (sPd x) cNegInf reducesTo_S512x512_S512_d1 h_S_)
def sAmin (x : FVec Ideal S512x128 .f32) : FVec Ideal S512x1 .f32 :=
  broadcastInDim S512x1 ![0] bcast_S512_S512x1_0
    (Host.reduce (FloatOps.minimumf (F := Ideal) (φ := .f32)) (sPd x) cPosInf reducesTo_S512x512_S512_d1 h_S_)

/-- The nearest negative beyond the positive. -/
def sNout (x : FVec Ideal S512x128 .f32) (lab : IVec S512 32) : FVec Ideal S512x512 .f32 :=
  addf (F := Ideal)
    (Host.reduce (FloatOps.minimumf (F := Ideal) (φ := .f32))
      (mulf (F := Ideal)
        (broadcastInDim S512x512x512 ![0, 1, 2] bcast_S512x1x512_S512x512x512_0_1_2
          (broadcastInDim S512x1x512 ![0, 2] bcast_S512x512_S512x1x512_0_2
            (subf (F := Ideal) (sPd x) (broadcastInDim S512x512 ![0, 1] bcast_S512x1_S512x512_0_1 (sAmax x)))))
        (sCond x lab))
      cPosInf reducesTo_S512x512x512_S512x512_d2 h_S_)
    (broadcastInDim S512x512 ![0, 1] bcast_S512x1_S512x512_0_1 (sAmax x))

/-- Whether some negative lies beyond the positive. -/
def sMask (x : FVec Ideal S512x128 .f32) (lab : IVec S512 32) : IVec S512x512 1 :=
  cmpf (F := Ideal) .ogt
    (Host.reduceAdd (F := Ideal) (sCond x lab) cZero reducesTo_S512x512x512_S512x512_d2 h_S_)
    (broadcastInDim S512x512 ![] bcast_S_S512x512 cZero)

/-- The farthest negative of the anchor, as a column. -/
def sNin (x : FVec Ideal S512x128 .f32) (lab : IVec S512 32) : FVec Ideal S512x1 .f32 :=
  addf (F := Ideal)
    (broadcastInDim S512x1 ![0] bcast_S512_S512x1_0
      (Host.reduce (FloatOps.maximumf (F := Ideal) (φ := .f32))
        (mulf (F := Ideal)
          (subf (F := Ideal) (sPd x) (broadcastInDim S512x512 ![0, 1] bcast_S512x1_S512x512_0_1 (sAmin x)))
          (sAdjn lab))
        cNegInf reducesTo_S512x512_S512_d1 h_S_))
    (sAmin x)

/-- The semi-hard negative's distance. -/
def sSemi (x : FVec Ideal S512x128 .f32) (lab : IVec S512 32) : FVec Ideal S512x512 .f32 :=
  select (sMask x lab) (sNout x lab) (broadcastInDim S512x512 ![0, 1] bcast_S512x1_S512x512_0_1 (sNin x lab))

/-- 1 at a positive pair. -/
def sMpos (lab : IVec S512 32) : FVec Ideal S512x512 .f32 := subf (F := Ideal) (sAdj lab) sEye

/-- The denominator: the number of positive pairs. -/
def sDen (lab : IVec S512 32) : FVec Ideal S_ .f32 :=
  Host.reduceAdd (F := Ideal) (sMpos lab) cZero reducesTo_S512x512_S_d0_1 h_S_

/-- The numerator: the clipped margins summed over the positive pairs. -/
def sNum (x : FVec Ideal S512x128 .f32) (lab : IVec S512 32) : FVec Ideal S_ .f32 :=
  Host.reduceAdd (F := Ideal)
    (maximumf (F := Ideal)
      (mulf (F := Ideal)
        (subf (F := Ideal) (addf (F := Ideal) (broadcastInDim S512x512 ![] bcast_S_S512x512 cOne) (sPd x)) (sSemi x lab))
        (sMpos lab))
      (broadcastInDim S512x512 ![] bcast_S_S512x512 cZero))
    cZero reducesTo_S512x512_S_d0_1 h_S_

/-- The reference's result as a function of its two arguments. -/
def refOut (x : FVec Ideal S512x128 .f32) (lab : IVec S512 32) : FVec Ideal S_ .f32 :=
  Host.divf (F := Ideal) (sNum x lab) (sDen lab)

/-! ## The run -/

/-- @main's 83 operations, in order (the called function's two operations in the call's place, at the call's buffers). -/
abbrev ops : List (HloOp τ sig (Elt Ideal)) :=
  [
    unary main_arg0 main_v0 (broadcastInDim S512x1x128 ![0, 2] bcast_S512x128_S512x1x128_0_2 : (⟨S512x128, .f32⟩ : BufTy).Contents (Elt Ideal) → (⟨S512x1x128, .f32⟩ : BufTy).Contents (Elt Ideal)),
    unary main_arg0 main_v1 (broadcastInDim S1x512x128 ![1, 2] bcast_S512x128_S1x512x128_1_2 : (⟨S512x128, .f32⟩ : BufTy).Contents (Elt Ideal) → (⟨S1x512x128, .f32⟩ : BufTy).Contents (Elt Ideal)),
    unary main_v0 main_v2 (broadcastInDim S512x512x128 ![0, 1, 2] bcast_S512x1x128_S512x512x128_0_1_2 : (⟨S512x1x128, .f32⟩ : BufTy).Contents (Elt Ideal) → (⟨S512x512x128, .f32⟩ : BufTy).Contents (Elt Ideal)),
    unary main_v1 main_v3 (broadcastInDim S512x512x128 ![0, 1, 2] bcast_S1x512x128_S512x512x128_0_1_2 : (⟨S1x512x128, .f32⟩ : BufTy).Contents (Elt Ideal) → (⟨S512x512x128, .f32⟩ : BufTy).Contents (Elt Ideal)),
    binary main_v2 main_v3 main_v4 (subf (F := Ideal) (φ := .f32) : (⟨S512x512x128, .f32⟩ : BufTy).Contents (Elt Ideal) → (⟨S512x512x128, .f32⟩ : BufTy).Contents (Elt Ideal) → (⟨S512x512x128, .f32⟩ : BufTy).Contents (Elt Ideal)),
    nullary main_cst (constant (F := Ideal) S_ .f32 0x24E69595#32),
    unary main_cst main_v5 (broadcastInDim S512x512x128 ![] bcast_S_S512x512x128 : (⟨S_, .f32⟩ : BufTy).Contents (Elt Ideal) → (⟨S512x512x128, .f32⟩ : BufTy).Contents (Elt Ideal)),
    binary main_v4 main_v5 main_v6 (addf (F := Ideal) (φ := .f32) : (⟨S512x512x128, .f32⟩ : BufTy).Contents (Elt Ideal) → (⟨S512x512x128, .f32⟩ : BufTy).Contents (Elt Ideal) → (⟨S512x512x128, .f32⟩ : BufTy).Contents (Elt Ideal)),
    binary main_v6 main_v6 main_v7 (mulf (F := Ideal) (φ := .f32) : (⟨S512x512x128, .f32⟩ : BufTy).Contents (Elt Ideal) → (⟨S512x512x128, .f32⟩ : BufTy).Contents (Elt Ideal) → (⟨S512x512x128, .f32⟩ : BufTy).Contents (Elt Ideal)),
    nullary main_cst_0 (constant (F := Ideal) S_ .f32 0x00000000#32),
    binary main_v7 main_cst_0 main_v8 ((fun x v => Host.reduceAdd (F := Ideal) (φ := .f32) x v reducesTo_S512x512x128_S512x512_d2 h_S_) : (⟨S512x512x128, .f32⟩ : BufTy).Contents (Elt Ideal) → (⟨S_, .f32⟩ : BufTy).Contents (Elt Ideal) → (⟨S512x512, .f32⟩ : BufTy).Contents (Elt Ideal)),
    unary main_v8 main_v9 (Host.sqrt (F := Ideal) (φ := .f32) : (⟨S512x512, .f32⟩ : BufTy).Contents (Elt Ideal) → (⟨S512x512, .f32⟩ : BufTy).Contents (Elt Ideal)),
    nullary main_v10 (iotaInDim S512x512 32 0),
    nullary main_v11 (iotaInDim S512x512 32 1),
    nullary main_c (constantI S_ 32 0#32),
    unary main_c main_v12 (broadcastInDim S512x512 ![] bcast_S_S512x512 : (⟨S_, .i32⟩ : BufTy).Contents (Elt Ideal) → (⟨S512x512, .i32⟩ : BufTy).Contents (Elt Ideal)),
    binary main_v10 main_v12 main_v13 (addi : (⟨S512x512, .i32⟩ : BufTy).Contents (Elt Ideal) → (⟨S512x512, .i32⟩ : BufTy).Contents (Elt Ideal) → (⟨S512x512, .i32⟩ : BufTy).Contents (Elt Ideal)),
    binary main_v13 main_v11 main_v14 (cmpi .eq : (⟨S512x512, .i32⟩ : BufTy).Contents (Elt Ideal) → (⟨S512x512, .i32⟩ : BufTy).Contents (Elt Ideal) → (⟨S512x512, .i1⟩ : BufTy).Contents (Elt Ideal)),
    unary main_v14 main_v15 (uitofp (F := Ideal) .f32 : (⟨S512x512, .i1⟩ : BufTy).Contents (Elt Ideal) → (⟨S512x512, .f32⟩ : BufTy).Contents (Elt Ideal)),
    nullary main_cst_1 (constant (F := Ideal) S_ .f32 0x3F800000#32),
    unary main_cst_1 main_v16 (broadcastInDim S512x512 ![] bcast_S_S512x512 : (⟨S_, .f32⟩ : BufTy).Contents (Elt Ideal) → (⟨S512x512, .f32⟩ : BufTy).Contents (Elt Ideal)),
    binary main_v16 main_v15 main_v17 (subf (F := Ideal) (φ := .f32) : (⟨S512x512, .f32⟩ : BufTy).Contents (Elt Ideal) → (⟨S512x512, .f32⟩ : BufTy).Contents (Elt Ideal) → (⟨S512x512, .f32⟩ : BufTy).Contents (Elt Ideal)),
    binary main_v9 main_v17 main_v18 (mulf (F := Ideal) (φ := .f32) : (⟨S512x512, .f32⟩ : BufTy).Contents (Elt Ideal) → (⟨S512x512, .f32⟩ : BufTy).Contents (Elt Ideal) → (⟨S512x512, .f32⟩ : BufTy).Contents (Elt Ideal)),
    unary main_arg1 main_v19 (broadcastInDim S512x1 ![0] bcast_S512_S512x1_0 : (⟨S512, .i32⟩ : BufTy).Contents (Elt Ideal) → (⟨S512x1, .i32⟩ : BufTy).Contents (Elt Ideal)),
    unary main_arg1 main_v20 (broadcastInDim S1x512 ![1] bcast_S512_S1x512_1 : (⟨S512, .i32⟩ : BufTy).Contents (Elt Ideal) → (⟨S1x512, .i32⟩ : BufTy).Contents (Elt Ideal)),
    unary main_v19 main_v21 (broadcastInDim S512x512 ![0, 1] bcast_S512x1_S512x512_0_1 : (⟨S512x1, .i32⟩ : BufTy).Contents (Elt Ideal) → (⟨S512x512, .i32⟩ : BufTy).Contents (Elt Ideal)),
    unary main_v20 main_v22 (broadcastInDim S512x512 ![0, 1] bcast_S1x512_S512x512_0_1 : (⟨S1x512, .i32⟩ : BufTy).Contents (Elt Ideal) → (⟨S512x512, .i32⟩ : BufTy).Contents (Elt Ideal)),
    binary main_v21 main_v22 main_v23 (cmpi .eq : (⟨S512x512, .i32⟩ : BufTy).Contents (Elt Ideal) → (⟨S512x512, .i32⟩ : BufTy).Contents (Elt Ideal) → (⟨S512x512, .i1⟩ : BufTy).Contents (Elt Ideal)),
    unary main_v23 main_v24 (noti : (⟨S512x512, .i1⟩ : BufTy).Contents (Elt Ideal) → (⟨S512x512, .i1⟩ : BufTy).Contents (Elt Ideal)),
    unary main_v24 main_v25 (uitofp (F := Ideal) .f32 : (⟨S512x512, .i1⟩ : BufTy).Contents (Elt Ideal) → (⟨S512x512, .f32⟩ : BufTy).Contents (Elt Ideal)),
    unary main_v23 main_v26 (uitofp (F := Ideal) .f32 : (⟨S512x512, .i1⟩ : BufTy).Contents (Elt Ideal) → (⟨S512x512, .f32⟩ : BufTy).Contents (Elt Ideal)),
    unary main_v25 main_v27 (broadcastInDim S512x1x512 ![0, 2] bcast_S512x512_S512x1x512_0_2 : (⟨S512x512, .f32⟩ : BufTy).Contents (Elt Ideal) → (⟨S512x1x512, .f32⟩ : BufTy).Contents (Elt Ideal)),
    unary main_v18 main_v28 (broadcastInDim S512x1x512 ![0, 2] bcast_S512x512_S512x1x512_0_2 : (⟨S512x512, .f32⟩ : BufTy).Contents (Elt Ideal) → (⟨S512x1x512, .f32⟩ : BufTy).Contents (Elt Ideal)),
    unary main_v18 main_v29 (broadcastInDim S512x512x1 ![0, 1] bcast_S512x512_S512x512x1_0_1 : (⟨S512x512, .f32⟩ : BufTy).Contents (Elt Ideal) → (⟨S512x512x1, .f32⟩ : BufTy).Contents (Elt Ideal)),
    unary main_v28 main_v30 (broadcastInDim S512x512x512 ![0, 1, 2] bcast_S512x1x512_S512x512x512_0_1_2 : (⟨S512x1x512, .f32⟩ : BufTy).Contents (Elt Ideal) → (⟨S512x512x512, .f32⟩ : BufTy).Contents (Elt Ideal)),
    unary main_v29 main_v31 (broadcastInDim S512x512x512 ![0, 1, 2] bcast_S512x512x1_S512x512x512_0_1_2 : (⟨S512x512x1, .f32⟩ : BufTy).Contents (Elt Ideal) → (⟨S512x512x512, .f32⟩ : BufTy).Contents (Elt Ideal)),
    binary main_v30 main_v31 main_v32 (cmpf (F := Ideal) (φ := .f32) .ogt : (⟨S512x512x512, .f32⟩ : BufTy).Contents (Elt Ideal) → (⟨S512x512x512, .f32⟩ : BufTy).Contents (Elt Ideal) → (⟨S512x512x512, .i1⟩ : BufTy).Contents (Elt Ideal)),
    unary main_v32 main_v33 (uitofp (F := Ideal) .f32 : (⟨S512x512x512, .i1⟩ : BufTy).Contents (Elt Ideal) → (⟨S512x512x512, .f32⟩ : BufTy).Contents (Elt Ideal)),
    unary main_v27 main_v34 (broadcastInDim S512x512x512 ![0, 1, 2] bcast_S512x1x512_S512x512x512_0_1_2 : (⟨S512x1x512, .f32⟩ : BufTy).Contents (Elt Ideal) → (⟨S512x512x512, .f32⟩ : BufTy).Contents (Elt Ideal)),
    binary main_v34 main_v33 main_v35 (mulf (F := Ideal) (φ := .f32) : (⟨S512x512x512, .f32⟩ : BufTy).Contents (Elt Ideal) → (⟨S512x512x512, .f32⟩ : BufTy).Contents (Elt Ideal) → (⟨S512x512x512, .f32⟩ : BufTy).Contents (Elt Ideal)),
    nullary main_cst_2 (constant (F := Ideal) S_ .f32 0xFF800000#32),
    binary main_v18 main_cst_2 main_v36 ((fun x v => Host.reduce (FloatOps.maximumf (F := Ideal) (φ := .f32)) x v reducesTo_S512x512_S512_d1 h_S_) : (⟨S512x512, .f32⟩ : BufTy).Contents (Elt Ideal) → (⟨S_, .f32⟩ : BufTy).Contents (Elt Ideal) → (⟨S512, .f32⟩ : BufTy).Contents (Elt Ideal)),
    unary main_v36 main_v37 (broadcastInDim S512x1 ![0] bcast_S512_S512x1_0 : (⟨S512, .f32⟩ : BufTy).Contents (Elt Ideal) → (⟨S512x1, .f32⟩ : BufTy).Contents (Elt Ideal)),
    unary main_v37 main_v38 (broadcastInDim S512x512 ![0, 1] bcast_S512x1_S512x512_0_1 : (⟨S512x1, .f32⟩ : BufTy).Contents (Elt Ideal) → (⟨S512x512, .f32⟩ : BufTy).Contents (Elt Ideal)),
    binary main_v18 main_v38 main_v39 (subf (F := Ideal) (φ := .f32) : (⟨S512x512, .f32⟩ : BufTy).Contents (Elt Ideal) → (⟨S512x512, .f32⟩ : BufTy).Contents (Elt Ideal) → (⟨S512x512, .f32⟩ : BufTy).Contents (Elt Ideal)),
    unary main_v39 main_v40 (broadcastInDim S512x1x512 ![0, 2] bcast_S512x512_S512x1x512_0_2 : (⟨S512x512, .f32⟩ : BufTy).Contents (Elt Ideal) → (⟨S512x1x512, .f32⟩ : BufTy).Contents (Elt Ideal)),
    unary main_v40 main_v41 (broadcastInDim S512x512x512 ![0, 1, 2] bcast_S512x1x512_S512x512x512_0_1_2 : (⟨S512x1x512, .f32⟩ : BufTy).Contents (Elt Ideal) → (⟨S512x512x512, .f32⟩ : BufTy).Contents (Elt Ideal)),
    binary main_v41 main_v35 main_v42 (mulf (F := Ideal) (φ := .f32) : (⟨S512x512x512, .f32⟩ : BufTy).Contents (Elt Ideal) → (⟨S512x512x512, .f32⟩ : BufTy).Contents (Elt Ideal) → (⟨S512x512x512, .f32⟩ : BufTy).Contents (Elt Ideal)),
    nullary main_cst_3 (constant (F := Ideal) S_ .f32 0x7F800000#32),
    binary main_v42 main_cst_3 main_v43 ((fun x v => Host.reduce (FloatOps.minimumf (F := Ideal) (φ := .f32)) x v reducesTo_S512x512x512_S512x512_d2 h_S_) : (⟨S512x512x512, .f32⟩ : BufTy).Contents (Elt Ideal) → (⟨S_, .f32⟩ : BufTy).Contents (Elt Ideal) → (⟨S512x512, .f32⟩ : BufTy).Contents (Elt Ideal)),
    unary main_v37 main_v44 (broadcastInDim S512x512 ![0, 1] bcast_S512x1_S512x512_0_1 : (⟨S512x1, .f32⟩ : BufTy).Contents (Elt Ideal) → (⟨S512x512, .f32⟩ : BufTy).Contents (Elt Ideal)),
    binary main_v43 main_v44 main_v45 (addf (F := Ideal) (φ := .f32) : (⟨S512x512, .f32⟩ : BufTy).Contents (Elt Ideal) → (⟨S512x512, .f32⟩ : BufTy).Contents (Elt Ideal) → (⟨S512x512, .f32⟩ : BufTy).Contents (Elt Ideal)),
    nullary main_cst_4 (constant (F := Ideal) S_ .f32 0x00000000#32),
    binary main_v35 main_cst_4 main_v46 ((fun x v => Host.reduceAdd (F := Ideal) (φ := .f32) x v reducesTo_S512x512x512_S512x512_d2 h_S_) : (⟨S512x512x512, .f32⟩ : BufTy).Contents (Elt Ideal) → (⟨S_, .f32⟩ : BufTy).Contents (Elt Ideal) → (⟨S512x512, .f32⟩ : BufTy).Contents (Elt Ideal)),
    nullary main_cst_5 (constant (F := Ideal) S_ .f32 0x00000000#32),
    unary main_cst_5 main_v47 (broadcastInDim S512x512 ![] bcast_S_S512x512 : (⟨S_, .f32⟩ : BufTy).Contents (Elt Ideal) → (⟨S512x512, .f32⟩ : BufTy).Contents (Elt Ideal)),
    binary main_v46 main_v47 main_v48 (cmpf (F := Ideal) (φ := .f32) .ogt : (⟨S512x512, .f32⟩ : BufTy).Contents (Elt Ideal) → (⟨S512x512, .f32⟩ : BufTy).Contents (Elt Ideal) → (⟨S512x512, .i1⟩ : BufTy).Contents (Elt Ideal)),
    nullary main_cst_6 (constant (F := Ideal) S_ .f32 0x7F800000#32),
    binary main_v18 main_cst_6 main_v49 ((fun x v => Host.reduce (FloatOps.minimumf (F := Ideal) (φ := .f32)) x v reducesTo_S512x512_S512_d1 h_S_) : (⟨S512x512, .f32⟩ : BufTy).Contents (Elt Ideal) → (⟨S_, .f32⟩ : BufTy).Contents (Elt Ideal) → (⟨S512, .f32⟩ : BufTy).Contents (Elt Ideal)),
    unary main_v49 main_v50 (broadcastInDim S512x1 ![0] bcast_S512_S512x1_0 : (⟨S512, .f32⟩ : BufTy).Contents (Elt Ideal) → (⟨S512x1, .f32⟩ : BufTy).Contents (Elt Ideal)),
    unary main_v50 main_v51 (broadcastInDim S512x512 ![0, 1] bcast_S512x1_S512x512_0_1 : (⟨S512x1, .f32⟩ : BufTy).Contents (Elt Ideal) → (⟨S512x512, .f32⟩ : BufTy).Contents (Elt Ideal)),
    binary main_v18 main_v51 main_v52 (subf (F := Ideal) (φ := .f32) : (⟨S512x512, .f32⟩ : BufTy).Contents (Elt Ideal) → (⟨S512x512, .f32⟩ : BufTy).Contents (Elt Ideal) → (⟨S512x512, .f32⟩ : BufTy).Contents (Elt Ideal)),
    binary main_v52 main_v25 main_v53 (mulf (F := Ideal) (φ := .f32) : (⟨S512x512, .f32⟩ : BufTy).Contents (Elt Ideal) → (⟨S512x512, .f32⟩ : BufTy).Contents (Elt Ideal) → (⟨S512x512, .f32⟩ : BufTy).Contents (Elt Ideal)),
    nullary main_cst_7 (constant (F := Ideal) S_ .f32 0xFF800000#32),
    binary main_v53 main_cst_7 main_v54 ((fun x v => Host.reduce (FloatOps.maximumf (F := Ideal) (φ := .f32)) x v reducesTo_S512x512_S512_d1 h_S_) : (⟨S512x512, .f32⟩ : BufTy).Contents (Elt Ideal) → (⟨S_, .f32⟩ : BufTy).Contents (Elt Ideal) → (⟨S512, .f32⟩ : BufTy).Contents (Elt Ideal)),
    unary main_v54 main_v55 (broadcastInDim S512x1 ![0] bcast_S512_S512x1_0 : (⟨S512, .f32⟩ : BufTy).Contents (Elt Ideal) → (⟨S512x1, .f32⟩ : BufTy).Contents (Elt Ideal)),
    binary main_v55 main_v50 main_v56 (addf (F := Ideal) (φ := .f32) : (⟨S512x1, .f32⟩ : BufTy).Contents (Elt Ideal) → (⟨S512x1, .f32⟩ : BufTy).Contents (Elt Ideal) → (⟨S512x1, .f32⟩ : BufTy).Contents (Elt Ideal)),
    unary main_v56 main_call0_v0 (broadcastInDim S512x512 ![0, 1] bcast_S512x1_S512x512_0_1 : (⟨S512x1, .f32⟩ : BufTy).Contents (Elt Ideal) → (⟨S512x512, .f32⟩ : BufTy).Contents (Elt Ideal)),
    ternary main_v48 main_v45 main_call0_v0 main_v57 (select : (⟨S512x512, .i1⟩ : BufTy).Contents (Elt Ideal) → (⟨S512x512, .f32⟩ : BufTy).Contents (Elt Ideal) → (⟨S512x512, .f32⟩ : BufTy).Contents (Elt Ideal) → (⟨S512x512, .f32⟩ : BufTy).Contents (Elt Ideal)),
    nullary main_cst_8 (constant (F := Ideal) S_ .f32 0x3F800000#32),
    unary main_cst_8 main_v58 (broadcastInDim S512x512 ![] bcast_S_S512x512 : (⟨S_, .f32⟩ : BufTy).Contents (Elt Ideal) → (⟨S512x512, .f32⟩ : BufTy).Contents (Elt Ideal)),
    binary main_v58 main_v18 main_v59 (addf (F := Ideal) (φ := .f32) : (⟨S512x512, .f32⟩ : BufTy).Contents (Elt Ideal) → (⟨S512x512, .f32⟩ : BufTy).Contents (Elt Ideal) → (⟨S512x512, .f32⟩ : BufTy).Contents (Elt Ideal)),
    binary main_v59 main_v57 main_v60 (subf (F := Ideal) (φ := .f32) : (⟨S512x512, .f32⟩ : BufTy).Contents (Elt Ideal) → (⟨S512x512, .f32⟩ : BufTy).Contents (Elt Ideal) → (⟨S512x512, .f32⟩ : BufTy).Contents (Elt Ideal)),
    binary main_v26 main_v15 main_v61 (subf (F := Ideal) (φ := .f32) : (⟨S512x512, .f32⟩ : BufTy).Contents (Elt Ideal) → (⟨S512x512, .f32⟩ : BufTy).Contents (Elt Ideal) → (⟨S512x512, .f32⟩ : BufTy).Contents (Elt Ideal)),
    nullary main_cst_9 (constant (F := Ideal) S_ .f32 0x00000000#32),
    binary main_v61 main_cst_9 main_v62 ((fun x v => Host.reduceAdd (F := Ideal) (φ := .f32) x v reducesTo_S512x512_S_d0_1 h_S_) : (⟨S512x512, .f32⟩ : BufTy).Contents (Elt Ideal) → (⟨S_, .f32⟩ : BufTy).Contents (Elt Ideal) → (⟨S_, .f32⟩ : BufTy).Contents (Elt Ideal)),
    binary main_v60 main_v61 main_v63 (mulf (F := Ideal) (φ := .f32) : (⟨S512x512, .f32⟩ : BufTy).Contents (Elt Ideal) → (⟨S512x512, .f32⟩ : BufTy).Contents (Elt Ideal) → (⟨S512x512, .f32⟩ : BufTy).Contents (Elt Ideal)),
    nullary main_cst_10 (constant (F := Ideal) S_ .f32 0x00000000#32),
    unary main_cst_10 main_v64 (broadcastInDim S512x512 ![] bcast_S_S512x512 : (⟨S_, .f32⟩ : BufTy).Contents (Elt Ideal) → (⟨S512x512, .f32⟩ : BufTy).Contents (Elt Ideal)),
    binary main_v63 main_v64 main_v65 (maximumf (F := Ideal) (φ := .f32) : (⟨S512x512, .f32⟩ : BufTy).Contents (Elt Ideal) → (⟨S512x512, .f32⟩ : BufTy).Contents (Elt Ideal) → (⟨S512x512, .f32⟩ : BufTy).Contents (Elt Ideal)),
    nullary main_cst_11 (constant (F := Ideal) S_ .f32 0x00000000#32),
    binary main_v65 main_cst_11 main_v66 ((fun x v => Host.reduceAdd (F := Ideal) (φ := .f32) x v reducesTo_S512x512_S_d0_1 h_S_) : (⟨S512x512, .f32⟩ : BufTy).Contents (Elt Ideal) → (⟨S_, .f32⟩ : BufTy).Contents (Elt Ideal) → (⟨S_, .f32⟩ : BufTy).Contents (Elt Ideal)),
    binary main_v66 main_v62 main_v67 (Host.divf (F := Ideal) (φ := .f32) : (⟨S_, .f32⟩ : BufTy).Contents (Elt Ideal) → (⟨S_, .f32⟩ : BufTy).Contents (Elt Ideal) → (⟨S_, .f32⟩ : BufTy).Contents (Elt Ideal)) ]

set_option maxRecDepth 16384 in
set_option maxHeartbeats 4000000 in
theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig :=
  ⟨unary_bufs_sub .., unary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., unary_bufs_sub .., unary_bufs_sub .., binary_bufs_sub .., unary_bufs_sub .., unary_bufs_sub .., binary_bufs_sub .., nullary_bufs_sub .., binary_bufs_sub .., unary_bufs_sub .., unary_bufs_sub .., binary_bufs_sub .., unary_bufs_sub .., unary_bufs_sub .., binary_bufs_sub .., nullary_bufs_sub .., binary_bufs_sub .., unary_bufs_sub .., binary_bufs_sub .., nullary_bufs_sub .., binary_bufs_sub .., nullary_bufs_sub .., unary_bufs_sub .., binary_bufs_sub .., nullary_bufs_sub .., binary_bufs_sub .., unary_bufs_sub .., unary_bufs_sub .., binary_bufs_sub .., binary_bufs_sub .., nullary_bufs_sub .., binary_bufs_sub .., unary_bufs_sub .., binary_bufs_sub .., unary_bufs_sub .., ternary_bufs_sub .., nullary_bufs_sub .., unary_bufs_sub .., binary_bufs_sub .., binary_bufs_sub .., binary_bufs_sub .., nullary_bufs_sub .., binary_bufs_sub .., binary_bufs_sub .., nullary_bufs_sub .., unary_bufs_sub .., binary_bufs_sub .., nullary_bufs_sub .., binary_bufs_sub .., binary_bufs_sub ..⟩

end Cert.ReferenceIdeal.RefValue

end
-- ==== Proof.RefRun.lean ====
/-
  The reference program's run, read back: every weakly fair execution of its 83 host operations terminates with
  the result buffer at `refOut` of the two arguments' launch contents, and the arguments unchanged.
-/
import proofs.«114578_j14851996910158_1_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxHeartbeats 8000000 in
set_option maxRecDepth 16384 in
/-- What the 83 operations leave in the result buffer, from any contents: `refOut` of the two arguments' contents. -/
theorem after_result (V : Valuation τ sig (Elt Ideal)) :
    after ops V (Proc.devRef .tc main_v67) = refOut (V (Proc.devRef .tc main_arg0)) (V (Proc.devRef .tc main_arg1)) := by
  after_results_simp
  delta refOut sNum sDen sSemi sNin sMask sNout sAmin sAmax sCond sMpos sAdj sAdjn sSame sPd sEye sPdRaw sDiff cZero cOne cNegInf cPosInf cEps
  with_reducible rfl

set_option maxHeartbeats 8000000 in
set_option maxRecDepth 16384 in
theorem after_arg0 (V : Valuation τ sig (Elt Ideal)) :
    after ops V (Proc.devRef .tc main_arg0) = V (Proc.devRef .tc main_arg0) := by
  after_results_simp

set_option maxHeartbeats 8000000 in
set_option maxRecDepth 16384 in
theorem after_arg1 (V : Valuation τ sig (Elt Ideal)) :
    after ops V (Proc.devRef .tc main_arg1) = V (Proc.devRef .tc main_arg1) := by
  after_results_simp

/-- On every device, from any memory with zero counters: every weakly fair execution of @main terminates with the
    result buffer at `refOut` of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v67).trans (after_result _),
      (h c main_arg0).trans (after_arg0 _),
      (h c main_arg1).trans (after_arg1 _)⟩)
    (run_seq scopedRefs_eq scopedSems_eq defs main (fun _ => ops) main_eq (fun _ => ops_sub) m ρ)

/-- The frame alone: every weakly fair execution terminates and leaves the two arguments as they were. -/
theorem frame (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => (h c).2) (run m ρ)

end Cert.ReferenceIdeal.RefValue

end
-- ==== Proof.RefIsSpec.lean ====
/-
  The reference's result is the specification's loss.

  Each stage of `refOut` is read at an index written by its coordinates and identified with the specification's
  function of the same name: broadcasts read the coordinate they keep, a sum over one axis is the seed plus the
  sum over that axis's coordinates, a maximum or minimum over one axis is the fold of `max` / `min` from the seed
  over them, and a sum over both axes is the double sum.  Two spellings differ from the specification's and are
  reconciled here: the diagonal of the distance matrix is cleared by multiplying with `1 - [i = j]` (for every
  extended real `a`, `a * 0 = 0` and `a * 1 = a`), and the indicator of equal labels is read off the comparison
  itself, where the specification writes `1 - [labels differ]`.
-/
import proofs.«114578_j14851996910158_1_alg».proof.Proof.RefOps
import proofs.«114578_j14851996910158_1_alg».proof.Proof.Spec
import Idealize.ShloMosaic.Lib.IdealHost
import Idealize.ShloMosaic.Lib.Pipeline.Value
import Idealize.ShloMosaic.Lib.ValueIdxCoords

noncomputable section

namespace Cert.ReferenceIdeal.RefValue

open Cert.ReferenceIdeal Cert.ReferenceIdeal.Gen Idealize.ShloMosaic Idealize.ShloMosaic.ValueIdx
open scoped BigOperators

/-- The two arguments by coordinates. -/
abbrev embOf (x : FVec Ideal S512x128 .f32) : Cert.Spec.Emb := fun i d => x (ix2 i d)
abbrev labOf (lab : IVec S512 32) : Cert.Spec.Lab := fun i => lab (ix1 i)

/-! ## Broadcasts at an index -/

section Broadcasts
variable {α : Type}

theorem bc_row3 (x : S512x128.Idx → α) (i j : Fin 512) (d : Fin 128) :
    broadcastInDim S512x512x128 ![0, 1, 2] bcast_S512x1x128_S512x512x128_0_1_2
      (broadcastInDim S512x1x128 ![0, 2] bcast_S512x128_S512x1x128_0_2 x) (ix3 i j d) = x (ix2 i d) := by
  rw [broadcastInDim_apply _ _ _ _ (ix3 i (0 : Fin 1) d) (by intro a; fin_cases a <;> rfl),
    broadcastInDim_apply _ _ _ _ (ix2 i d) (by intro a; fin_cases a <;> rfl)]

theorem bc_col3 (x : S512x128.Idx → α) (i j : Fin 512) (d : Fin 128) :
    broadcastInDim S512x512x128 ![0, 1, 2] bcast_S1x512x128_S512x512x128_0_1_2
      (broadcastInDim S1x512x128 ![1, 2] bcast_S512x128_S1x512x128_1_2 x) (ix3 i j d) = x (ix2 j d) := by
  rw [broadcastInDim_apply _ _ _ _ (ix3 (0 : Fin 1) j d) (by intro a; fin_cases a <;> rfl),
    broadcastInDim_apply _ _ _ _ (ix2 j d) (by intro a; fin_cases a <;> rfl)]

theorem bc_lab_row (x : S512.Idx → α) (i j : Fin 512) :
    broadcastInDim S512x512 ![0, 1] bcast_S512x1_S512x512_0_1
      (broadcastInDim S512x1 ![0] bcast_S512_S512x1_0 x) (ix2 i j) = x (ix1 i) := by
  rw [broadcastInDim_apply _ _ _ _ (ix2 i (0 : Fin 1)) (by intro a; fin_cases a <;> rfl),
    broadcastInDim_apply _ _ _ _ (ix1 i) (by intro a; fin_cases a <;> rfl)]

theorem bc_lab_col (x : S512.Idx → α) (i j : Fin 512) :
    broadcastInDim S512x512 ![0, 1] bcast_S1x512_S512x512_0_1
      (broadcastInDim S1x512 ![1] bcast_S512_S1x512_1 x) (ix2 i j) = x (ix1 j) := by
  rw [broadcastInDim_apply _ _ _ _ (ix2 (0 : Fin 1) j) (by intro a; fin_cases a <;> rfl),
    broadcastInDim_apply _ _ _ _ (ix1 j) (by intro a; fin_cases a <;> rfl)]

/-- A column broadcast along the rows. -/
theorem bc_colvec (x : S512x1.Idx → α) (i j : Fin 512) :
    broadcastInDim S512x512 ![0, 1] bcast_S512x1_S512x512_0_1 x (ix2 i j) = x (ix2 i (0 : Fin 1)) := by
  rw [broadcastInDim_apply _ _ _ _ (ix2 i (0 : Fin 1)) (by intro a; fin_cases a <;> rfl)]

/-- A vector as a column. -/
theorem bc_tocol (x : S512.Idx → α) (i : Fin 512) (u : Fin 1) :
    broadcastInDim S512x1 ![0] bcast_S512_S512x1_0 x (ix2 i u) = x (ix1 i) := by
  rw [broadcastInDim_apply _ _ _ _ (ix1 i) (by intro a; fin_cases a <;> rfl)]

/-- A matrix `(i, k)` repeated over a middle axis. -/
theorem bc_ik (x : S512x512.Idx → α) (i b k : Fin 512) :
    broadcastInDim S512x512x512 ![0, 1, 2] bcast_S512x1x512_S512x512x512_0_1_2
      (broadcastInDim S512x1x512 ![0, 2] bcast_S512x512_S512x1x512_0_2 x) (ix3 i b k) = x (ix2 i k) := by
  rw [broadcastInDim_apply _ _ _ _ (ix3 i (0 : Fin 1) k) (by intro a; fin_cases a <;> rfl),
    broadcastInDim_apply _ _ _ _ (ix2 i k) (by intro a; fin_cases a <;> rfl)]

/-- A matrix `(i, b)` repeated over a last axis. -/
theorem bc_ib (x : S512x512.Idx → α) (i b k : Fin 512) :
    broadcastInDim S512x512x512 ![0, 1, 2] bcast_S512x512x1_S512x512x512_0_1_2
      (broadcastInDim S512x512x1 ![0, 1] bcast_S512x512_S512x512x1_0_1 x) (ix3 i b k) = x (ix2 i b) := by
  rw [broadcastInDim_apply _ _ _ _ (ix3 i b (0 : Fin 1)) (by intro a; fin_cases a <;> rfl),
    broadcastInDim_apply _ _ _ _ (ix2 i b) (by intro a; fin_cases a <;> rfl)]

end Broadcasts

/-! ## The reduced axis's coordinate put back -/

theorem red_d : S512x512x128.Reduces [2] S512x512 := by decide
theorem red_j : S512x512.Reduces [1] S512 := by decide
theorem red_k : S512x512x512.Reduces [2] S512x512 := by decide

theorem lift_d (i j : Fin 512) (d : Fin 128) : red_d.lift (ix2 i j) d = ix3 i j d := by
  funext c; fin_cases c <;> rfl
theorem lift_j (i : Fin 512) (j : Fin 512) : red_j.lift (ix1 i) j = ix2 i j := by
  funext c; fin_cases c <;> rfl
theorem lift_k (i b : Fin 512) (k : Fin 512) : red_k.lift (ix2 i b) k = ix3 i b k := by
  funext c; fin_cases c <;> rfl

/-! ## The constants -/

theorem cZero_apply (j : S_.Idx) : cZero j = 0 := Ideal.ofBits_zero_f32
theorem cOne_apply (j : S_.Idx) : cOne j = Cert.Spec.one := rfl
theorem cEps_apply (j : S_.Idx) : cEps j = Cert.Spec.eps := rfl
theorem cNegInf_apply (j : S_.Idx) : cNegInf j = Cert.Spec.negInf := rfl
theorem cPosInf_apply (j : S_.Idx) : cPosInf j = Cert.Spec.posInf := rfl
theorem one_eq : Cert.Spec.one = 1 := Ideal.ofBits_one_f32

theorem ind_one : Cert.Spec.ind 1#1 = 1 := by unfold Cert.Spec.ind; norm_num
theorem ind_zero : Cert.Spec.ind 0#1 = 0 := by unfold Cert.Spec.ind; norm_num

/-! ## Pointwise operations at an index -/

theorem cmpi_apply {s : Shape} {w : Nat} (p : CmpIPredicate) (a b : IVec s w) (i : s.Idx) :
    cmpi p a b i = IntOp.cmpi p (a i) (b i) := rfl
theorem addi_apply {s : Shape} {w : Nat} (a b : IVec s w) (i : s.Idx) : addi a b i = IntOp.addi (a i) (b i) := rfl
theorem noti_apply {s : Shape} {w : Nat} (a : IVec s w) (i : s.Idx) : noti a i = ~~~(a i) := rfl
theorem uitofp_apply {s : Shape} {w : Nat} (a : IVec s w) (i : s.Idx) :
    uitofp (F := Ideal) .f32 a i = (((a i).toNat : ℝ) : EReal) := rfl
theorem hostSqrt_apply {s : Shape} (a : FVec Ideal s .f32) (i : s.Idx) : Host.sqrt (F := Ideal) a i = Ideal.sqrt (a i) := rfl

theorem one_sub_one : (1 : EReal) - 1 = 0 := by
  rw [← EReal.coe_one, ← EReal.coe_sub]; norm_num

/-! ## The reductions over one axis, by that axis's coordinate -/

theorem sum_d (f : FVec Ideal S512x512x128 .f32) (i j : Fin 512) :
    Host.reduceAdd (F := Ideal) f cZero reducesTo_S512x512x128_S512x512_d2 h_S_ (ix2 i j)
      = ∑ d : Fin 128, f (ix3 i j d) := by
  rw [hostReduceAdd_apply, Ideal.hostReduceAdd_single _ red_d, cZero_apply, zero_add]
  exact Finset.sum_congr rfl fun d _ => congrArg f (lift_d i j d)

theorem sum_k (f : FVec Ideal S512x512x512 .f32) (i b : Fin 512) :
    Host.reduceAdd (F := Ideal) f cZero reducesTo_S512x512x512_S512x512_d2 h_S_ (ix2 i b)
      = ∑ k : Fin 512, f (ix3 i b k) := by
  rw [hostReduceAdd_apply, Ideal.hostReduceAdd_single _ red_k, cZero_apply, zero_add]
  exact Finset.sum_congr rfl fun k _ => congrArg f (lift_k i b k)

theorem fold_j (op : EReal → EReal → EReal) [Std.Commutative op] [Std.Associative op]
    (f : S512x512.Idx → EReal) (init : S_.Idx → EReal) (i : Fin 512) :
    Host.reduce op f init reducesTo_S512x512_S512_d1 h_S_ (ix1 i)
      = (Finset.univ : Finset (Fin 512)).fold op (init (Shape.Idx.first h_S_)) (fun j => f (ix2 i j)) := by
  rw [Host.reduce_eq_fold_single _ _ _ _ red_j]
  exact Finset.fold_congr fun j _ => congrArg f (lift_j i j)

theorem fold_k (op : EReal → EReal → EReal) [Std.Commutative op] [Std.Associative op]
    (f : S512x512x512.Idx → EReal) (init : S_.Idx → EReal) (i b : Fin 512) :
    Host.reduce op f init reducesTo_S512x512x512_S512x512_d2 h_S_ (ix2 i b)
      = (Finset.univ : Finset (Fin 512)).fold op (init (Shape.Idx.first h_S_)) (fun k => f (ix3 i b k)) := by
  rw [Host.reduce_eq_fold_single _ _ _ _ red_k]
  exact Finset.fold_congr fun k _ => congrArg f (lift_k i b k)

theorem bc_cOne (j : S512x512.Idx) : broadcastInDim S512x512 ![] bcast_S_S512x512 cOne j = Cert.Spec.one := by
  rw [broadcastInDim_scalar_apply, cOne_apply]
theorem bc_cZero (j : S512x512.Idx) : broadcastInDim S512x512 ![] bcast_S_S512x512 cZero j = 0 := by
  rw [broadcastInDim_scalar_apply, cZero_apply]

/-! ## The stages at an index -/

section Stages
variable (x : FVec Ideal S512x128 .f32) (lab : IVec S512 32)

theorem sDiff_apply (i j : Fin 512) (d : Fin 128) :
    sDiff x (ix3 i j d) = embOf x i d - embOf x j d + Cert.Spec.eps := by
  unfold sDiff
  rw [addf_apply, subf_apply, bc_row3, bc_col3, broadcastInDim_scalar_apply, cEps_apply]

theorem sPdRaw_apply (i j : Fin 512) : sPdRaw x (ix2 i j) = Cert.Spec.pdRaw (embOf x) i j := by
  unfold sPdRaw Cert.Spec.pdRaw
  rw [hostSqrt_apply, sum_d]
  congr 1
  refine Finset.sum_congr rfl fun d _ => ?_
  rw [mulf_apply, sDiff_apply]

/-- Two row numbers below 512 are equal as 32-bit words exactly when they are equal. -/
theorem ofNat_eq_iff (i j : Fin 512) : BitVec.ofNat 32 i.val = BitVec.ofNat 32 j.val ↔ i = j := by
  constructor
  · intro h
    have e := congrArg BitVec.toNat h
    rw [BitVec.toNat_ofNat, BitVec.toNat_ofNat, Nat.mod_eq_of_lt (by have := i.isLt; omega),
      Nat.mod_eq_of_lt (by have := j.isLt; omega)] at e
    exact Fin.ext e
  · rintro rfl; rfl

theorem sEye_apply (i j : Fin 512) : sEye (ix2 i j) = Cert.Spec.eye i j := by
  unfold sEye Cert.Spec.eye
  rw [uitofp_apply, cmpi_apply, addi_apply, broadcastInDim_scalar_apply, iotaInDim_apply, iotaInDim_apply]
  show (((IntOp.cmpi .eq (IntOp.addi (BitVec.ofNat 32 i.val) 0#32) (BitVec.ofNat 32 j.val)).toNat : ℝ) : EReal) = _
  unfold IntOp.cmpi IntOp.addi
  rw [BitVec.add_zero]
  by_cases h : i = j
  · rw [if_pos h, h]
    simp
  · rw [if_neg h]
    have hne : ¬ BitVec.ofNat 32 i.val = BitVec.ofNat 32 j.val := fun e => h ((ofNat_eq_iff i j).1 e)
    simp [hne]

theorem sPd_apply (i j : Fin 512) : sPd x (ix2 i j) = Cert.Spec.pd (embOf x) i j := by
  unfold sPd Cert.Spec.pd
  rw [mulf_apply, subf_apply, broadcastInDim_scalar_apply, cOne_apply, sPdRaw_apply, sEye_apply, one_eq]
  unfold Cert.Spec.eye
  by_cases h : i = j
  · rw [if_pos h, if_pos h, one_sub_one, mul_zero]
  · rw [if_neg h, if_neg h, sub_zero, mul_one]

theorem sSame_apply (i j : Fin 512) : sSame lab (ix2 i j) = BitVec.ofBool (labOf lab i == labOf lab j) := by
  unfold sSame
  rw [cmpi_apply, bc_lab_row, bc_lab_col]
  rfl

theorem sAdjn_apply (i j : Fin 512) : sAdjn lab (ix2 i j) = Cert.Spec.adjn (labOf lab) i j := by
  unfold sAdjn Cert.Spec.adjn
  rw [uitofp_apply, noti_apply, sSame_apply]
  by_cases h : labOf lab i = labOf lab j
  · have hb : (labOf lab i == labOf lab j) = true := by simpa using h
    rw [hb, if_neg (not_not.mpr h)]
    simp
  · have hb : (labOf lab i == labOf lab j) = false := by simpa using h
    rw [hb, if_pos h]
    simp

theorem sAdj_apply (i j : Fin 512) : sAdj lab (ix2 i j) = Cert.Spec.one - Cert.Spec.adjn (labOf lab) i j := by
  unfold sAdj Cert.Spec.adjn
  rw [uitofp_apply, sSame_apply, one_eq]
  by_cases h : labOf lab i = labOf lab j
  · have hb : (labOf lab i == labOf lab j) = true := by simpa using h
    rw [hb, if_neg (not_not.mpr h), sub_zero]
    simp
  · have hb : (labOf lab i == labOf lab j) = false := by simpa using h
    rw [hb, if_pos h, one_sub_one]
    simp

theorem sMpos_apply (i j : Fin 512) : sMpos lab (ix2 i j) = Cert.Spec.mpos (labOf lab) i j := by
  unfold sMpos Cert.Spec.mpos
  rw [subf_apply, sAdj_apply, sEye_apply]

theorem sCond_apply (i b k : Fin 512) :
    sCond x lab (ix3 i b k) = Cert.Spec.cond (embOf x) (labOf lab) i b k := by
  unfold sCond Cert.Spec.cond
  rw [mulf_apply, bc_ik, uitofp_apply, cmpf_apply, bc_ik, bc_ib, sAdjn_apply, sPd_apply, sPd_apply,
    mul_comm (Cert.Spec.adjn _ _ _)]
  rfl

theorem sAmax_apply (i : Fin 512) (u : Fin 1) : sAmax x (ix2 i u) = Cert.Spec.amax (embOf x) i := by
  unfold sAmax Cert.Spec.amax
  rw [bc_tocol, fold_j, cNegInf_apply]
  refine Finset.fold_congr fun j _ => ?_
  rw [sPd_apply]

theorem sAmin_apply (i : Fin 512) (u : Fin 1) : sAmin x (ix2 i u) = Cert.Spec.amin (embOf x) i := by
  unfold sAmin Cert.Spec.amin
  rw [bc_tocol, fold_j, cPosInf_apply]
  refine Finset.fold_congr fun j _ => ?_
  rw [sPd_apply]

theorem sNout_apply (i b : Fin 512) :
    sNout x lab (ix2 i b) = Cert.Spec.noutside (embOf x) (labOf lab) i b := by
  unfold sNout Cert.Spec.noutside
  rw [addf_apply, bc_colvec, sAmax_apply, fold_k, cPosInf_apply]
  congr 1
  refine Finset.fold_congr fun k _ => ?_
  rw [mulf_apply, bc_ik, subf_apply, bc_colvec, sPd_apply, sAmax_apply, sCond_apply]

theorem sMask_apply (i b : Fin 512) :
    sMask x lab (ix2 i b) = Cert.Spec.hasOutside (embOf x) (labOf lab) i b := by
  unfold sMask Cert.Spec.hasOutside
  rw [cmpf_apply, sum_k, bc_cZero]
  show Ideal.cmp .ogt _ _ = Ideal.cmp .ogt _ _
  congr 1
  refine Finset.sum_congr rfl fun k _ => ?_
  rw [sCond_apply]

theorem sNin_apply (i : Fin 512) (u : Fin 1) :
    sNin x lab (ix2 i u) = Cert.Spec.ninside (embOf x) (labOf lab) i := by
  unfold sNin Cert.Spec.ninside
  rw [addf_apply, bc_tocol, sAmin_apply, fold_j, cNegInf_apply]
  congr 1
  refine Finset.fold_congr fun j _ => ?_
  rw [mulf_apply, subf_apply, bc_colvec, sPd_apply, sAmin_apply, sAdjn_apply]

theorem sSemi_apply (i b : Fin 512) :
    sSemi x lab (ix2 i b) = Cert.Spec.semi (embOf x) (labOf lab) i b := by
  unfold sSemi Cert.Spec.semi
  rw [select_apply, sMask_apply, sNout_apply, bc_colvec, sNin_apply]
  rfl

theorem sDen_apply (j : S_.Idx) : sDen lab j = ∑ i : Fin 512, Cert.Spec.rowPos (labOf lab) i := by
  unfold sDen Cert.Spec.rowPos
  rw [hostReduceAdd_apply, Ideal.hostReduceAdd_total _ (fun b => b.elim0), cZero_apply, zero_add, sum_idx2]
  refine Finset.sum_congr rfl fun i _ => Finset.sum_congr rfl fun b _ => ?_
  rw [sMpos_apply]

theorem sNum_apply (j : S_.Idx) :
    sNum x lab j = ∑ i : Fin 512, Cert.Spec.rowLoss (embOf x) (labOf lab) i := by
  unfold sNum Cert.Spec.rowLoss
  rw [hostReduceAdd_apply, Ideal.hostReduceAdd_total _ (fun b => b.elim0), cZero_apply, zero_add, sum_idx2]
  refine Finset.sum_congr rfl fun i _ => Finset.sum_congr rfl fun b _ => ?_
  unfold Cert.Spec.contrib
  rw [maximumf_apply, mulf_apply, subf_apply, addf_apply, bc_cOne, bc_cZero, sPd_apply, sSemi_apply, sMpos_apply]

/-- The reference's result is the specification's loss of the two arguments read by coordinates. -/
theorem refOut_eq :
    refOut x lab = fun _ => Cert.Spec.loss (fun i d => x (ix2 i d)) (fun i => lab (ix1 i)) := by
  funext j
  unfold refOut Cert.Spec.loss
  rw [hostDivf_apply, sNum_apply, sDen_apply]

end Stages

end Cert.ReferenceIdeal.RefValue

end
-- ==== Proof.RefLoss.lean ====
/-
  The reference's run and its value together: every weakly fair execution of the reference terminates with the
  result buffer holding, at its one index, the specification's loss of the two arguments' launch contents read by
  coordinates, and the arguments unchanged.
-/
import proofs.«114578_j14851996910158_1_alg».proof.Proof.RefRun
import proofs.«114578_j14851996910158_1_alg».proof.Proof.RefIsSpec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The specification's loss of a device's two argument buffers. -/
def lossOf (x : FVec Ideal S512x128 .f32) (lab : IVec S512 32) : EReal :=
  Cert.Spec.loss (fun i d => x (ix2 i d)) (fun i => lab (ix1 i))

theorem refOut_eq_lossOf (x : FVec Ideal S512x128 .f32) (lab : IVec S512 32) : refOut x lab = fun _ => lossOf x lab :=
  refOut_eq x lab

/-- The reference's run, with the result as the specification's loss. -/
theorem run_loss (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67)
          = (fun _ => lossOf (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (refOut_eq _ _), (h c).2⟩) (run m ρ)

end Cert.ReferenceIdeal.RefValue

end
-- ==== Proof.KI.Loss.lean ====
/-
  The kernel's scalar result, over the extended reals, is the specification's loss of its two arguments.

  At grid point `t` the numerator's accumulator gains the sum of the row losses of rows `8 t … 8 t + 7` and the
  denominator's the sum of those rows' positive counts, both from zero; after the 64 points they hold the sums over
  all 512 rows, and the stored quotient is the loss.  The rows are counted through one function on the naturals,
  zero from 512 on, so that the points' partial sums are sums over an initial segment.
-/
import proofs.«114578_j14851996910158_1_alg».proof.Proof.KI.Value
import proofs.«114578_j14851996910158_1_alg».proof.Proof.KI.Blocks
import proofs.«114578_j14851996910158_1_alg».proof.Proof.TilePos
import proofs.«114578_j14851996910158_1_alg».proof.Proof.TileMain
import proofs.«114578_j14851996910158_1_alg».proof.Proof.TileSum
import proofs.«114578_j14851996910158_1_alg».proof.Proof.RefLoss

set_option maxRecDepth 16384

open scoped BigOperators

noncomputable section

namespace Cert.KernelIdeal.Loss

open Cert.KernelIdeal Cert.KernelIdeal.Gen Cert.KernelIdeal.Hand Cert.KernelIdeal.Tile Cert.KernelIdeal.Blocks
open Idealize.ShloMosaic Idealize.ShloMosaic.TcCoe Idealize.ShloMosaic.ValueIdx
open Idealize.SL.Sem

variable (m : (ℓ : Loc nD τ sig) → Buf (Elt Ideal) ℓ) (c : Dev nD)

/-- The two arguments by coordinates. -/
abbrev embK : Cert.Spec.Emb := fun i d => (m ((c : Thread nD τ).loc main_arg0) : S512x128.Idx → EReal) (ix2 i d)
abbrev labK : Cert.Spec.Lab := fun i => (m ((c : Thread nD τ).loc main_arg1) : S512.Idx → BitVec 32) (ix1 i)

/-- A function of the rows as a function of the naturals, zero from 512 on. -/
def onNat (f : Fin 512 → EReal) (i : ℕ) : EReal := if h : i < 512 then f ⟨i, h⟩ else 0

theorem onNat_row (f : Fin 512 → EReal) (t : Fin 64) (r : Fin 8) : onNat f (8 * t.val + r.val) = f (row t r) :=
  dif_pos (row t r).isLt

/-- Summed over all rows. -/
theorem sum_onNat (f : Fin 512 → EReal) :
    ∑ k ∈ Finset.range 64, ∑ r : Fin 8, onNat f (8 * k + r.val) = ∑ i : Fin 512, f i := by
  rw [Cert.TileSum.tile_sum_prefix (onNat f) 64, ← Fin.sum_univ_eq_sum_range (onNat f) (8 * 64)]
  exact Finset.sum_congr rfl fun i _ => dif_pos i.isLt

/-! ## The grid's coordinate, the cleared value, the casts -/

theorem coords_val : ∀ t : Fin cfg0.N, ((grid0.coords t) 0).val = t.val :=
  (by decide +kernel : ∀ t : Fin grid0.N, ((grid0.coords t) 0).val = t.val)

theorem lt64 {n : ℕ} (hn : n < cfg0.N) : n < 64 := by
  have e : cfg0.N = 64 := N_0
  omega

theorem pay4_apply (y : S1x1.Idx) : k0_pay4 (F := Ideal) y = 0 := by
  unfold k0_pay4
  rw [shapeCast_self]
  exact Ideal.ofBits_zero_f32

theorem pay5_apply (y : S1x1.Idx) : k0_pay5 (F := Ideal) y = 0 := by
  unfold k0_pay5
  rw [shapeCast_self]
  exact Ideal.ofBits_zero_f32

/-- A 1×1 array read as a scalar. -/
theorem cast_scalar {α : Type} (q : S1x1.Idx → α) (h : S1x1.ShapeCasts S_) (j : S_.Idx) :
    shapeCast S_ q h j = q (ix2 (0 : Fin 1) (0 : Fin 1)) := by
  refine shapeCast_apply q h j (ix2 (0 : Fin 1) (0 : Fin 1)) ?_
  have e : (S_.rowMajor j).val = 0 := Shape.rowMajorPi_zero _ _
  rw [Shape.rowMajor_val_two, e]
  rfl

/-! ## One point's two steps -/

section Steps
/- The tile's addition to the numerator, in the form the tile's own lemma proves it. -/
variable (hTile : ∀ (x : Cert.Spec.Emb) (lab : Cert.Spec.Lab) (t : Fin 64) (i : grid0.Coords) (hi : (i 0).val = t.val)
    (v3 : Vec Ideal S8x128 .f32) (v4 : Vec Ideal S512x128 .f32) (v5 : Vec Ideal S8x1 .i32) (v7 : Vec Ideal S1x512 .i32)
    (h3 : ∀ (r : Fin 8) (d : Fin 128), v3 (ix2 r d) = x (row t r) d) (h4 : ∀ (j : Fin 512) (d : Fin 128), v4 (ix2 j d) = x j d)
    (h5 : ∀ r : Fin 8, v5 (ix2 r (0 : Fin 1)) = lab (row t r)) (h7 : ∀ j : Fin 512, v7 (ix2 (0 : Fin 1) j) = lab j)
    (s : Vec Ideal S1x1 .f32),
    k0_pay12 (F := Ideal) (k0_pay7 i v3 v4) (k0_pay8 v5 v7) (k0_pay9 i v5 v7) (k0_pay10 i v3 v4) s (ix2 (0 : Fin 1) (0 : Fin 1))
      = s (ix2 (0 : Fin 1) (0 : Fin 1)) + ∑ r : Fin 8, Cert.Spec.rowLoss x lab (row t r))

include hTile in
theorem stepA_apply (n : ℕ) (hn : n < cfg0.N) (s : Vec Ideal S1x1 .f32) :
    stepA (F := Ideal) (grid0.coords ⟨n, hn⟩) (iblk m c 0 ⟨n, hn⟩) (iblk m c 1 ⟨n, hn⟩) (iblk m c 2 ⟨n, hn⟩) (iblk m c 3 ⟨n, hn⟩) s
        (ix2 (0 : Fin 1) (0 : Fin 1))
      = s (ix2 (0 : Fin 1) (0 : Fin 1))
        + ∑ r : Fin 8, onNat (Cert.Spec.rowLoss (embK m c) (labK m c)) (8 * n + r.val) := by
  unfold stepA k0_pay1
  rw [shapeCast_self]
  rw [hTile (embK m c) (labK m c) ⟨n, lt64 hn⟩ (grid0.coords ⟨n, hn⟩) (coords_val ⟨n, hn⟩) _ _ _ _
    (fun r d => iblk0_apply m c ⟨n, hn⟩ r d) (fun j d => iblk1_apply m c ⟨n, hn⟩ j d)
    (fun r => iblk2_apply m c ⟨n, hn⟩ r 0) (fun j => iblk3_apply m c ⟨n, hn⟩ 0 j) s]
  exact congrArg (fun z => s (ix2 (0 : Fin 1) (0 : Fin 1)) + z)
    (Finset.sum_congr rfl fun r _ => (onNat_row _ ⟨n, lt64 hn⟩ r).symm)

theorem stepB_apply (n : ℕ) (hn : n < cfg0.N) (s : Vec Ideal S1x1 .f32) :
    stepB (F := Ideal) (grid0.coords ⟨n, hn⟩) (iblk m c 2 ⟨n, hn⟩) (iblk m c 3 ⟨n, hn⟩) s (ix2 (0 : Fin 1) (0 : Fin 1))
      = s (ix2 (0 : Fin 1) (0 : Fin 1)) + ∑ r : Fin 8, onNat (Cert.Spec.rowPos (labK m c)) (8 * n + r.val) := by
  unfold stepB k0_pay2
  rw [shapeCast_self, addf_apply]
  rw [tile_pos (labK m c) ⟨n, lt64 hn⟩ (grid0.coords ⟨n, hn⟩) (coords_val ⟨n, hn⟩) _ _
    (fun r => iblk2_apply m c ⟨n, hn⟩ r 0) (fun j => iblk3_apply m c ⟨n, hn⟩ 0 j)]
  exact congrArg (fun z => s (ix2 (0 : Fin 1) (0 : Fin 1)) + z)
    (Finset.sum_congr rfl fun r _ => (onNat_row _ ⟨n, lt64 hn⟩ r).symm)

/-! ## The accumulators after each point -/

include hTile in
theorem accA_apply : ∀ (n : ℕ) (hn : n < cfg0.N),
    accA (F := Ideal) m c n hn (ix2 (0 : Fin 1) (0 : Fin 1))
      = ∑ k ∈ Finset.range (n + 1), ∑ r : Fin 8, onNat (Cert.Spec.rowLoss (embK m c) (labK m c)) (8 * k + r.val) := by
  intro n
  induction n with
  | zero =>
    intro hn
    show stepA (F := Ideal) _ _ _ _ _ (k0_pay4 (F := Ideal)) _ = _
    rw [stepA_apply m c hTile 0 hn, pay4_apply, zero_add, Finset.sum_range_one]
  | succ n ih =>
    intro hn
    show stepA (F := Ideal) _ _ _ _ _ (accA (F := Ideal) m c n (Nat.lt_of_succ_lt hn)) _ = _
    rw [stepA_apply m c hTile (n + 1) hn, ih (Nat.lt_of_succ_lt hn), ← Finset.sum_range_succ]

theorem accB_apply : ∀ (n : ℕ) (hn : n < cfg0.N),
    accB (F := Ideal) m c n hn (ix2 (0 : Fin 1) (0 : Fin 1))
      = ∑ k ∈ Finset.range (n + 1), ∑ r : Fin 8, onNat (Cert.Spec.rowPos (labK m c)) (8 * k + r.val) := by
  intro n
  induction n with
  | zero =>
    intro hn
    show stepB (F := Ideal) _ _ _ (k0_pay5 (F := Ideal)) _ = _
    rw [stepB_apply m c 0 hn, pay5_apply, zero_add, Finset.sum_range_one]
  | succ n ih =>
    intro hn
    show stepB (F := Ideal) _ _ _ (accB (F := Ideal) m c n (Nat.lt_of_succ_lt hn)) _ = _
    rw [stepB_apply m c (n + 1) hn, ih (Nat.lt_of_succ_lt hn), ← Finset.sum_range_succ]

/-! ## The quotient and the result -/

include hTile in
theorem quot_apply : quot (F := Ideal) m c (ix2 (0 : Fin 1) (0 : Fin 1)) = Cert.Spec.loss (embK m c) (labK m c) := by
  unfold quot k0_pay3 Cert.Spec.loss
  rw [divf_apply, accA_apply m c hTile 63 lt63, accB_apply m c 63 lt63, sum_onNat, sum_onNat]

include hTile in
/-- The kernel's scalar result is the specification's loss of the two arguments. -/
theorem result_loss_of :
    V2 m c (Proc.devRef .tc main_v3)
      = fun _ => Cert.Spec.loss (fun i d => (m ((c : Thread nD τ).loc main_arg0) : S512x128.Idx → EReal) (ix2 i d))
          (fun i => (m ((c : Thread nD τ).loc main_arg1) : S512.Idx → BitVec 32) (ix1 i)) := by
  rw [result_eq]
  funext j
  rw [cast_scalar, quot_apply m c hTile]

include hTile in
/-- The same, with the loss written as the reference's run states it. -/
theorem result_lossOf_of :
    V2 m c (Proc.devRef .tc main_v3)
      = fun _ => Cert.ReferenceIdeal.RefValue.lossOf (m ((c : Thread nD τ).loc main_arg0)) (m ((c : Thread nD τ).loc main_arg1)) :=
  result_loss_of m c hTile

end Steps

/-! ## With the tile's lemma -/

/-- The kernel's scalar result is the specification's loss of the two arguments read by coordinates. -/
theorem result_loss :
    V2 m c (Proc.devRef .tc main_v3)
      = fun _ => Cert.Spec.loss (fun i d => (m ((c : Thread nD τ).loc main_arg0) : S512x128.Idx → EReal) (ix2 i d))
          (fun i => (m ((c : Thread nD τ).loc main_arg1) : S512.Idx → BitVec 32) (ix1 i)) :=
  result_loss_of m c tile_loss

/-- The same, with the loss written as the reference's run states it. -/
theorem result_lossOf :
    V2 m c (Proc.devRef .tc main_v3)
      = fun _ => Cert.ReferenceIdeal.RefValue.lossOf (m ((c : Thread nD τ).loc main_arg0)) (m ((c : Thread nD τ).loc main_arg1)) :=
  result_lossOf_of m c tile_loss

end Cert.KernelIdeal.Loss

end
-- ==== Proof.lean ====
/-
  The certificate of the semi-hard triplet loss kernel against its reference.

  Both programs compute, over the extended reals, the loss of `Proof/Spec.lean`: for every anchor and positive the
  margin plus their distance minus the distance of the semi-hard negative, clipped at zero and averaged over the
  positive pairs. The reference computes it on whole 512×512 and 512×512×512 arrays; the kernel walks the anchors in 64
  tiles of 8 rows, adds each tile's numerator and denominator into two 1×1 accumulators (cleared at the first tile) and
  stores their quotient at the last tile. The two agree because a sum over the 512 anchors is the sum over the tiles of
  the sums over each tile's rows, the diagonal of the distance matrix is zero whether it is cleared by a selection or by
  a product with `1 - [i = j]`, and adjacency is `1 - [labels differ]`; no law used needs the inputs finite.

  The frames: the reference is a line of host operations (`Proof/RefRun.lean`); the kernel's region is launched with
  the embeddings' array read by two windows, its buffer split between them and joined back at the exit
  (`Proof/KI/Run.lean`, and `Proof/K/Run.lean` for the word-level program, whose text is the same). The kernel's value
  is read off that run (`Proof/KI/Value.lean`, `Proof/KI/Loss.lean`), the reference's off its own (`Proof/RefLoss.lean`).
-/
import proofs.«114578_j14851996910158_1_alg».proof.Defs
import proofs.«114578_j14851996910158_1_alg».proof.Proof.Gen.Kernel
import proofs.«114578_j14851996910158_1_alg».proof.Proof.Gen.Kernel.Skeleton
import proofs.«114578_j14851996910158_1_alg».proof.Proof.Gen.Kernel.Launch
import proofs.«114578_j14851996910158_1_alg».proof.Proof.Gen.Kernel.Points
import proofs.«114578_j14851996910158_1_alg».proof.Proof.Gen.KernelIdeal
import proofs.«114578_j14851996910158_1_alg».proof.Proof.Gen.KernelIdeal.Skeleton
import proofs.«114578_j14851996910158_1_alg».proof.Proof.Gen.KernelIdeal.Launch
import proofs.«114578_j14851996910158_1_alg».proof.Proof.Gen.KernelIdeal.Points
import proofs.«114578_j14851996910158_1_alg».proof.Proof.Gen.ReferenceIdeal
import proofs.«114578_j14851996910158_1_alg».proof.Proof.Gen.Pre_finite_inputs
import proofs.«114578_j14851996910158_1_alg».proof.Proof.K.Run
import proofs.«114578_j14851996910158_1_alg».proof.Proof.KI.Loss
import proofs.«114578_j14851996910158_1_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel runs to the end and leaves both arguments as they were. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel, -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- and the idealized reference. -/
theorem frame_ri : Cert.frame_ReferenceIdeal (hReferenceIdeal := Cert.ReferenceIdeal.Gen.facts) (hPre_finite_inputs := Cert.Pre_finite_inputs.Gen.facts) :=
  fun m ρ _ => Cert.ReferenceIdeal.RefValue.frame m ρ

/-- The idealization rewrote nothing. -/
theorem preserves : Cert.preserves_Kernel_KernelIdeal := trivial

/-- From memories that agree on the two arguments both idealized programs end with the specification's loss of those
    arguments in their result: the kernel's accumulated quotient and the reference's whole-array quotient are one
    extended real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c _ => Cert.ReferenceIdeal.RefValue.lossOf
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run (Cert.KernelIdeal.defs (F := Ideal)) _ _).mono
      (fun _ h c => ⟨(h c).1.trans (Cert.KernelIdeal.Loss.result_lossOf m c), (h c).2⟩)
      (Cert.KernelIdeal.Hand.run_main (F := Ideal) m ρ)
  · refine (θ_run (Cert.ReferenceIdeal.defs (F := Ideal)) _ _).mono (fun _ h c => ⟨(h c).1.trans ?_, (h c).2⟩)
      (Cert.ReferenceIdeal.RefValue.run_loss m' ρ')
    rw [(hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
